-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v204)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v204) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S4x512x512 : Shape := ⟨3, ![4, 512, 512]⟩
abbrev S4x512 : Shape := ⟨2, ![4, 512]⟩
abbrev S4x512x256 : Shape := ⟨3, ![4, 512, 256]⟩
abbrev S4x256 : Shape := ⟨2, ![4, 256]⟩
abbrev S4x250000 : Shape := ⟨2, ![4, 250000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_
  bcast_S_S4x512 : S_.BroadcastsInDim S4x512 (![] : Fin 0 → Fin S4x512.rank)
  reducesTo_S4x512_S_d0_1 : S4x512.ReducesTo [0, 1] S_
  bcast_S_S4x512x256 : S_.BroadcastsInDim S4x512x256 (![] : Fin 0 → Fin S4x512x256.rank)
  reducesTo_S4x512x256_S_d0_1_2 : S4x512x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part1 {F : FTy → Type} [FloatOps F] (main_arg4 : FVec F S4x512x256 .f32) (main_arg5 : FVec F S4x512x256 .f32) (main_arg6 : FVec F S4x256 .f32) (main_v13 : IVec S_ 1) (main_v16 : IVec S4x512 1) : IVec S_ 1 :=
  let main_c_5 : IVec S_ 1 := constantI S_ 1 1#1
  let main_v17 : IVec S_ 1 := (fun x v => Host.reduce IntOp.andi x v reducesTo_S4x512_S_d0_1 h_S_) main_v16 main_c_5
  let main_v18 : IVec S_ 1 := andi main_v13 main_v17
  let main_v19 : FVec F S4x512x256 .f32 := Host.absf main_arg4
  let main_cst_6 : FVec F S_ .f32 := constant S_ .f32 0x7F800000#32
  let main_v20 : FVec F S4x512x256 .f32 := broadcastInDim S4x512x256 ![] bcast_S_S4x512x256 main_cst_6
  let main_v21 : IVec S4x512x256 1 := cmpf .olt main_v19 main_v20
  let main_c_7 : IVec S_ 1 := constantI S_ 1 1#1
  let main_v22 : IVec S_ 1 := (fun x v => Host.reduce IntOp.andi x v reducesTo_S4x512x256_S_d0_1_2 h_S_) main_v21 main_c_7
  let main_v23 : IVec S_ 1 := andi main_v18 main_v22
  let main_v24 : FVec F S4x512x256 .f32 := Host.absf main_arg5
  let main_cst_8 : FVec F S_ .f32 := constant S_ .f32 0x7F800000#32
  let main_v25 : FVec F S4x512x256 .f32 := broadcastInDim S4x512x256 ![] bcast_S_S4x512x256 main_cst_8
  let main_v26 : IVec S4x512x256 1 := cmpf .olt main_v24 main_v25
  let main_c_9 : IVec S_ 1 := constantI S_ 1 1#1
  let main_v27 : IVec S_ 1 := (fun x v => Host.reduce IntOp.andi x v reducesTo_S4x512x256_S_d0_1_2 h_S_) main_v26 main_c_9
  let main_v28 : IVec S_ 1 := andi main_v23 main_v27
  let main_v29 : FVec F S4x256 .f32 := Host.absf main_arg6
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  main_v33

def fn {F : FTy → Type} [FloatOps F] (main_arg0 : FVec F S50000x512 .f32) (main_arg1 : FVec F S4x512x512 .f32) (main_arg2 : FVec F S4x512x512 .f32) (main_arg3 : FVec F S4x512 .f32) (main_arg4 : FVec F S4x512x256 .f32) (main_arg5 : FVec F S4x512x256 .f32) (main_arg6 : FVec F S4x256 .f32) (main_arg7 : IVec S4x250000 32) (main_arg8 : IVec S4x250000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S4x512x512 .f32 := Host.absf main_arg1
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  let main_v9 : FVec F S4x512x512 .f32 := Host.absf main_arg2
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_c_3 : IVec S_ 1 := constantI S_ 1 1#1
  let main_v12 : IVec S_ 1 := (fun x v => Host.reduce IntOp.andi x v reducesTo_S4x512x512_S_d0_1_2 h_S_) main_v11 main_c_3
  let main_v13 : IVec S_ 1 := andi main_v8 main_v12
  let main_v14 : FVec F S4x512 .f32 := Host.absf main_arg3
  let main_cst_4 : FVec F S_ .f32 := constant S_ .f32 0x7F800000#32
  let main_v15 : FVec F S4x512 .f32 := broadcastInDim S4x512 ![] bcast_S_S4x512 main_cst_4
  let main_v16 : IVec S4x512 1 := cmpf .olt main_v14 main_v15
  fn_part1 (F := F) main_arg4 main_arg5 main_arg6 main_v13 main_v16
-- ==== Kernel.lean ====
abbrev S50000x512 : Shape := ⟨2, ![50000, 512]⟩
abbrev S4x512x512 : Shape := ⟨3, ![4, 512, 512]⟩
abbrev S4x512 : Shape := ⟨2, ![4, 512]⟩
abbrev S4x512x256 : Shape := ⟨3, ![4, 512, 256]⟩
abbrev S4x256 : Shape := ⟨2, ![4, 256]⟩
abbrev S4x250000 : Shape := ⟨2, ![4, 250000]⟩
abbrev S_ : Shape := ⟨0, ![]⟩
abbrev S50000x1 : Shape := ⟨2, ![50000, 1]⟩
abbrev S50000x513 : Shape := ⟨2, ![50000, 513]⟩
abbrev S1x250000 : Shape := ⟨2, ![1, 250000]⟩
abbrev S250000 : Shape := ⟨1, ![250000]⟩
abbrev S250000x1 : Shape := ⟨2, ![250000, 1]⟩
abbrev S250000x513 : Shape := ⟨2, ![250000, 513]⟩
abbrev S512x512 : Shape := ⟨2, ![512, 512]⟩
abbrev S512 : Shape := ⟨1, ![512]⟩
abbrev S1x512x512 : Shape := ⟨3, ![1, 512, 512]⟩
abbrev S1x512 : Shape := ⟨2, ![1, 512]⟩
abbrev S1000x512 : Shape := ⟨2, ![1000, 512]⟩
abbrev S512x256 : Shape := ⟨2, ![512, 256]⟩
abbrev S256 : Shape := ⟨1, ![256]⟩
abbrev S1x512x256 : Shape := ⟨3, ![1, 512, 256]⟩
abbrev S1x256 : Shape := ⟨2, ![1, 256]⟩
abbrev S50000x256 : Shape := ⟨2, ![50000, 256]⟩
abbrev S1000x256 : Shape := ⟨2, ![1000, 256]⟩

abbrev nBuf : Space → Nat
  | .hbm => 252
  | .vmem => 36
  | .smem => 0
  | _ => 0

abbrev hbmTy0_0 (i : Nat) : BufTy := match i % 128 with
  | 0 => ⟨S50000x512, .f32⟩
  | 1 => ⟨S4x512x512, .f32⟩
  | 2 => ⟨S4x512x512, .f32⟩
  | 3 => ⟨S4x512, .f32⟩
  | 4 => ⟨S4x512x256, .f32⟩
  | 5 => ⟨S4x512x256, .f32⟩
  | 6 => ⟨S4x256, .f32⟩
  | 7 => ⟨S4x250000, .i32⟩
  | 8 => ⟨S4x250000, .i32⟩
  | 9 => ⟨S_, .bf16⟩
  | 10 => ⟨S50000x1, .bf16⟩
  | 11 => ⟨S50000x512, .bf16⟩
  | 12 => ⟨S50000x513, .bf16⟩
  | 13 => ⟨S1x250000, .i32⟩
  | 14 => ⟨S250000, .i32⟩
  | 15 => ⟨S1x250000, .i32⟩
  | 16 => ⟨S250000, .i32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S250000x513, .bf16⟩
  | 26 => ⟨S250000x513, .f32⟩
  | 27 => ⟨S_, .f32⟩
  | 28 => ⟨S50000x513, .f32⟩
  | 29 => ⟨S250000x1, .i32⟩
  | 30 => ⟨S50000x513, .f32⟩
  | 31 => ⟨S50000x512, .f32⟩
  | 32 => ⟨S50000x1, .f32⟩
  | 33 => ⟨S_, .f32⟩
  | 34 => ⟨S50000x1, .f32⟩
  | 35 => ⟨S50000x1, .f32⟩
  | 36 => ⟨S50000x512, .f32⟩
  | 37 => ⟨S50000x512, .f32⟩
  | 38 => ⟨S50000x512, .bf16⟩
  | 39 => ⟨S1x250000, .i32⟩
  | 40 => ⟨S250000, .i32⟩
  | 41 => ⟨S1x250000, .i32⟩
  | 42 => ⟨S250000, .i32⟩
  | 43 => ⟨S_, .i32⟩
  | 44 => ⟨S250000, .i32⟩
  | 45 => ⟨S250000, .i1⟩
  | 46 => ⟨S_, .i32⟩
  | 47 => ⟨S250000, .i32⟩
  | 48 => ⟨S250000, .i32⟩
  | 49 => ⟨S250000, .i32⟩
  | 50 => ⟨S250000x1, .i32⟩
  | 51 => ⟨S250000x513, .bf16⟩
  | 52 => ⟨S250000x513, .f32⟩
  | 53 => ⟨S_, .f32⟩
  | 54 => ⟨S50000x513, .f32⟩
  | 55 => ⟨S250000x1, .i32⟩
  | 56 => ⟨S50000x513, .f32⟩
  | 57 => ⟨S50000x512, .f32⟩
  | 58 => ⟨S50000x1, .f32⟩
  | 59 => ⟨S_, .f32⟩
  | 60 => ⟨S50000x1, .f32⟩
  | 61 => ⟨S50000x1, .f32⟩
  | 62 => ⟨S50000x512, .f32⟩
  | 63 => ⟨S50000x512, .f32⟩
  | 64 => ⟨S50000x512, .bf16⟩
  | 65 => ⟨S1x250000, .i32⟩
  | 66 => ⟨S250000, .i32⟩
  | 67 => ⟨S1x250000, .i32⟩
  | 68 => ⟨S250000, .i32⟩
  | 69 => ⟨S_, .i32⟩
  | 70 => ⟨S250000, .i32⟩
  | 71 => ⟨S250000, .i1⟩
  | 72 => ⟨S_, .i32⟩
  | 73 => ⟨S250000, .i32⟩
  | 74 => ⟨S250000, .i32⟩
  | 75 => ⟨S250000, .i32⟩
  | 76 => ⟨S250000x1, .i32⟩
  | 77 => ⟨S250000x513, .bf16⟩
  | 78 => ⟨S250000x513, .f32⟩
  | 79 => ⟨S_, .f32⟩
  | 80 => ⟨S50000x513, .f32⟩
  | 81 => ⟨S250000x1, .i32⟩
  | 82 => ⟨S50000x513, .f32⟩
  | 83 => ⟨S50000x512, .f32⟩
  | 84 => ⟨S50000x1, .f32⟩
  | 85 => ⟨S_, .f32⟩
  | 86 => ⟨S50000x1, .f32⟩
  | 87 => ⟨S50000x1, .f32⟩
  | 88 => ⟨S50000x512, .f32⟩
  | 89 => ⟨S50000x512, .f32⟩
  | 90 => ⟨S50000x512, .bf16⟩
  | 91 => ⟨S1x250000, .i32⟩
  | 92 => ⟨S250000, .i32⟩
  | 93 => ⟨S1x250000, .i32⟩
  | 94 => ⟨S250000, .i32⟩
  | 95 => ⟨S_, .i32⟩
  | 96 => ⟨S250000, .i32⟩
  | 97 => ⟨S250000, .i1⟩
  | 98 => ⟨S_, .i32⟩
  | 99 => ⟨S250000, .i32⟩
  | 100 => ⟨S250000, .i32⟩
  | 101 => ⟨S250000, .i32⟩
  | 102 => ⟨S250000x1, .i32⟩
  | 103 => ⟨S250000x513, .bf16⟩
  | 104 => ⟨S250000x513, .f32⟩
  | 105 => ⟨S_, .f32⟩
  | 106 => ⟨S50000x513, .f32⟩
  | 107 => ⟨S250000x1, .i32⟩
  | 108 => ⟨S50000x513, .f32⟩
  | 109 => ⟨S50000x512, .f32⟩
  | 110 => ⟨S50000x1, .f32⟩
  | 111 => ⟨S_, .f32⟩
  | 112 => ⟨S50000x1, .f32⟩
  | 113 => ⟨S50000x1, .f32⟩
  | 114 => ⟨S50000x512, .f32⟩
  | 115 => ⟨S50000x512, .f32⟩
  | 116 => ⟨S50000x512, .bf16⟩
  | 117 => ⟨S_, .f32⟩
  | 118 => ⟨S512x512, .f32⟩
  | 119 => ⟨S_, .f32⟩
  | 120 => ⟨S512, .f32⟩
  | 121 => ⟨S1x512x512, .f32⟩
  | 122 => ⟨S512x512, .f32⟩
  | 123 => ⟨S1x512x512, .f32⟩
  | 124 => ⟨S512x512, .f32⟩
  | 125 => ⟨S1x512x512, .f32⟩
  | 126 => ⟨S512x512, .f32⟩
  | 127 => ⟨S1x512x512, .f32⟩
  | _ => ⟨S50000x512, .f32⟩

abbrev hbmTy0_1 (i : Nat) : BufTy := match i % 128 with
  | 0 => ⟨S512x512, .f32⟩
  | 1 => ⟨S1x512, .f32⟩
  | 2 => ⟨S50000x512, .bf16⟩
  | 3 => ⟨S_, .bf16⟩
  | 4 => ⟨S50000x1, .bf16⟩
  | 5 => ⟨S50000x513, .bf16⟩
  | 6 => ⟨S1x250000, .i32⟩
  | 7 => ⟨S250000, .i32⟩
  | 8 => ⟨S1x250000, .i32⟩
  | 9 => ⟨S250000, .i32⟩
  | 10 => ⟨S_, .i32⟩
  | 11 => ⟨S250000, .i32⟩
  | 12 => ⟨S250000, .i1⟩
  | 13 => ⟨S_, .i32⟩
  | 14 => ⟨S250000, .i32⟩
  | 15 => ⟨S250000, .i32⟩
  | 16 => ⟨S250000, .i32⟩
  | 17 => ⟨S250000x1, .i32⟩
  | 18 => ⟨S250000x513, .bf16⟩
  | 19 => ⟨S250000x513, .f32⟩
  | 20 => ⟨S_, .f32⟩
  | 21 => ⟨S50000x513, .f32⟩
  | 22 => ⟨S250000x1, .i32⟩
  | 23 => ⟨S50000x513, .f32⟩
  | 24 => ⟨S50000x512, .f32⟩
  | 25 => ⟨S50000x1, .f32⟩
  | 26 => ⟨S_, .f32⟩
  | 27 => ⟨S50000x1, .f32⟩
  | 28 => ⟨S50000x1, .f32⟩
  | 29 => ⟨S50000x512, .f32⟩
  | 30 => ⟨S50000x512, .f32⟩
  | 31 => ⟨S50000x512, .bf16⟩
  | 32 => ⟨S1x250000, .i32⟩
  | 33 => ⟨S250000, .i32⟩
  | 34 => ⟨S1x250000, .i32⟩
  | 35 => ⟨S250000, .i32⟩
  | 36 => ⟨S_, .i32⟩
  | 37 => ⟨S250000, .i32⟩
  | 38 => ⟨S250000, .i1⟩
  | 39 => ⟨S_, .i32⟩
  | 40 => ⟨S250000, .i32⟩
  | 41 => ⟨S250000, .i32⟩
  | 42 => ⟨S250000, .i32⟩
  | 43 => ⟨S250000x1, .i32⟩
  | 44 => ⟨S250000x513, .bf16⟩
  | 45 => ⟨S250000x513, .f32⟩
  | 46 => ⟨S_, .f32⟩
  | 47 => ⟨S50000x513, .f32⟩
  | 48 => ⟨S250000x1, .i32⟩
  | 49 => ⟨S50000x513, .f32⟩
  | 50 => ⟨S50000x512, .f32⟩
  | 51 => ⟨S50000x1, .f32⟩
  | 52 => ⟨S_, .f32⟩
  | 53 => ⟨S50000x1, .f32⟩
  | 54 => ⟨S50000x1, .f32⟩
  | 55 => ⟨S50000x512, .f32⟩
  | 56 => ⟨S50000x512, .f32⟩
  | 57 => ⟨S50000x512, .bf16⟩
  | 58 => ⟨S1x250000, .i32⟩
  | 59 => ⟨S250000, .i32⟩
  | 60 => ⟨S1x250000, .i32⟩
  | 61 => ⟨S250000, .i32⟩
  | 62 => ⟨S_, .i32⟩
  | 63 => ⟨S250000, .i32⟩
  | 64 => ⟨S250000, .i1⟩
  | 65 => ⟨S_, .i32⟩
  | 66 => ⟨S250000, .i32⟩
  | 67 => ⟨S250000, .i32⟩
  | 68 => ⟨S250000, .i32⟩
  | 69 => ⟨S250000x1, .i32⟩
  | 70 => ⟨S250000x513, .bf16⟩
  | 71 => ⟨S250000x513, .f32⟩
  | 72 => ⟨S_, .f32⟩
  | 73 => ⟨S50000x513, .f32⟩
  | 74 => ⟨S250000x1, .i32⟩
  | 75 => ⟨S50000x513, .f32⟩
  | 76 => ⟨S50000x512, .f32⟩
  | 77 => ⟨S50000x1, .f32⟩
  | 78 => ⟨S_, .f32⟩
  | 79 => ⟨S50000x1, .f32⟩
  | 80 => ⟨S50000x1, .f32⟩
  | 81 => ⟨S50000x512, .f32⟩
  | 82 => ⟨S50000x512, .f32⟩
  | 83 => ⟨S50000x512, .bf16⟩
  | 84 => ⟨S1x250000, .i32⟩
  | 85 => ⟨S250000, .i32⟩
  | 86 => ⟨S1x250000, .i32⟩
  | 87 => ⟨S250000, .i32⟩
  | 88 => ⟨S_, .i32⟩
  | 89 => ⟨S250000, .i32⟩
  | 90 => ⟨S250000, .i1⟩
  | 91 => ⟨S_, .i32⟩
  | 92 => ⟨S250000, .i32⟩
  | 93 => ⟨S250000, .i32⟩
  | 94 => ⟨S250000, .i32⟩
  | 95 => ⟨S250000x1, .i32⟩
  | 96 => ⟨S250000x513, .bf16⟩
  | 97 => ⟨S250000x513, .f32⟩
  | 98 => ⟨S_, .f32⟩
  | 99 => ⟨S50000x513, .f32⟩
  | 100 => ⟨S250000x1, .i32⟩
  | 101 => ⟨S50000x513, .f32⟩
  | 102 => ⟨S50000x512, .f32⟩
  | 103 => ⟨S50000x1, .f32⟩
  | 104 => ⟨S_, .f32⟩
  | 105 => ⟨S50000x1, .f32⟩
  | 106 => ⟨S50000x1, .f32⟩
  | 107 => ⟨S50000x512, .f32⟩
  | 108 => ⟨S50000x512, .f32⟩
  | 109 => ⟨S50000x512, .bf16⟩
  | 110 => ⟨S_, .f32⟩
  | 111 => ⟨S512x256, .f32⟩
  | 112 => ⟨S_, .f32⟩
  | 113 => ⟨S256, .f32⟩
  | 114 => ⟨S1x512x256, .f32⟩
  | 115 => ⟨S512x256, .f32⟩
  | 116 => ⟨S1x512x256, .f32⟩
  | 117 => ⟨S512x256, .f32⟩
  | 118 => ⟨S1x512x256, .f32⟩
  | 119 => ⟨S512x256, .f32⟩
  | 120 => ⟨S1x512x256, .f32⟩
  | 121 => ⟨S512x256, .f32⟩
  | 122 => ⟨S1x256, .f32⟩
  | 123 => ⟨S50000x256, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S1000x512, .bf16⟩
  | .local _ .vmem, ⟨3, _⟩ => ⟨S1000x512, .bf16⟩
  | .local _ .vmem, ⟨4, _⟩ => ⟨S1000x512, .bf16⟩
  | .local _ .vmem, ⟨5, _⟩ => ⟨S1000x512, .bf16⟩
  | .local _ .vmem, ⟨6, _⟩ => ⟨S1000x512, .bf16⟩
  | .local _ .vmem, ⟨7, _⟩ => ⟨S1000x512, .bf16⟩
  | .local _ .vmem, ⟨8, _⟩ => ⟨S1000x512, .bf16⟩
  | .local _ .vmem, ⟨9, _⟩ => ⟨S1000x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S1x512, .f32⟩
  | .local _ .vmem, ⟨16, _⟩ => ⟨S1000x512, .bf16⟩
  | .local _ .vmem, ⟨17, _⟩ => ⟨S1000x512, .bf16⟩
  | .local _ .vmem, ⟨18, _⟩ => ⟨S1000x512, .bf16⟩
  | .local _ .vmem, ⟨19, _⟩ => ⟨S1000x512, .bf16⟩
  | .local _ .vmem, ⟨20, _⟩ => ⟨S1000x512, .bf16⟩
  | .local _ .vmem, ⟨21, _⟩ => ⟨S1000x512, .bf16⟩
  | .local _ .vmem, ⟨22, _⟩ => ⟨S1000x512, .bf16⟩
  | .local _ .vmem, ⟨23, _⟩ => ⟨S1000x512, .bf16⟩
  | .local _ .vmem, ⟨24, _⟩ => ⟨S1000x512, .bf16⟩
  | .local _ .vmem, ⟨25, _⟩ => ⟨S1000x512, .bf16⟩
  | .local _ .vmem, ⟨26, _⟩ => ⟨S1000x512, .bf16⟩
  | .local _ .vmem, ⟨27, _⟩ => ⟨S1000x512, .bf16⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S1x256, .f32⟩
  | .local _ .vmem, ⟨34, _⟩ => ⟨S1000x256, .f32⟩
  | .local _ .vmem, ⟨35, _⟩ => ⟨S1000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_3 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_7 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_11 : Ref sig .tc := ⟨.hbm, 95, rfl⟩
abbrev main_v73 : Ref sig .tc := ⟨.hbm, 96, rfl⟩
abbrev main_v74 : Ref sig .tc := ⟨.hbm, 97, rfl⟩
abbrev main_c_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_14 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_15 : Ref sig .tc := ⟨.hbm, 117, rfl⟩
abbrev main_v91 : Ref sig .tc := ⟨.hbm, 118, rfl⟩
abbrev main_cst_16 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_17 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_c_18 : Ref sig .tc := ⟨.hbm, 138, rfl⟩
abbrev main_v109 : Ref sig .tc := ⟨.hbm, 139, rfl⟩
abbrev main_v110 : Ref sig .tc := ⟨.hbm, 140, rfl⟩
abbrev main_c_19 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_20 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_21 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_c_22 : Ref sig .tc := ⟨.hbm, 164, rfl⟩
abbrev main_v131 : Ref sig .tc := ⟨.hbm, 165, rfl⟩
abbrev main_v132 : Ref sig .tc := ⟨.hbm, 166, rfl⟩
abbrev main_c_23 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_24 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_25 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_c_26 : Ref sig .tc := ⟨.hbm, 190, rfl⟩
abbrev main_v153 : Ref sig .tc := ⟨.hbm, 191, rfl⟩
abbrev main_v154 : Ref sig .tc := ⟨.hbm, 192, rfl⟩
abbrev main_c_27 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_28 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_cst_29 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_c_30 : Ref sig .tc := ⟨.hbm, 216, rfl⟩
abbrev main_v175 : Ref sig .tc := ⟨.hbm, 217, rfl⟩
abbrev main_v176 : Ref sig .tc := ⟨.hbm, 218, rfl⟩
abbrev main_c_31 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_cst_32 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_33 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_cst_34 : Ref sig .tc := ⟨.hbm, 238, rfl⟩
abbrev main_v193 : Ref sig .tc := ⟨.hbm, 239, rfl⟩
abbrev main_cst_35 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg8_0 : Ref sig .tc := ⟨.vmem, 31, rfl⟩
abbrev cc1_stg9_0 : Ref sig .tc := ⟨.vmem, 32, rfl⟩
abbrev cc1_stg10_0 : Ref sig .tc := ⟨.vmem, 33, rfl⟩
abbrev cc1_stg11_0 : Ref sig .tc := ⟨.vmem, 34, rfl⟩
abbrev cc1_stg11_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem6_0 : DmaSem sig := 29
abbrev cc1_sem7_0 : DmaSem sig := 30
abbrev cc1_sem8_0 : DmaSem sig := 31
abbrev cc1_sem9_0 : DmaSem sig := 32
abbrev cc1_sem10_0 : DmaSem sig := 33
abbrev cc1_sem11_0 : DmaSem sig := 34
abbrev cc1_sem11_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S512x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S512x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S50000x1 : S_.BroadcastsInDim S50000x1 (![] : Fin 0 → Fin S50000x1.rank)
  bitsLt_bf16_f32 : FTy.bits .bf16 < FTy.bits .f32
  concatenates_S50000x512_S50000x1_S50000x513_d1 : Shape.Concatenates [S50000x512, S50000x1] S50000x513 1
  slices_S4x250000_S1x250000_0_0 : S4x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  bcast_S_S50000x513 : S_.BroadcastsInDim S50000x513 (![] : Fin 0 → Fin S50000x513.rank)
  slices_S50000x513_S50000x512_0_0 : S50000x513.Slices ![0, 0] S50000x512
  slices_S50000x513_S50000x1_0_512 : S50000x513.Slices ![0, 512] S50000x1
  bcast_S50000x1_S50000x512_0_1 : S50000x1.BroadcastsInDim S50000x512 (![0, 1] : Fin 2 → Fin S50000x512.rank)
  slices_S4x250000_S1x250000_1_0 : S4x250000.Slices ![1, 0] S1x250000
  slices_S4x250000_S1x250000_2_0 : S4x250000.Slices ![2, 0] S1x250000
  slices_S4x250000_S1x250000_3_0 : S4x250000.Slices ![3, 0] S1x250000
  reducesTo_S4x512x512_S512x512_d0 : S4x512x512.ReducesTo [0] S512x512
  h_S_ : 0 < S_.numel
  reducesTo_S4x512_S512_d0 : S4x512.ReducesTo [0] S512
  slices_S4x512x512_S1x512x512_0_0_0 : S4x512x512.Slices ![0, 0, 0] S1x512x512
  shapeCasts_S1x512x512_S512x512 : S1x512x512.ShapeCasts S512x512
  slices_S4x512x512_S1x512x512_1_0_0 : S4x512x512.Slices ![1, 0, 0] S1x512x512
  slices_S4x512x512_S1x512x512_2_0_0 : S4x512x512.Slices ![2, 0, 0] S1x512x512
  slices_S4x512x512_S1x512x512_3_0_0 : S4x512x512.Slices ![3, 0, 0] S1x512x512
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  packedbf16_S1000x512_S1000x512_0_0 : (Rect.unit (s := S1000x512) ![0, 0] S1000x512.size inb_S1000x512_S1000x512_0_0).PackedRows (EltTy.packing .bf16)
  reducesTo_S4x512x256_S512x256_d0 : S4x512x256.ReducesTo [0] S512x256
  reducesTo_S4x256_S256_d0 : S4x256.ReducesTo [0] S256
  slices_S4x512x256_S1x512x256_0_0_0 : S4x512x256.Slices ![0, 0, 0] S1x512x256
  shapeCasts_S1x512x256_S512x256 : S1x512x256.ShapeCasts S512x256
  slices_S4x512x256_S1x512x256_1_0_0 : S4x512x256.Slices ![1, 0, 0] S1x512x256
  slices_S4x512x256_S1x512x256_2_0_0 : S4x512x256.Slices ![2, 0, 0] S1x512x256
  slices_S4x512x256_S1x512x256_3_0_0 : S4x512x256.Slices ![3, 0, 0] S1x512x256
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  gather_S50000x513_S250000x1_S250000x513_1_0_n_n_0_1_1513_wf : GatherDims.WF S50000x513 S250000x1 S250000x513 [1] [0] [] [0] [] 1 ![1, 513]
  scatter_S50000x513_S250000x1_S250000x513_1_0_0_1_wf : ScatterDims.WF S50000x513 S250000x1 S250000x513 [1] [0] [0] 1
  dot_S1000x512_S512x512_S1000x512_1_0_0_1_n_n_wf : DotDims.WF S1000x512 S512x512 S1000x512 [1] [0] [0] [1] [] []
  dot_S1000x512_S512x256_S1000x256_1_0_0_1_n_n_wf : DotDims.WF S1000x512 S512x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S50000x512.size a
  hwx0_1 : ∀ i : grid0.Coords, EltTy.bits .bf16 = 32 ∨ (Rect.block (s := S50000x512) S1000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S50000x512.size a
  hwx0_2 : ∀ i : grid0.Coords, EltTy.bits .bf16 = 32 ∨ (Rect.block (s := S50000x512) S1000x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S50000x512.size a
  hwx0_3 : ∀ i : grid0.Coords, EltTy.bits .bf16 = 32 ∨ (Rect.block (s := S50000x512) S1000x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x512.size a ≤ S50000x512.size a
  hwx0_4 : ∀ i : grid0.Coords, EltTy.bits .bf16 = 32 ∨ (Rect.block (s := S50000x512) S1000x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .f32 = 32 ∨ (Rect.block (s := S512x512) S512x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x512.size a ≤ S50000x512.size a
  hwx0_11 : ∀ i : grid0.Coords, EltTy.bits .bf16 = 32 ∨ (Rect.block (s := S50000x512) S1000x512.size (cc0_transform_11 i) (hinb0_11 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .bf16 = 32 ∨ (Rect.block (s := S50000x512) S1000x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x512.size a ≤ S50000x512.size a
  hwx1_1 : ∀ i : grid1.Coords, EltTy.bits .bf16 = 32 ∨ (Rect.block (s := S50000x512) S1000x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S50000x512.size a
  hwx1_2 : ∀ i : grid1.Coords, EltTy.bits .bf16 = 32 ∨ (Rect.block (s := S50000x512) S1000x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S50000x512.size a
  hwx1_3 : ∀ i : grid1.Coords, EltTy.bits .bf16 = 32 ∨ (Rect.block (s := S50000x512) S1000x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x512.size a ≤ S50000x512.size a
  hwx1_4 : ∀ i : grid1.Coords, EltTy.bits .bf16 = 32 ∨ (Rect.block (s := S50000x512) S1000x512.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .f32 = 32 ∨ (Rect.block (s := S512x256) S512x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S512x256.size a ≤ S512x256.size a
  hwx1_6 : ∀ i : grid1.Coords, EltTy.bits .f32 = 32 ∨ (Rect.block (s := S512x256) S512x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x256.size a ≤ S512x256.size a
  hwx1_7 : ∀ i : grid1.Coords, EltTy.bits .f32 = 32 ∨ (Rect.block (s := S512x256) S512x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x256.size a ≤ S512x256.size a
  hwx1_8 : ∀ i : grid1.Coords, EltTy.bits .f32 = 32 ∨ (Rect.block (s := S512x256) S512x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S512x256.size a ≤ S512x256.size a
  hwx1_9 : ∀ i : grid1.Coords, EltTy.bits .f32 = 32 ∨ (Rect.block (s := S512x256) S512x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1000x256.size a ≤ S50000x256.size a
  hwx1_11 : ∀ i : grid1.Coords, EltTy.bits .f32 = 32 ∨ (Rect.block (s := S50000x256) S1000x256.size (cc1_transform_11 i) (hinb1_11 i)).WholeWords (EltTy.packing .f32)

variable [Facts₀]

def gather_S50000x513_S250000x1_S250000x513_1_0_n_n_0_1_1513 : GatherDims S50000x513 S250000x1 S250000x513 where
  offsetDims := [1]
  collapsedSliceDims := [0]
  operandBatchingDims := []
  startIndicesBatchingDims := []
  startIndexMap := [0]
  indexVectorDim := 1
  sliceSizes := ![1, 513]
  wf := gather_S50000x513_S250000x1_S250000x513_1_0_n_n_0_1_1513_wf
def scatter_S50000x513_S250000x1_S250000x513_1_0_0_1 : ScatterDims S50000x513 S250000x1 S250000x513 where
  updateWindowDims := [1]
  insertedWindowDims := [0]
  scatterDimsToOperandDims := [0]
  indexVectorDim := 1
  wf := scatter_S50000x513_S250000x1_S250000x513_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x256_S1000x256_1_0_0_1_n_n : DotDims S1000x512 S512x256 S1000x256 where
  lhsContracting := [1]
  rhsContracting := [0]
  lhsNonContracting := [0]
  rhsNonContracting := [1]
  lhsBatch := []
  rhsBatch := []
  wf := dot_S1000x512_S512x256_S1000x256_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S1000x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S1000x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v90) S1000x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v91) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v94) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v96) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v98) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v100) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v101) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v102) S1000x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v102) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v126) S1000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v148) S1000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v170) S1000x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v192) S1000x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v193) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v196) S512x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v198) S512x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v200) S512x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v202) S512x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v203) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v204) S1000x256.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x512 : Shape := ⟨2, ![50000, 512]⟩
abbrev S4x512x512 : Shape := ⟨3, ![4, 512, 512]⟩
abbrev S4x512 : Shape := ⟨2, ![4, 512]⟩
abbrev S4x512x256 : Shape := ⟨3, ![4, 512, 256]⟩
abbrev S4x256 : Shape := ⟨2, ![4, 256]⟩
abbrev S4x250000 : Shape := ⟨2, ![4, 250000]⟩
abbrev S_ : Shape := ⟨0, ![]⟩
abbrev S1x250000 : Shape := ⟨2, ![1, 250000]⟩
abbrev S250000 : Shape := ⟨1, ![250000]⟩
abbrev S50000 : Shape := ⟨1, ![50000]⟩
abbrev S250000x1 : Shape := ⟨2, ![250000, 1]⟩
abbrev S250000x512 : Shape := ⟨2, ![250000, 512]⟩
abbrev S50000x1 : Shape := ⟨2, ![50000, 1]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S50000x256 : Shape := ⟨2, ![50000, 256]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩

abbrev nBuf : Space → Nat
  | .hbm => 352
  | .vmem => 0
  | .smem => 0
  | _ => 0

abbrev hbmTy0_0 (i : Nat) : BufTy := match i % 128 with
  | 0 => ⟨S50000x512, .f32⟩
  | 1 => ⟨S4x512x512, .f32⟩
  | 2 => ⟨S4x512x512, .f32⟩
  | 3 => ⟨S4x512, .f32⟩
  | 4 => ⟨S4x512x256, .f32⟩
  | 5 => ⟨S4x512x256, .f32⟩
  | 6 => ⟨S4x256, .f32⟩
  | 7 => ⟨S4x250000, .i32⟩
  | 8 => ⟨S4x250000, .i32⟩
  | 9 => ⟨S_, .f32⟩
  | 10 => ⟨S50000x512, .f32⟩
  | 11 => ⟨S1x250000, .i32⟩
  | 12 => ⟨S250000, .i32⟩
  | 13 => ⟨S1x250000, .i32⟩
  | 14 => ⟨S250000, .i32⟩
  | 15 => ⟨S_, .f32⟩
  | 16 => ⟨S250000, .f32⟩
  | 17 => ⟨S_, .f32⟩
  | 18 => ⟨S50000, .f32⟩
  | 19 => ⟨S250000x1, .i32⟩
  | 20 => ⟨S50000, .f32⟩
  | 21 => ⟨S_, .i32⟩
  | 22 => ⟨S250000, .i32⟩
  | 23 => ⟨S250000, .i1⟩
  | 24 => ⟨S_, .i32⟩
  | 25 => ⟨S250000, .i32⟩
  | 26 => ⟨S250000, .i32⟩
  | 27 => ⟨S250000, .i32⟩
  | 28 => ⟨S250000x1, .i32⟩
  | 29 => ⟨S250000x512, .f32⟩
  | 30 => ⟨S_, .f32⟩
  | 31 => ⟨S50000x512, .f32⟩
  | 32 => ⟨S250000x1, .i32⟩
  | 33 => ⟨S50000x512, .f32⟩
  | 34 => ⟨S_, .f32⟩
  | 35 => ⟨S50000, .f32⟩
  | 36 => ⟨S50000, .f32⟩
  | 37 => ⟨S50000x1, .f32⟩
  | 38 => ⟨S50000x512, .f32⟩
  | 39 => ⟨S50000x512, .f32⟩
  | 40 => ⟨S1x512x512, .f32⟩
  | 41 => ⟨S512x512, .f32⟩
  | 42 => ⟨S50000x512, .f32⟩
  | 43 => ⟨S50000x512, .f32⟩
  | 44 => ⟨S1x512x512, .f32⟩
  | 45 => ⟨S512x512, .f32⟩
  | 46 => ⟨S50000x512, .f32⟩
  | 47 => ⟨S50000x512, .f32⟩
  | 48 => ⟨S1x512, .f32⟩
  | 49 => ⟨S512, .f32⟩
  | 50 => ⟨S1x512, .f32⟩
  | 51 => ⟨S50000x512, .f32⟩
  | 52 => ⟨S50000x512, .f32⟩
  | 53 => ⟨S1x250000, .i32⟩
  | 54 => ⟨S250000, .i32⟩
  | 55 => ⟨S1x250000, .i32⟩
  | 56 => ⟨S250000, .i32⟩
  | 57 => ⟨S_, .f32⟩
  | 58 => ⟨S250000, .f32⟩
  | 59 => ⟨S_, .f32⟩
  | 60 => ⟨S50000, .f32⟩
  | 61 => ⟨S250000x1, .i32⟩
  | 62 => ⟨S50000, .f32⟩
  | 63 => ⟨S_, .i32⟩
  | 64 => ⟨S250000, .i32⟩
  | 65 => ⟨S250000, .i1⟩
  | 66 => ⟨S_, .i32⟩
  | 67 => ⟨S250000, .i32⟩
  | 68 => ⟨S250000, .i32⟩
  | 69 => ⟨S250000, .i32⟩
  | 70 => ⟨S250000x1, .i32⟩
  | 71 => ⟨S250000x512, .f32⟩
  | 72 => ⟨S_, .f32⟩
  | 73 => ⟨S50000x512, .f32⟩
  | 74 => ⟨S250000x1, .i32⟩
  | 75 => ⟨S50000x512, .f32⟩
  | 76 => ⟨S_, .f32⟩
  | 77 => ⟨S50000, .f32⟩
  | 78 => ⟨S50000, .f32⟩
  | 79 => ⟨S50000x1, .f32⟩
  | 80 => ⟨S50000x512, .f32⟩
  | 81 => ⟨S50000x512, .f32⟩
  | 82 => ⟨S1x512x512, .f32⟩
  | 83 => ⟨S512x512, .f32⟩
  | 84 => ⟨S50000x512, .f32⟩
  | 85 => ⟨S50000x512, .f32⟩
  | 86 => ⟨S1x512x512, .f32⟩
  | 87 => ⟨S512x512, .f32⟩
  | 88 => ⟨S50000x512, .f32⟩
  | 89 => ⟨S50000x512, .f32⟩
  | 90 => ⟨S1x512, .f32⟩
  | 91 => ⟨S512, .f32⟩
  | 92 => ⟨S1x512, .f32⟩
  | 93 => ⟨S50000x512, .f32⟩
  | 94 => ⟨S50000x512, .f32⟩
  | 95 => ⟨S1x250000, .i32⟩
  | 96 => ⟨S250000, .i32⟩
  | 97 => ⟨S1x250000, .i32⟩
  | 98 => ⟨S250000, .i32⟩
  | 99 => ⟨S_, .f32⟩
  | 100 => ⟨S250000, .f32⟩
  | 101 => ⟨S_, .f32⟩
  | 102 => ⟨S50000, .f32⟩
  | 103 => ⟨S250000x1, .i32⟩
  | 104 => ⟨S50000, .f32⟩
  | 105 => ⟨S_, .i32⟩
  | 106 => ⟨S250000, .i32⟩
  | 107 => ⟨S250000, .i1⟩
  | 108 => ⟨S_, .i32⟩
  | 109 => ⟨S250000, .i32⟩
  | 110 => ⟨S250000, .i32⟩
  | 111 => ⟨S250000, .i32⟩
  | 112 => ⟨S250000x1, .i32⟩
  | 113 => ⟨S250000x512, .f32⟩
  | 114 => ⟨S_, .f32⟩
  | 115 => ⟨S50000x512, .f32⟩
  | 116 => ⟨S250000x1, .i32⟩
  | 117 => ⟨S50000x512, .f32⟩
  | 118 => ⟨S_, .f32⟩
  | 119 => ⟨S50000, .f32⟩
  | 120 => ⟨S50000, .f32⟩
  | 121 => ⟨S50000x1, .f32⟩
  | 122 => ⟨S50000x512, .f32⟩
  | 123 => ⟨S50000x512, .f32⟩
  | 124 => ⟨S1x512x512, .f32⟩
  | 125 => ⟨S512x512, .f32⟩
  | 126 => ⟨S50000x512, .f32⟩
  | 127 => ⟨S50000x512, .f32⟩
  | _ => ⟨S50000x512, .f32⟩

abbrev hbmTy0_1 (i : Nat) : BufTy := match i % 128 with
  | 0 => ⟨S1x512x512, .f32⟩
  | 1 => ⟨S512x512, .f32⟩
  | 2 => ⟨S50000x512, .f32⟩
  | 3 => ⟨S50000x512, .f32⟩
  | 4 => ⟨S1x512, .f32⟩
  | 5 => ⟨S512, .f32⟩
  | 6 => ⟨S1x512, .f32⟩
  | 7 => ⟨S50000x512, .f32⟩
  | 8 => ⟨S50000x512, .f32⟩
  | 9 => ⟨S1x250000, .i32⟩
  | 10 => ⟨S250000, .i32⟩
  | 11 => ⟨S1x250000, .i32⟩
  | 12 => ⟨S250000, .i32⟩
  | 13 => ⟨S_, .f32⟩
  | 14 => ⟨S250000, .f32⟩
  | 15 => ⟨S_, .f32⟩
  | 16 => ⟨S50000, .f32⟩
  | 17 => ⟨S250000x1, .i32⟩
  | 18 => ⟨S50000, .f32⟩
  | 19 => ⟨S_, .i32⟩
  | 20 => ⟨S250000, .i32⟩
  | 21 => ⟨S250000, .i1⟩
  | 22 => ⟨S_, .i32⟩
  | 23 => ⟨S250000, .i32⟩
  | 24 => ⟨S250000, .i32⟩
  | 25 => ⟨S250000, .i32⟩
  | 26 => ⟨S250000x1, .i32⟩
  | 27 => ⟨S250000x512, .f32⟩
  | 28 => ⟨S_, .f32⟩
  | 29 => ⟨S50000x512, .f32⟩
  | 30 => ⟨S250000x1, .i32⟩
  | 31 => ⟨S50000x512, .f32⟩
  | 32 => ⟨S_, .f32⟩
  | 33 => ⟨S50000, .f32⟩
  | 34 => ⟨S50000, .f32⟩
  | 35 => ⟨S50000x1, .f32⟩
  | 36 => ⟨S50000x512, .f32⟩
  | 37 => ⟨S50000x512, .f32⟩
  | 38 => ⟨S1x512x512, .f32⟩
  | 39 => ⟨S512x512, .f32⟩
  | 40 => ⟨S50000x512, .f32⟩
  | 41 => ⟨S50000x512, .f32⟩
  | 42 => ⟨S1x512x512, .f32⟩
  | 43 => ⟨S512x512, .f32⟩
  | 44 => ⟨S50000x512, .f32⟩
  | 45 => ⟨S50000x512, .f32⟩
  | 46 => ⟨S1x512, .f32⟩
  | 47 => ⟨S512, .f32⟩
  | 48 => ⟨S1x512, .f32⟩
  | 49 => ⟨S50000x512, .f32⟩
  | 50 => ⟨S50000x512, .f32⟩
  | 51 => ⟨S_, .f32⟩
  | 52 => ⟨S50000x512, .f32⟩
  | 53 => ⟨S50000x512, .f32⟩
  | 54 => ⟨S_, .f32⟩
  | 55 => ⟨S50000x256, .f32⟩
  | 56 => ⟨S1x250000, .i32⟩
  | 57 => ⟨S250000, .i32⟩
  | 58 => ⟨S1x250000, .i32⟩
  | 59 => ⟨S250000, .i32⟩
  | 60 => ⟨S_, .f32⟩
  | 61 => ⟨S250000, .f32⟩
  | 62 => ⟨S_, .f32⟩
  | 63 => ⟨S50000, .f32⟩
  | 64 => ⟨S250000x1, .i32⟩
  | 65 => ⟨S50000, .f32⟩
  | 66 => ⟨S_, .i32⟩
  | 67 => ⟨S250000, .i32⟩
  | 68 => ⟨S250000, .i1⟩
  | 69 => ⟨S_, .i32⟩
  | 70 => ⟨S250000, .i32⟩
  | 71 => ⟨S250000, .i32⟩
  | 72 => ⟨S250000, .i32⟩
  | 73 => ⟨S250000x1, .i32⟩
  | 74 => ⟨S250000x512, .f32⟩
  | 75 => ⟨S_, .f32⟩
  | 76 => ⟨S50000x512, .f32⟩
  | 77 => ⟨S250000x1, .i32⟩
  | 78 => ⟨S50000x512, .f32⟩
  | 79 => ⟨S_, .f32⟩
  | 80 => ⟨S50000, .f32⟩
  | 81 => ⟨S50000, .f32⟩
  | 82 => ⟨S50000x1, .f32⟩
  | 83 => ⟨S50000x512, .f32⟩
  | 84 => ⟨S50000x512, .f32⟩
  | 85 => ⟨S1x512x256, .f32⟩
  | 86 => ⟨S512x256, .f32⟩
  | 87 => ⟨S50000x256, .f32⟩
  | 88 => ⟨S50000x256, .f32⟩
  | 89 => ⟨S1x512x256, .f32⟩
  | 90 => ⟨S512x256, .f32⟩
  | 91 => ⟨S50000x256, .f32⟩
  | 92 => ⟨S50000x256, .f32⟩
  | 93 => ⟨S1x256, .f32⟩
  | 94 => ⟨S256, .f32⟩
  | 95 => ⟨S1x256, .f32⟩
  | 96 => ⟨S50000x256, .f32⟩
  | 97 => ⟨S50000x256, .f32⟩
  | 98 => ⟨S1x250000, .i32⟩
  | 99 => ⟨S250000, .i32⟩
  | 100 => ⟨S1x250000, .i32⟩
  | 101 => ⟨S250000, .i32⟩
  | 102 => ⟨S_, .f32⟩
  | 103 => ⟨S250000, .f32⟩
  | 104 => ⟨S_, .f32⟩
  | 105 => ⟨S50000, .f32⟩
  | 106 => ⟨S250000x1, .i32⟩
  | 107 => ⟨S50000, .f32⟩
  | 108 => ⟨S_, .i32⟩
  | 109 => ⟨S250000, .i32⟩
  | 110 => ⟨S250000, .i1⟩
  | 111 => ⟨S_, .i32⟩
  | 112 => ⟨S250000, .i32⟩
  | 113 => ⟨S250000, .i32⟩
  | 114 => ⟨S250000, .i32⟩
  | 115 => ⟨S250000x1, .i32⟩
  | 116 => ⟨S250000x512, .f32⟩
  | 117 => ⟨S_, .f32⟩
  | 118 => ⟨S50000x512, .f32⟩
  | 119 => ⟨S250000x1, .i32⟩
  | 120 => ⟨S50000x512, .f32⟩
  | 121 => ⟨S_, .f32⟩
  | 122 => ⟨S50000, .f32⟩
  | 123 => ⟨S50000, .f32⟩
  | 124 => ⟨S50000x1, .f32⟩
  | 125 => ⟨S50000x512, .f32⟩
  | 126 => ⟨S50000x512, .f32⟩
  | 127 => ⟨S1x512x256, .f32⟩
  | _ => ⟨S50000x512, .f32⟩

abbrev hbmTy0_2 (i : Nat) : BufTy := match i % 128 with
  | 0 => ⟨S512x256, .f32⟩
  | 1 => ⟨S50000x256, .f32⟩
  | 2 => ⟨S50000x256, .f32⟩
  | 3 => ⟨S1x512x256, .f32⟩
  | 4 => ⟨S512x256, .f32⟩
  | 5 => ⟨S50000x256, .f32⟩
  | 6 => ⟨S50000x256, .f32⟩
  | 7 => ⟨S1x256, .f32⟩
  | 8 => ⟨S256, .f32⟩
  | 9 => ⟨S1x256, .f32⟩
  | 10 => ⟨S50000x256, .f32⟩
  | 11 => ⟨S50000x256, .f32⟩
  | 12 => ⟨S1x250000, .i32⟩
  | 13 => ⟨S250000, .i32⟩
  | 14 => ⟨S1x250000, .i32⟩
  | 15 => ⟨S250000, .i32⟩
  | 16 => ⟨S_, .f32⟩
  | 17 => ⟨S250000, .f32⟩
  | 18 => ⟨S_, .f32⟩
  | 19 => ⟨S50000, .f32⟩
  | 20 => ⟨S250000x1, .i32⟩
  | 21 => ⟨S50000, .f32⟩
  | 22 => ⟨S_, .i32⟩
  | 23 => ⟨S250000, .i32⟩
  | 24 => ⟨S250000, .i1⟩
  | 25 => ⟨S_, .i32⟩
  | 26 => ⟨S250000, .i32⟩
  | 27 => ⟨S250000, .i32⟩
  | 28 => ⟨S250000, .i32⟩
  | 29 => ⟨S250000x1, .i32⟩
  | 30 => ⟨S250000x512, .f32⟩
  | 31 => ⟨S_, .f32⟩
  | 32 => ⟨S50000x512, .f32⟩
  | 33 => ⟨S250000x1, .i32⟩
  | 34 => ⟨S50000x512, .f32⟩
  | 35 => ⟨S_, .f32⟩
  | 36 => ⟨S50000, .f32⟩
  | 37 => ⟨S50000, .f32⟩
  | 38 => ⟨S50000x1, .f32⟩
  | 39 => ⟨S50000x512, .f32⟩
  | 40 => ⟨S50000x512, .f32⟩
  | 41 => ⟨S1x512x256, .f32⟩
  | 42 => ⟨S512x256, .f32⟩
  | 43 => ⟨S50000x256, .f32⟩
  | 44 => ⟨S50000x256, .f32⟩
  | 45 => ⟨S1x512x256, .f32⟩
  | 46 => ⟨S512x256, .f32⟩
  | 47 => ⟨S50000x256, .f32⟩
  | 48 => ⟨S50000x256, .f32⟩
  | 49 => ⟨S1x256, .f32⟩
  | 50 => ⟨S256, .f32⟩
  | 51 => ⟨S1x256, .f32⟩
  | 52 => ⟨S50000x256, .f32⟩
  | 53 => ⟨S50000x256, .f32⟩
  | 54 => ⟨S1x250000, .i32⟩
  | 55 => ⟨S250000, .i32⟩
  | 56 => ⟨S1x250000, .i32⟩
  | 57 => ⟨S250000, .i32⟩
  | 58 => ⟨S_, .f32⟩
  | 59 => ⟨S250000, .f32⟩
  | 60 => ⟨S_, .f32⟩
  | 61 => ⟨S50000, .f32⟩
  | 62 => ⟨S250000x1, .i32⟩
  | 63 => ⟨S50000, .f32⟩
  | 64 => ⟨S_, .i32⟩
  | 65 => ⟨S250000, .i32⟩
  | 66 => ⟨S250000, .i1⟩
  | 67 => ⟨S_, .i32⟩
  | 68 => ⟨S250000, .i32⟩
  | 69 => ⟨S250000, .i32⟩
  | 70 => ⟨S250000, .i32⟩
  | 71 => ⟨S250000x1, .i32⟩
  | 72 => ⟨S250000x512, .f32⟩
  | 73 => ⟨S_, .f32⟩
  | 74 => ⟨S50000x512, .f32⟩
  | 75 => ⟨S250000x1, .i32⟩
  | 76 => ⟨S50000x512, .f32⟩
  | 77 => ⟨S_, .f32⟩
  | 78 => ⟨S50000, .f32⟩
  | 79 => ⟨S50000, .f32⟩
  | 80 => ⟨S50000x1, .f32⟩
  | 81 => ⟨S50000x512, .f32⟩
  | 82 => ⟨S50000x512, .f32⟩
  | 83 => ⟨S1x512x256, .f32⟩
  | 84 => ⟨S512x256, .f32⟩
  | 85 => ⟨S50000x256, .f32⟩
  | 86 => ⟨S50000x256, .f32⟩
  | 87 => ⟨S1x512x256, .f32⟩
  | 88 => ⟨S512x256, .f32⟩
  | 89 => ⟨S50000x256, .f32⟩
  | 90 => ⟨S50000x256, .f32⟩
  | 91 => ⟨S1x256, .f32⟩
  | 92 => ⟨S256, .f32⟩
  | 93 => ⟨S1x256, .f32⟩
  | 94 => ⟨S50000x256, .f32⟩
  | 95 => ⟨S50000x256, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_11 : Ref sig .tc := ⟨.hbm, 99, rfl⟩
abbrev main_v77 : Ref sig .tc := ⟨.hbm, 100, rfl⟩
abbrev main_cst_12 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_c_13 : Ref sig .tc := ⟨.hbm, 105, rfl⟩
abbrev main_v81 : Ref sig .tc := ⟨.hbm, 106, rfl⟩
abbrev main_v82 : Ref sig .tc := ⟨.hbm, 107, rfl⟩
abbrev main_c_14 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_15 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_cst_17 : Ref sig .tc := ⟨.hbm, 141, rfl⟩
abbrev main_v113 : Ref sig .tc := ⟨.hbm, 142, rfl⟩
abbrev main_cst_18 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_19 : Ref sig .tc := ⟨.hbm, 147, rfl⟩
abbrev main_v117 : Ref sig .tc := ⟨.hbm, 148, rfl⟩
abbrev main_v118 : Ref sig .tc := ⟨.hbm, 149, rfl⟩
abbrev main_c_20 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_21 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_22 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_call0_cst : Ref sig .tc := ⟨.hbm, 179, rfl⟩
abbrev main_call0_v0 : Ref sig .tc := ⟨.hbm, 180, rfl⟩
abbrev main_v145 : Ref sig .tc := ⟨.hbm, 181, rfl⟩
abbrev main_cst_23 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_24 : Ref sig .tc := ⟨.hbm, 188, rfl⟩
abbrev main_v151 : Ref sig .tc := ⟨.hbm, 189, rfl⟩
abbrev main_cst_25 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_c_26 : Ref sig .tc := ⟨.hbm, 194, rfl⟩
abbrev main_v155 : Ref sig .tc := ⟨.hbm, 195, rfl⟩
abbrev main_v156 : Ref sig .tc := ⟨.hbm, 196, rfl⟩
abbrev main_c_27 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_cst_28 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_cst_29 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_cst_30 : Ref sig .tc := ⟨.hbm, 230, rfl⟩
abbrev main_v187 : Ref sig .tc := ⟨.hbm, 231, rfl⟩
abbrev main_cst_31 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_c_32 : Ref sig .tc := ⟨.hbm, 236, rfl⟩
abbrev main_v191 : Ref sig .tc := ⟨.hbm, 237, rfl⟩
abbrev main_v192 : Ref sig .tc := ⟨.hbm, 238, rfl⟩
abbrev main_c_33 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_cst_34 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_cst_35 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_cst_36 : Ref sig .tc := ⟨.hbm, 272, rfl⟩
abbrev main_v223 : Ref sig .tc := ⟨.hbm, 273, rfl⟩
abbrev main_cst_37 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_c_38 : Ref sig .tc := ⟨.hbm, 278, rfl⟩
abbrev main_v227 : Ref sig .tc := ⟨.hbm, 279, rfl⟩
abbrev main_v228 : Ref sig .tc := ⟨.hbm, 280, rfl⟩
abbrev main_c_39 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_cst_40 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_cst_41 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_v251 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_cst_42 : Ref sig .tc := ⟨.hbm, 314, rfl⟩
abbrev main_v259 : Ref sig .tc := ⟨.hbm, 315, rfl⟩
abbrev main_cst_43 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_c_44 : Ref sig .tc := ⟨.hbm, 320, rfl⟩
abbrev main_v263 : Ref sig .tc := ⟨.hbm, 321, rfl⟩
abbrev main_v264 : Ref sig .tc := ⟨.hbm, 322, rfl⟩
abbrev main_c_45 : Ref sig .tc := ⟨.hbm, 323, rfl⟩
abbrev main_v265 : Ref sig .tc := ⟨.hbm, 324, rfl⟩
abbrev main_v266 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_cst_46 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_cst_47 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩

abbrev nD : Nat := 1
abbrev τ : Topo := Topo.v7x

variable {F : FTy → Type} [FloatOps F]

class Facts₀ : Prop where
  bcast_S_S50000x512 : S_.BroadcastsInDim S50000x512 (![] : Fin 0 → Fin S50000x512.rank)
  slices_S4x250000_S1x250000_0_0 : S4x250000.Slices ![0, 0] S1x250000
  shapeCasts_S1x250000_S250000 : S1x250000.ShapeCasts S250000
  bcast_S_S250000 : S_.BroadcastsInDim S250000 (![] : Fin 0 → Fin S250000.rank)
  bcast_S_S50000 : S_.BroadcastsInDim S50000 (![] : Fin 0 → Fin S50000.rank)
  bcast_S250000_S250000x1_0 : S250000.BroadcastsInDim S250000x1 (![0] : Fin 1 → Fin S250000x1.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S4x250000_S1x250000_1_0 : S4x250000.Slices ![1, 0] S1x250000
  slices_S4x512x512_S1x512x512_1_0_0 : S4x512x512.Slices ![1, 0, 0] S1x512x512
  slices_S4x512_S1x512_1_0 : S4x512.Slices ![1, 0] S1x512
  slices_S4x250000_S1x250000_2_0 : S4x250000.Slices ![2, 0] S1x250000
  slices_S4x512x512_S1x512x512_2_0_0 : S4x512x512.Slices ![2, 0, 0] S1x512x512
  slices_S4x512_S1x512_2_0 : S4x512.Slices ![2, 0] S1x512
  slices_S4x250000_S1x250000_3_0 : S4x250000.Slices ![3, 0] S1x250000
  slices_S4x512x512_S1x512x512_3_0_0 : S4x512x512.Slices ![3, 0, 0] S1x512x512
  slices_S4x512_S1x512_3_0 : S4x512.Slices ![3, 0] S1x512
  bcast_S_S50000x256 : S_.BroadcastsInDim S50000x256 (![] : Fin 0 → Fin S50000x256.rank)
  slices_S4x512x256_S1x512x256_0_0_0 : S4x512x256.Slices ![0, 0, 0] S1x512x256
  shapeCasts_S1x512x256_S512x256 : S1x512x256.ShapeCasts S512x256
  slices_S4x256_S1x256_0_0 : S4x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S4x512x256_S1x512x256_1_0_0 : S4x512x256.Slices ![1, 0, 0] S1x512x256
  slices_S4x256_S1x256_1_0 : S4x256.Slices ![1, 0] S1x256
  slices_S4x512x256_S1x512x256_2_0_0 : S4x512x256.Slices ![2, 0, 0] S1x512x256
  slices_S4x256_S1x256_2_0 : S4x256.Slices ![2, 0] S1x256
  slices_S4x512x256_S1x512x256_3_0_0 : S4x512x256.Slices ![3, 0, 0] S1x512x256
  slices_S4x256_S1x256_3_0 : S4x256.Slices ![3, 0] S1x256
  scatter_S50000_S250000x1_S250000_n_0_0_1_wf : ScatterDims.WF S50000 S250000x1 S250000 [] [0] [0] 1
  gather_S50000x512_S250000x1_S250000x512_1_0_n_n_0_1_1512_wf : GatherDims.WF S50000x512 S250000x1 S250000x512 [1] [0] [] [0] [] 1 ![1, 512]
  scatter_S50000x512_S250000x1_S250000x512_1_0_0_1_wf : ScatterDims.WF S50000x512 S250000x1 S250000x512 [1] [0] [0] 1
  dot_S50000x512_S512x512_S50000x512_1_0_0_1_n_n_wf : DotDims.WF S50000x512 S512x512 S50000x512 [1] [0] [0] [1] [] []
  dot_S50000x512_S512x256_S50000x256_1_0_0_1_n_n_wf : DotDims.WF S50000x512 S512x256 S50000x256 [1] [0] [0] [1] [] []

variable [Facts₀]

def scatter_S50000_S250000x1_S250000_n_0_0_1 : ScatterDims S50000 S250000x1 S250000 where
  updateWindowDims := []
  insertedWindowDims := [0]
  scatterDimsToOperandDims := [0]
  indexVectorDim := 1
  wf := scatter_S50000_S250000x1_S250000_n_0_0_1_wf
def gather_S50000x512_S250000x1_S250000x512_1_0_n_n_0_1_1512 : GatherDims S50000x512 S250000x1 S250000x512 where
  offsetDims := [1]
  collapsedSliceDims := [0]
  operandBatchingDims := []
  startIndicesBatchingDims := []
  startIndexMap := [0]
  indexVectorDim := 1
  sliceSizes := ![1, 512]
  wf := gather_S50000x512_S250000x1_S250000x512_1_0_n_n_0_1_1512_wf
def scatter_S50000x512_S250000x1_S250000x512_1_0_0_1 : ScatterDims S50000x512 S250000x1 S250000x512 where
  updateWindowDims := [1]
  insertedWindowDims := [0]
  scatterDimsToOperandDims := [0]
  indexVectorDim := 1
  wf := scatter_S50000x512_S250000x1_S250000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.LibRowTakeAdd.lean ====
/-
  Taking rows of, and adding rows into, a two-axis array at a column of index words.

  What h[src] and a segment sum over rows lower to, for an operand [N, C] and a column of index words [R, 1]: a
  gather of whole rows, and an accumulating scatter of whole rows.

  The gather's result row e is the operand's row at the word idx[e, 0], read as a signed integer and clamped into
  [0, N - 1]; the column is kept. The scatter sends update row e to the operand row idx[e, 0], read as a signed
  integer and not clamped, column to column; an update whose word is not a row of the operand is dropped. So the
  accumulated result at (p, k) is the operand's element plus the sum, over the update rows e whose word denotes p,
  of the update's element (e, k). The row an index word selects does not depend on the extent C of the rows.
-/
import Idealize.ShloMosaic.Lib.ValueIdx

noncomputable section

open scoped BigOperators

namespace Cert.RowTakeAdd

open Idealize.ShloMosaic Idealize.ShloMosaic.ValueIdx

section Take
variable {α : Type}

/-- The gather's dimension numbers for an operand [N, C], start indices [R, 1] and result [R, C]: one start
    component per result row, naming operand axis 0, which is collapsed; whole rows of C elements are read. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start word selects: the word read as a signed integer, clamped into [0, N - 1]. -/
def takeRow (N : Nat) {w : Nat} (hN : 0 < N) (v : BitVec w) : Fin N := ⟨min v.toInt.toNat (N - 1), by omega⟩

/-- The gather read at (e, k): the operand at row `takeRow` of the word idx[e, 0] and at column k. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 (takeRow N hN (idx (ix2 e (0 : Fin 1)))) k) := by
  unfold Host.gather
  refine congrArg x ?_
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hst : (rowGatherDims N R C wf).start (ix2 e k) idx 1 = 0 := by
      unfold GatherDims.start
      rw [dif_neg]
      intro h
      exact absurd (List.mem_singleton.mp h) (show ¬ ((1 : Fin 2) = 0) by decide)
    have hoff : (rowGatherDims N R C wf).offCoord (ix2 e k) 1 = k.val := by
      unfold GatherDims.offCoord
      rw [dif_pos ((GatherDims.mem_sKept _ _).mpr ⟨fun h => absurd (List.mem_singleton.mp h) (show ¬ ((1 : Fin 2) = 0) by decide), List.not_mem_nil⟩)]
      rfl
    rw [hst, hoff]
    omega

end Take

section Add

/-- The scatter's dimension numbers for an operand [N, C], scatter indices [R, 1] and updates [R, C]: one index
    component per update row, naming operand axis 0, which is inserted; the updates' axis 1 is the window. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the row axis the window of update (e, k) starts at the word idx[e, 0], read signed. -/
private theorem start_row {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0: no index component names that axis. -/
private theorem start_col {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 1 = 0 := by
  unfold ScatterDims.start
  rw [dif_neg]
  intro h
  exact absurd (List.mem_singleton.mp h) (show ¬ ((1 : Fin 2) = 0) by decide)

/-- The row axis is inserted: its window coordinate is 0. -/
private theorem window_row {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 0 = 0 := by
  unfold ScatterDims.window
  rw [dif_neg]
  intro h
  have := (List.mem_filter.1 h).2
  simp at this

/-- The column axis is the window: its coordinate is the update's column. -/
private theorem window_col {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from
    List.mem_filter.2 ⟨List.mem_finRange _, by simp⟩)]
  rfl

/-- Where update (e, k) lands: at (p, k') exactly when the word idx[e, 0], read signed, is the row p, and k' is k. -/
theorem resultIdx_rows_iff {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (p : Fin N) (k' : Fin C) :
    (rowScatterDims N R C wf).resultIdx? (ix2 e k) idx = some (ix2 p k')
      ↔ (idx (ix2 e (0 : Fin 1))).toInt = (p.val : Int) ∧ k = k' := by
  have h0 : (rowScatterDims N R C wf).start (ix2 e k) idx 0 + (((rowScatterDims N R C wf).window (ix2 e k) 0 : Nat) : Int)
      = (idx (ix2 e (0 : Fin 1))).toInt := by
    rw [start_row, window_row]; simp
  have h1 : (rowScatterDims N R C wf).start (ix2 e k) idx 1 + (((rowScatterDims N R C wf).window (ix2 e k) 1 : Nat) : Int)
      = (k.val : Int) := by
    rw [start_col, window_col]; simp
  unfold ScatterDims.resultIdx?
  constructor
  · intro h
    split at h
    · rename_i hin
      have hf := Option.some.inj h
      have e0 : ((rowScatterDims N R C wf).start (ix2 e k) idx 0
          + (((rowScatterDims N R C wf).window (ix2 e k) 0 : Nat) : Int)).toNat = p.val :=
        congrArg (fun f : (⟨2, ![N, C]⟩ : Shape).Idx => (f 0).val) hf
      have e1 : ((rowScatterDims N R C wf).start (ix2 e k) idx 1
          + (((rowScatterDims N R C wf).window (ix2 e k) 1 : Nat) : Int)).toNat = k'.val :=
        congrArg (fun f : (⟨2, ![N, C]⟩ : Shape).Idx => (f 1).val) hf
      have hn := (hin 0).1
      rw [h0] at e0 hn
      rw [h1] at e1
      refine ⟨by omega, Fin.ext (by omega)⟩
    · exact absurd h (by simp)
  · rintro ⟨hv, rfl⟩
    have hin : ∀ a, 0 ≤ (rowScatterDims N R C wf).start (ix2 e k) idx a + ((rowScatterDims N R C wf).window (ix2 e k) a : Int)
        ∧ (rowScatterDims N R C wf).start (ix2 e k) idx a + ((rowScatterDims N R C wf).window (ix2 e k) a : Int)
          < ((⟨2, ![N, C]⟩ : Shape).size a : Int) := by
      intro a
      match a with
      | ⟨0, _⟩ =>
        show 0 ≤ (rowScatterDims N R C wf).start (ix2 e k) idx 0 + (((rowScatterDims N R C wf).window (ix2 e k) 0 : Nat) : Int)
          ∧ (rowScatterDims N R C wf).start (ix2 e k) idx 0 + (((rowScatterDims N R C wf).window (ix2 e k) 0 : Nat) : Int)
            < ((N : Nat) : Int)
        rw [h0, hv]
        have := p.isLt
        omega
      | ⟨1, _⟩ =>
        show 0 ≤ (rowScatterDims N R C wf).start (ix2 e k) idx 1 + (((rowScatterDims N R C wf).window (ix2 e k) 1 : Nat) : Int)
          ∧ (rowScatterDims N R C wf).start (ix2 e k) idx 1 + (((rowScatterDims N R C wf).window (ix2 e k) 1 : Nat) : Int)
            < ((C : Nat) : Int)
        rw [h1]
        have := k.isLt
        omega
    rw [dif_pos hin]
    refine congrArg some ?_
    funext a
    refine Fin.ext ?_
    match a with
    | ⟨0, _⟩ =>
      show ((rowScatterDims N R C wf).start (ix2 e k) idx 0
        + (((rowScatterDims N R C wf).window (ix2 e k) 0 : Nat) : Int)).toNat = p.val
      rw [h0, hv]
      exact Int.toNat_natCast _
    | ⟨1, _⟩ =>
      show ((rowScatterDims N R C wf).start (ix2 e k) idx 1
        + (((rowScatterDims N R C wf).window (ix2 e k) 1 : Nat) : Int)).toNat = k.val
      rw [h1]
      exact Int.toNat_natCast _

/-- The accumulating scatter read at (p, k): the operand's element plus the sum, over the update rows e whose word
    idx[e, 0] read signed is the row p, of the update's element (e, k). -/
theorem scatterAdd_rows_apply {N R C w : Nat} {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ)
    (p : Fin N) (k : Fin C) :
    Host.scatterAdd (F := Ideal) (rowScatterDims N R C wf) x idx upd (ix2 p k)
      = x (ix2 p k) + ∑ e ∈ Finset.univ.filter
          (fun e : Fin R => (idx (ix2 e (0 : Fin 1))).toInt = (p.val : Int)), upd (ix2 e k) := by
  show Ideal.hostScatterAdd (rowScatterDims N R C wf) x idx upd (ix2 p k) = _
  unfold Ideal.hostScatterAdd
  refine congrArg (fun t => x (ix2 p k) + t) ?_
  rw [Finset.sum_filter, Finset.sum_filter, sum_idx2]
  refine Finset.sum_congr rfl fun e _ => ?_
  by_cases hv : (idx (ix2 e (0 : Fin 1))).toInt = (p.val : Int)
  · rw [if_pos hv, Finset.sum_eq_single k]
    · rw [if_pos ((resultIdx_rows_iff wf idx e k p k).mpr ⟨hv, rfl⟩)]
    · intro b _ hb
      rw [if_neg]
      intro h
      exact hb ((resultIdx_rows_iff wf idx e b p k).mp h).2
    · intro h
      exact absurd (Finset.mem_univ _) h
  · rw [if_neg hv]
    refine Finset.sum_eq_zero fun b _ => ?_
    rw [if_neg]
    intro h
    exact hv ((resultIdx_rows_iff wf idx e b p k).mp h).1

end Add

end Cert.RowTakeAdd

end
-- ==== Proof.Spec.lean ====
/-
  The two-layer relational neighbour-mean network, index by index on the extended reals.

  For one relation, node p's in-edges are the edge positions e whose destination word, read as a signed
  integer, is p (a destination outside the node range reaches no node). The source word of an edge is first
  moved into range when negative (w + 50000) and then read signed and clamped into [0, 49999]. The neighbour
  mean of a feature array h at (p, k) is the sum of h (source row of e, k) over p's in-edges, divided by the
  larger of the in-degree and one. A layer's value at (p, q) is, summed over the four relations,
  h·Wself_r + mean_r(h)·Wneigh_r + b_r; the first layer is followed by max(·, 0).

  The two arrangements proved equal here: the relations' self weights and biases summed first and applied
  once (one product against the summed weight, then the four neighbour products, then the summed bias),
  against the relation-by-relation accumulation from zero. They agree when every entry is a real number:
  the step between them is distributivity, which the infinities do not obey.
-/
import Idealize.ShloMosaic.Lib.ValueIdx
import Idealize.ShloMosaic.PureOps.Ideal
import proofs.«128207_j9895604650659_2_alg».proof.Proof.LibRowTakeAdd

noncomputable section

open scoped BigOperators

namespace Cert.Sage

open Idealize.ShloMosaic Idealize.ShloMosaic.ValueIdx Cert.RowTakeAdd

/-- A two-axis array of extended reals. -/
abbrev Arr2 (a b : Nat) := (⟨2, ![a, b]⟩ : Shape).Idx → EReal
/-- A three-axis array of extended reals. -/
abbrev Arr3 (a b c : Nat) := (⟨3, ![a, b, c]⟩ : Shape).Idx → EReal
/-- The edge table: one row of 32-bit words per relation. -/
abbrev Edges := (⟨2, ![4, 250000]⟩ : Shape).Idx → BitVec 32

/-- A two-axis array given by its entries. -/
def arr2 {a b : Nat} (f : Fin a → Fin b → EReal) : Arr2 a b :=
  fun j => f ⟨(j 0).val, idx2_lt0 j⟩ ⟨(j 1).val, idx2_lt1 j⟩

theorem arr2_ix2 {a b : Nat} (f : Fin a → Fin b → EReal) (p : Fin a) (q : Fin b) : arr2 f (ix2 p q) = f p q := rfl

/-- The f32 zero and one, as the extended reals their patterns denote. -/
def Z : EReal := Ideal.ofBits .f32 0x00000000#32
def O : EReal := Ideal.ofBits .f32 0x3F800000#32

/-- The source word of edge e of relation r after the wrap of a negative index: w + 50000 when w < 0. -/
def srcW (x7 : Edges) (r : Fin 4) (e : Fin 250000) : BitVec 32 :=
  Scalar.select (IntOp.cmpi .slt (x7 (ix2 r e)) 0#32) (IntOp.addi (x7 (ix2 r e)) 50000#32) (x7 (ix2 r e))

/-- The source row of edge e of relation r. -/
def srcRow (x7 : Edges) (r : Fin 4) (e : Fin 250000) : Fin 50000 :=
  takeRow 50000 (by decide) (srcW x7 r e)

/-- Node p's in-edges in relation r. -/
def inEdges (x8 : Edges) (r : Fin 4) (p : Fin 50000) : Finset (Fin 250000) :=
  Finset.univ.filter fun e => (x8 (ix2 r e)).toInt = (p.val : Int)

/-- The neighbour mean of h over relation r at (p, k). -/
def nbr (x7 x8 : Edges) (r : Fin 4) (h : Arr2 50000 512) (p : Fin 50000) (k : Fin 512) : EReal :=
  Ideal.div (Z + ∑ e ∈ inEdges x8 r p, h (ix2 (srcRow x7 r e) k))
    (max (Z + ∑ _e ∈ inEdges x8 r p, O) O)

/-- What one launch of the dense stage computes at (p, q) from its eleven operand arrays: the self product,
    the four neighbour products added in order, then the bias row. -/
def kern (C : Nat) (h N0 N1 N2 N3 : Arr2 50000 512) (Ws W0 W1 W2 W3 : Arr2 512 C) (bs : Arr2 1 C)
    (p : Fin 50000) (q : Fin C) : EReal :=
  ((((∑ k : Fin 512, h (ix2 p k) * Ws (ix2 k q)
      + ∑ k : Fin 512, N0 (ix2 p k) * W0 (ix2 k q))
      + ∑ k : Fin 512, N1 (ix2 p k) * W1 (ix2 k q))
      + ∑ k : Fin 512, N2 (ix2 p k) * W2 (ix2 k q))
      + ∑ k : Fin 512, N3 (ix2 p k) * W3 (ix2 k q))
    + bs (ix2 (0 : Fin 1) q)

/-- One layer with the self weights and the biases summed over the relations first: the product of h with the
    summed self weight, then the four neighbour products in order, then the summed bias. -/
def fused (C : Nat) (x7 x8 : Edges) (h : Arr2 50000 512) (Ws Wn : Arr3 4 512 C) (b : Arr2 4 C)
    (p : Fin 50000) (q : Fin C) : EReal :=
  ((((∑ k : Fin 512, h (ix2 p k) * (Z + ∑ r : Fin 4, Ws (ix3 r k q))
      + ∑ k : Fin 512, nbr x7 x8 0 h p k * Wn (ix3 0 k q))
      + ∑ k : Fin 512, nbr x7 x8 1 h p k * Wn (ix3 1 k q))
      + ∑ k : Fin 512, nbr x7 x8 2 h p k * Wn (ix3 2 k q))
      + ∑ k : Fin 512, nbr x7 x8 3 h p k * Wn (ix3 3 k q))
    + (Z + ∑ r : Fin 4, b (ix2 r q))

/-- One relation's step of the accumulation: acc + h·Wself_r + mean_r(h)·Wneigh_r + b_r. -/
def step (C : Nat) (x7 x8 : Edges) (h : Arr2 50000 512) (Ws Wn : Arr3 4 512 C) (b : Arr2 4 C)
    (p : Fin 50000) (q : Fin C) (r : Fin 4) (acc : EReal) : EReal :=
  ((acc + ∑ k : Fin 512, h (ix2 p k) * Ws (ix3 r k q))
    + ∑ k : Fin 512, nbr x7 x8 r h p k * Wn (ix3 r k q)) + b (ix2 r q)

/-- One layer accumulated relation by relation from zero. -/
def serial (C : Nat) (x7 x8 : Edges) (h : Arr2 50000 512) (Ws Wn : Arr3 4 512 C) (b : Arr2 4 C)
    (p : Fin 50000) (q : Fin C) : EReal :=
  step C x7 x8 h Ws Wn b p q 3 (step C x7 x8 h Ws Wn b p q 2 (step C x7 x8 h Ws Wn b p q 1
    (step C x7 x8 h Ws Wn b p q 0 Z)))

/-- The hidden features, fused arrangement: max(layer, 0). -/
def hidK (x7 x8 : Edges) (x0 : Arr2 50000 512) (x1 x2 : Arr3 4 512 512) (x3 : Arr2 4 512) : Arr2 50000 512 :=
  arr2 fun p q => max (fused 512 x7 x8 x0 x1 x2 x3 p q) Z

/-- The hidden features, serial arrangement. -/
def hidR (x7 x8 : Edges) (x0 : Arr2 50000 512) (x1 x2 : Arr3 4 512 512) (x3 : Arr2 4 512) : Arr2 50000 512 :=
  arr2 fun p q => max (serial 512 x7 x8 x0 x1 x2 x3 p q) Z

/-- The network's result, fused arrangement. -/
def outK (x7 x8 : Edges) (x0 : Arr2 50000 512) (x1 x2 : Arr3 4 512 512) (x3 : Arr2 4 512)
    (x4 x5 : Arr3 4 512 256) (x6 : Arr2 4 256) : Arr2 50000 256 :=
  arr2 fun p q => fused 256 x7 x8 (hidK x7 x8 x0 x1 x2 x3) x4 x5 x6 p q

/-- The network's result, serial arrangement. -/
def outR (x7 x8 : Edges) (x0 : Arr2 50000 512) (x1 x2 : Arr3 4 512 512) (x3 : Arr2 4 512)
    (x4 x5 : Arr3 4 512 256) (x6 : Arr2 4 256) : Arr2 50000 256 :=
  arr2 fun p q => serial 256 x7 x8 (hidR x7 x8 x0 x1 x2 x3) x4 x5 x6 p q

end Cert.Sage

end
-- ==== Proof.Algebra.lean ====
/-
  The two arrangements of a layer agree on real inputs.

  On real inputs every stage is a real number: a neighbour mean is a finite sum of reals divided by a real
  that is at least one, a layer is a finite sum of products of reals. So both arrangements are the coercion
  of one real expression, and in the reals the step between them is distributivity of the product over the
  sum of the four self weights, and reordering a sum. The maximum with zero of a real is real again, so the
  second layer is fed reals in both arrangements.
-/
import Mathlib.Data.EReal.Operations
import Idealize.ShloMosaic.Lib.IdealHost
import Idealize.ShloMosaic.PureOps.Ideal.Laws
import proofs.«128207_j9895604650659_2_alg».proof.Proof.Spec

noncomputable section

open scoped BigOperators

namespace Cert.Sage

open Idealize.ShloMosaic Idealize.ShloMosaic.ValueIdx Cert.RowTakeAdd

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum of two reals. -/
theorem coe_max (a b : ℝ) : ((max a b : ℝ) : EReal) = max (a : EReal) (b : EReal) :=
  EReal.coe_strictMono.monotone.map_max

theorem Z_eq : Z = ((0 : ℝ) : EReal) := by
  unfold Z; rw [Ideal.ofBits_zero_f32]; rfl

theorem O_eq : O = ((1 : ℝ) : EReal) := by
  unfold O; rw [Ideal.ofBits_one_f32]; rfl

/-- The real neighbour mean. -/
def nbrR (x7 x8 : Edges) (r : Fin 4) (h : (⟨2, ![50000, 512]⟩ : Shape).Idx → ℝ) (p : Fin 50000) (k : Fin 512) : ℝ :=
  (∑ e ∈ inEdges x8 r p, h (ix2 (srcRow x7 r e) k)) * (1 / max (∑ _e ∈ inEdges x8 r p, (1 : ℝ)) 1)

/-- On a real feature array the neighbour mean is the real neighbour mean. -/
theorem nbr_coe (x7 x8 : Edges) (r : Fin 4) (h : (⟨2, ![50000, 512]⟩ : Shape).Idx → ℝ) (p : Fin 50000) (k : Fin 512) :
    nbr x7 x8 r (fun i => (h i : EReal)) p k = (nbrR x7 x8 r h p k : EReal) := by
  unfold nbr nbrR
  have hd : max (Z + ∑ _e ∈ inEdges x8 r p, O) O = ((max (∑ _e ∈ inEdges x8 r p, (1 : ℝ)) 1 : ℝ) : EReal) := by
    rw [Z_eq, O_eq, ← coe_sum, ← EReal.coe_add, zero_add, coe_max]
  have hn : Z + ∑ e ∈ inEdges x8 r p, ((h (ix2 (srcRow x7 r e) k) : ℝ) : EReal)
      = ((∑ e ∈ inEdges x8 r p, h (ix2 (srcRow x7 r e) k) : ℝ) : EReal) := by
    rw [Z_eq, ← coe_sum, ← EReal.coe_add, zero_add]
  rw [hd, hn, Ideal.div_coe (ne_of_gt (lt_of_lt_of_le one_pos (le_max_right _ _))), ← EReal.coe_mul]

/-- The real layer, relation by relation. -/
def layerR (C : Nat) (x7 x8 : Edges) (h : (⟨2, ![50000, 512]⟩ : Shape).Idx → ℝ)
    (Ws Wn : (⟨3, ![4, 512, C]⟩ : Shape).Idx → ℝ) (b : (⟨2, ![4, C]⟩ : Shape).Idx → ℝ) (p : Fin 50000) (q : Fin C) : ℝ :=
  ∑ r : Fin 4, ((∑ k : Fin 512, h (ix2 p k) * Ws (ix3 r k q))
    + (∑ k : Fin 512, nbrR x7 x8 r h p k * Wn (ix3 r k q)) + b (ix2 r q))

/-- The fused arrangement on real inputs is the real layer. -/
theorem fused_coe (C : Nat) (x7 x8 : Edges) (h : (⟨2, ![50000, 512]⟩ : Shape).Idx → ℝ)
    (Ws Wn : (⟨3, ![4, 512, C]⟩ : Shape).Idx → ℝ) (b : (⟨2, ![4, C]⟩ : Shape).Idx → ℝ) (p : Fin 50000) (q : Fin C) :
    fused C x7 x8 (fun i => (h i : EReal)) (fun i => (Ws i : EReal)) (fun i => (Wn i : EReal)) (fun i => (b i : EReal)) p q
      = (layerR C x7 x8 h Ws Wn b p q : EReal) := by
  unfold fused layerR
  simp only [nbr_coe, Z_eq, ← coe_sum, ← EReal.coe_add, ← EReal.coe_mul]
  refine congrArg _ ?_
  simp only [Fin.sum_univ_four, zero_add, mul_add, Finset.sum_add_distrib]
  ring

/-- The serial arrangement on real inputs is the real layer. -/
theorem serial_coe (C : Nat) (x7 x8 : Edges) (h : (⟨2, ![50000, 512]⟩ : Shape).Idx → ℝ)
    (Ws Wn : (⟨3, ![4, 512, C]⟩ : Shape).Idx → ℝ) (b : (⟨2, ![4, C]⟩ : Shape).Idx → ℝ) (p : Fin 50000) (q : Fin C) :
    serial C x7 x8 (fun i => (h i : EReal)) (fun i => (Ws i : EReal)) (fun i => (Wn i : EReal)) (fun i => (b i : EReal)) p q
      = (layerR C x7 x8 h Ws Wn b p q : EReal) := by
  unfold serial step layerR
  simp only [nbr_coe, Z_eq, ← coe_sum, ← EReal.coe_add, ← EReal.coe_mul]
  refine congrArg _ ?_
  simp only [Fin.sum_univ_four, zero_add]
  ring

/-- The real hidden features: the first layer followed by the maximum with zero. -/
def hidReal (x7 x8 : Edges) (x0 : (⟨2, ![50000, 512]⟩ : Shape).Idx → ℝ)
    (x1 x2 : (⟨3, ![4, 512, 512]⟩ : Shape).Idx → ℝ) (x3 : (⟨2, ![4, 512]⟩ : Shape).Idx → ℝ) :
    (⟨2, ![50000, 512]⟩ : Shape).Idx → ℝ :=
  fun j => max (layerR 512 x7 x8 x0 x1 x2 x3 ⟨(j 0).val, idx2_lt0 j⟩ ⟨(j 1).val, idx2_lt1 j⟩) 0

/-- The two arrangements of the hidden features agree on real inputs, and are real. -/
theorem hid_coe (x7 x8 : Edges) (x0 : (⟨2, ![50000, 512]⟩ : Shape).Idx → ℝ)
    (x1 x2 : (⟨3, ![4, 512, 512]⟩ : Shape).Idx → ℝ) (x3 : (⟨2, ![4, 512]⟩ : Shape).Idx → ℝ) :
    hidK x7 x8 (fun i => (x0 i : EReal)) (fun i => (x1 i : EReal)) (fun i => (x2 i : EReal)) (fun i => (x3 i : EReal))
        = (fun j => ((hidReal x7 x8 x0 x1 x2 x3 j : ℝ) : EReal))
      ∧ hidR x7 x8 (fun i => (x0 i : EReal)) (fun i => (x1 i : EReal)) (fun i => (x2 i : EReal)) (fun i => (x3 i : EReal))
        = (fun j => ((hidReal x7 x8 x0 x1 x2 x3 j : ℝ) : EReal)) := by
  constructor
  · funext j; unfold hidK arr2 hidReal; dsimp only; rw [fused_coe, Z_eq, coe_max]
  · funext j; unfold hidR arr2 hidReal; dsimp only; rw [serial_coe, Z_eq, coe_max]

/-- The network's two arrangements agree when every float input is a real number. -/
theorem outK_eq_outR (x7 x8 : Edges) (x0 : Arr2 50000 512) (x1 x2 : Arr3 4 512 512) (x3 : Arr2 4 512)
    (x4 x5 : Arr3 4 512 256) (x6 : Arr2 4 256)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) :
    outK x7 x8 x0 x1 x2 x3 x4 x5 x6 = outR x7 x8 x0 x1 x2 x3 x4 x5 x6 := by
  choose y0 e0 using h0
  choose y1 e1 using h1
  choose y2 e2 using h2
  choose y3 e3 using h3
  choose y4 e4 using h4
  choose y5 e5 using h5
  choose y6 e6 using h6
  obtain rfl : x0 = fun i => (y0 i : EReal) := funext e0
  obtain rfl : x1 = fun i => (y1 i : EReal) := funext e1
  obtain rfl : x2 = fun i => (y2 i : EReal) := funext e2
  obtain rfl : x3 = fun i => (y3 i : EReal) := funext e3
  obtain rfl : x4 = fun i => (y4 i : EReal) := funext e4
  obtain rfl : x5 = fun i => (y5 i : EReal) := funext e5
  obtain rfl : x6 = fun i => (y6 i : EReal) := funext e6
  funext j
  unfold outK outR arr2
  dsimp only
  rw [(hid_coe x7 x8 y0 y1 y2 y3).1, (hid_coe x7 x8 y0 y1 y2 y3).2, fused_coe, serial_coe]

end Cert.Sage

end
-- ==== Proof.FiniteInputs.lean ====
/-
  From the precondition to real-valued inputs.

  The precondition is the conjunction, over the seven float arrays, of "every entry x satisfies |x| < +∞",
  each conjunct an all-reduction by "and" of the entrywise comparison.  On the extended reals |x| is
  max x (-x) and the bit pattern 0x7F800000 denotes ⊤, so |x| < ⊤ excludes both x = ⊤ and x = ⊥ (for which
  |x| = ⊤): every entry is a real number.  The integer arrays are not constrained and play no part.
-/
import Idealize.ShloMosaic.Lib.ReduceAll
import Idealize.ShloMosaic.Lib.ValueIdx
import Idealize.ShloMosaic.PureOps.Ideal
import proofs.«128207_j9895604650659_2_alg».proof.Pre_finite_inputs

namespace Cert.Pre_finite_inputs.Finite

open Idealize.ShloMosaic

/-- The rank-0 shape has exactly one index. -/
theorem scalarIdx_subsingleton : Subsingleton S_.Idx := ⟨fun a b => funext fun d => d.elim0⟩

/-- The f32 pattern of +∞ denotes the top of the extended reals. -/
theorem inf_bits : Ideal.ofBits .f32 0x7F800000#32 = (⊤ : EReal) := by
  simp [Ideal.ofBits, Ideal.ieee]

/-- An extended real x with max x (-x) < ⊤ is a real number: at x = ⊥ the maximum is -⊥ = ⊤, at x = ⊤ it is ⊤. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One conjunct, over any shape: if the all-reduction by "and" of the entrywise test |x| < +∞ is 1, then every
    entry of x is a real number.  The reduction being 1 gives the test at each index; the test at an index is
    max (x i) (-(x i)) < ⊤. -/
theorem reals_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := by
  intro i
  haveI := scalarIdx_subsingleton
  have hi := Host.reduce_andi_all _ _ hr hu j e i
  refine real_of_abs_lt_top (x i) ?_
  rw [← inf_bits]
  exact hi

/-- The precondition holding (its one word is 1) makes every entry of each of the seven float arrays a real number:
    the word is the "and" of seven all-reductions, so each of them is 1. -/
theorem reals_of_pre [Cert.Pre_finite_inputs.Facts] (a0 : FVec Ideal S50000x512 .f32) (a1 a2 : FVec Ideal S4x512x512 .f32)
    (a3 : FVec Ideal S4x512 .f32) (a4 a5 : FVec Ideal S4x512x256 .f32) (a6 : FVec Ideal S4x256 .f32)
    (a7 a8 : IVec S4x250000 32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have h0 := congrFun h ValueIdx.ix0
  dsimp only [Cert.Pre_finite_inputs.fn, Cert.Pre_finite_inputs.fn_part1, andi] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨reals_of_all a0 _ _ _ _ e0, reals_of_all a1 _ _ _ _ e1, reals_of_all a2 _ _ _ _ e2,
    reals_of_all a3 _ _ _ _ e3, reals_of_all a4 _ _ _ _ e4, reals_of_all a5 _ _ _ _ e5,
    reals_of_all a6 _ _ _ _ e6⟩

end Cert.Pre_finite_inputs.Finite
-- ==== Proof.KernelRun.lean ====
/-
  The kernel program's run with its result named: from any memory with zero counters, every weakly fair
  execution of the program on the TensorCores terminates without a fault, the result buffer ends at the
  contents the second launch's write-backs leave, and the nine argument arrays end as launched.
-/
import proofs.«128207_j9895604650659_2_alg».proof.Proof.Gen.KernelIdeal.Frame

set_option maxRecDepth 16384

noncomputable section

namespace Cert.KernelIdeal.Regions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program from any memory with zero counters: it terminates without a fault; in every final
    state the result buffer holds the last boundary's contents and each argument array what it held at launch.
    The last thread state holds every unscoped buffer at the last boundary's contents; the result buffer is one
    of them, and each argument's contents walk back through the boundaries to the launch memory. -/
theorem run_out : θ_run defs (onTc (τ := τ) (main (F := F))) ⟨m, fun _ => 0, ρ⟩ (fun r => ∀ c : Dev nD,
      r.2.mem ((c.tc : Thread nD τ).loc main_v204) = W4 m ρ c (Proc.devRef .tc main_v204)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v204 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Regions

end
-- ==== Proof.LibPlainMatmul.lean ====
/-
  A plain matrix product read at an entry.

  For the dimension numbers of an ordinary product — an [a, n] array times an [n, b] array, contracting the second
  axis of the left with the first axis of the right, no batch axis — the product accumulated onto the zero array is, on
  the extended reals, at (p, q) the sum over k of left (p, k) · right (k, q).  The extents are variables, so the
  reading does not change with a kernel's tiling.
-/
import Idealize.ShloMosaic.Lib.ValueIdx
import Idealize.ShloMosaic.PureOps.Ideal.Laws

noncomputable section

open scoped BigOperators

namespace Cert.PlainMatmul

open Idealize.ShloMosaic Idealize.ShloMosaic.ValueIdx

/-- The dimension numbers of an ordinary [a, n] × [n, b] product, over any witness of their well-formedness. -/
abbrev dims {a n b : ℕ}
    (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ :=
  ⟨[1], [0], [0], [1], [], [], wf⟩

/-- An ordinary product onto the zero array: at (p, q) the sum over k of left (p, k) · right (k, q). -/
theorem zero_acc_apply {a n b : ℕ} {φ₁ φ₂ : FTy}
    (wf : DotDims.WF ⟨2, ![a, n]⟩ ⟨2, ![n, b]⟩ ⟨2, ![a, b]⟩ [1] [0] [0] [1] [] [])
    (prec : Option ContractPrecision) (L : FVec Ideal ⟨2, ![a, n]⟩ φ₁) (R : FVec Ideal ⟨2, ![n, b]⟩ φ₂)
    (p : Fin a) (q : Fin b) :
    FloatOps.matmul (dims wf) prec L R (constant ⟨2, ![a, b]⟩ .f32 0x00000000#32) (ix2 p q)
      = ∑ k : Fin n, L (ix2 p k) * R (ix2 k q) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 k q :=
    funext fun ax => Fin.ext (by
      match ax with
      | ⟨0, _⟩ => exact ((dims wf).rhsIdx_val_of_single rfl _ _).trans hk
      | ⟨1, _⟩ => rfl)
  rw [el, er]

end Cert.PlainMatmul

end
-- ==== Proof.KernelRegions.lean ====
/-
  The two launches of the dense stage, from blocks to whole arrays.

  Each launch walks fifty row blocks of a thousand rows. At block t it reads rows 1000·t … 1000·t + 999 of the five
  feature arrays and the whole of the five weight arrays and of the bias row, and writes the same rows of its result
  array. On the extended reals the value written at (a, q) of the block is, with the five products accumulated in
  order from the first,
      Σ_k h(a,k)·Ws(k,q) + Σ_k N0(a,k)·W0(k,q) + … + Σ_k N3(a,k)·W3(k,q) + b(0,q),
  followed in the first launch by the maximum with zero; the change of format before a product or before the store is
  the identity there. Read through the block's rectangle this is the whole-array function `kern` at row 1000·t + a,
  and the fifty blocks tile the result array (row r lies in block r / 1000), so after the launch the result array
  is that function of the operand arrays as the launch finds them.
-/
import proofs.«128207_j9895604650659_2_alg».proof.Proof.Gen.KernelIdeal.Frame
import proofs.«128207_j9895604650659_2_alg».proof.Proof.Spec
import proofs.«128207_j9895604650659_2_alg».proof.Proof.LibPlainMatmul
import Idealize.ShloMosaic.Lib.Pipeline.Value
import Idealize.ShloMosaic.Lib.ValueIdx

set_option maxRecDepth 16384

noncomputable section

open scoped BigOperators

namespace Cert.KernelIdeal.Regions

open Cert.KernelIdeal Cert.KernelIdeal.Gen Cert.Sage
open Idealize.ShloMosaic Idealize.ShloMosaic.TcCoe Idealize.ShloMosaic.ValueIdx Idealize.SL.Sem
open Idealize.ShloMosaic.Pipeline (Dat)

/-! ## The value a block's body stores, at an index -/

/-- A [1000, 512] × [512, 512] product onto the zero array, at (a, q): the sum over k of left (a, k) · right (k, q). -/
theorem mm512 (L : FVec Ideal S1000x512 .f32) (R : FVec Ideal S512x512 .f32) (a : Fin 1000) (q : Fin 512) :
    matmul dot_S1000x512_S512x512_S1000x512_1_0_0_1_n_n (some .fp32) L R (constant S1000x512 .f32 0x00000000#32) (ix2 a q)
      = ∑ k : Fin 512, L (ix2 a k) * R (ix2 k q) :=
  Cert.PlainMatmul.zero_acc_apply dot_S1000x512_S512x512_S1000x512_1_0_0_1_n_n_wf (some .fp32) L R a q

/-- A [1000, 512] × [512, 256] product onto the zero array, at (a, q). -/
theorem mm256 (L : FVec Ideal S1000x512 .f32) (R : FVec Ideal S512x256 .f32) (a : Fin 1000) (q : Fin 256) :
    matmul dot_S1000x512_S512x256_S1000x256_1_0_0_1_n_n (some .fp32) L R (constant S1000x256 .f32 0x00000000#32) (ix2 a q)
      = ∑ k : Fin 512, L (ix2 a k) * R (ix2 k q) :=
  Cert.PlainMatmul.zero_acc_apply dot_S1000x512_S512x256_S1000x256_1_0_0_1_n_n_wf (some .fp32) L R a q

/-- The bias row spread over the thousand rows of a block, at (a, q): the row at (0, q). -/
theorem bias512 (b : FVec Ideal S1x512 .f32) (a : Fin 1000) (q : Fin 512) :
    broadcastTo S1000x512 b broadcasts_S1x512_S1000x512 (ix2 a q) = b (ix2 (0 : Fin 1) q) := by
  refine broadcastTo_apply b _ (ix2 a q) (ix2 (0 : Fin 1) q) fun ax => ?_
  match ax with
  | ⟨0, _⟩ => rfl
  | ⟨1, _⟩ => rfl

theorem bias256 (b : FVec Ideal S1x256 .f32) (a : Fin 1000) (q : Fin 256) :
    broadcastTo S1000x256 b broadcasts_S1x256_S1000x256 (ix2 a q) = b (ix2 (0 : Fin 1) q) := by
  refine broadcastTo_apply b _ (ix2 a q) (ix2 (0 : Fin 1) q) fun ax => ?_
  match ax with
  | ⟨0, _⟩ => rfl
  | ⟨1, _⟩ => rfl

/-- What the first launch's body stores, at (a, q) of the block: the five products added in order, the bias row, the
    maximum with zero. -/
theorem pay0_apply (x0 : FVec Ideal S1000x512 .f32) (x1 x2 x3 x4 : FVec Ideal S1000x512 .bf16)
    (x5 x6 x7 x8 x9 : FVec Ideal S512x512 .f32) (x10 : FVec Ideal S1x512 .f32) (a : Fin 1000) (q : Fin 512) :
    k0_pay1 (F := Ideal) (k0_pay2 x0 x5 x1 x6 x2 x7 x3 x8 x4 x9) x10 (ix2 a q)
      = max ((((((∑ k : Fin 512, x0 (ix2 a k) * x5 (ix2 k q)) + ∑ k : Fin 512, x1 (ix2 a k) * x6 (ix2 k q))
          + ∑ k : Fin 512, x2 (ix2 a k) * x7 (ix2 k q)) + ∑ k : Fin 512, x3 (ix2 a k) * x8 (ix2 k q))
          + ∑ k : Fin 512, x4 (ix2 a k) * x9 (ix2 k q)) + x10 (ix2 (0 : Fin 1) q)) Z := by
  unfold k0_pay1 k0_pay2
  simp only [shapeCast_self]
  simp only [truncf_apply, maximumf_apply, addf_apply, broadcast_apply, mm512, bias512, extf_apply]
  rfl

/-- What the second launch's body stores, at (a, q) of the block: the five products added in order, then the bias row. -/
theorem pay1_apply (x0 x1 x2 x3 x4 : FVec Ideal S1000x512 .bf16)
    (x5 x6 x7 x8 x9 : FVec Ideal S512x256 .f32) (x10 : FVec Ideal S1x256 .f32) (a : Fin 1000) (q : Fin 256) :
    k1_pay1 (F := Ideal) (k1_pay2 x0 x5 x1 x6 x2 x7 x3 x8 x4 x9) x10 (ix2 a q)
      = (((((∑ k : Fin 512, x0 (ix2 a k) * x5 (ix2 k q)) + ∑ k : Fin 512, x1 (ix2 a k) * x6 (ix2 k q))
          + ∑ k : Fin 512, x2 (ix2 a k) * x7 (ix2 k q)) + ∑ k : Fin 512, x3 (ix2 a k) * x8 (ix2 k q))
          + ∑ k : Fin 512, x4 (ix2 a k) * x9 (ix2 k q)) + x10 (ix2 (0 : Fin 1) q) := by
  unfold k1_pay1 k1_pay2
  simp only [shapeCast_self]
  simp only [addf_apply, mm256, bias256, extf_apply]

/-! ## The block index maps -/

theorem hz : (![0, 0] : Fin 2 → Nat) = fun _ => 0 := funext fun a => by fin_cases a <;> rfl

/-- The first launch's block index maps over its fifty points: a feature window and the result window sit at row
    block t, column block 0; a weight or bias window is whole at every point. -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- The second launch's block index maps: the same arrangement. -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-! ## The first launch -/

section Region0

variable (V : (c : Dev nD) → (b : Ref sig .tc) → Buf (Elt Ideal) ((c : Thread nD τ).loc b))

/-! Each window's block at point t, read at an index of the block, is its array as the launch finds it read at the
    index the block's rectangle names: row 1000·t + a of a feature array, the same index of a weight or bias array. -/

theorem blk0_0 (c : Dev nD) (t : Fin cfg0.N) (a : Fin 1000) (k : Fin 512) (p : Fin 50000)
    (hp : p.val = 1000 * t.val + a.val) :
    (iblk0 V c 0 t : FVec Ideal S1000x512 .f32) (ix2 a k) = (V c main_arg0 : S50000x512.Idx → EReal) (ix2 p k) := by
  obtain ⟨h0, h1, h2, h3, h4, h5, h6, h7, h8, h9, h10, h11⟩ := idx0 t
  unfold iblk0
  rw [View.read_apply]
  show V c main_arg0 _ = V c main_arg0 _
  refine congrArg _ (funext fun ax => Fin.ext ?_)
  match ax with
  | ⟨0, _⟩ => show win0_0.index t 0 * 1000 + 1 * a.val = p.val; rw [h0.1, hp]; omega
  | ⟨1, _⟩ => show win0_0.index t 1 * 512 + 1 * k.val = k.val; rw [h0.2]; omega

theorem blk0_1 (c : Dev nD) (t : Fin cfg0.N) (a : Fin 1000) (k : Fin 512) (p : Fin 50000)
    (hp : p.val = 1000 * t.val + a.val) :
    (iblk0 V c 1 t : FVec Ideal S1000x512 .bf16) (ix2 a k) = (V c main_v24 : S50000x512.Idx → EReal) (ix2 p k) := by
  obtain ⟨h0, h1, h2, h3, h4, h5, h6, h7, h8, h9, h10, h11⟩ := idx0 t
  unfold iblk0
  rw [View.read_apply]
  show V c main_v24 _ = V c main_v24 _
  refine congrArg _ (funext fun ax => Fin.ext ?_)
  match ax with
  | ⟨0, _⟩ => show win0_1.index t 0 * 1000 + 1 * a.val = p.val; rw [h1.1, hp]; omega
  | ⟨1, _⟩ => show win0_1.index t 1 * 512 + 1 * k.val = k.val; rw [h1.2]; omega

theorem blk0_2 (c : Dev nD) (t : Fin cfg0.N) (a : Fin 1000) (k : Fin 512) (p : Fin 50000)
    (hp : p.val = 1000 * t.val + a.val) :
    (iblk0 V c 2 t : FVec Ideal S1000x512 .bf16) (ix2 a k) = (V c main_v46 : S50000x512.Idx → EReal) (ix2 p k) := by
  obtain ⟨h0, h1, h2, h3, h4, h5, h6, h7, h8, h9, h10, h11⟩ := idx0 t
  unfold iblk0
  rw [View.read_apply]
  show V c main_v46 _ = V c main_v46 _
  refine congrArg _ (funext fun ax => Fin.ext ?_)
  match ax with
  | ⟨0, _⟩ => show win0_2.index t 0 * 1000 + 1 * a.val = p.val; rw [h2.1, hp]; omega
  | ⟨1, _⟩ => show win0_2.index t 1 * 512 + 1 * k.val = k.val; rw [h2.2]; omega

theorem blk0_3 (c : Dev nD) (t : Fin cfg0.N) (a : Fin 1000) (k : Fin 512) (p : Fin 50000)
    (hp : p.val = 1000 * t.val + a.val) :
    (iblk0 V c 3 t : FVec Ideal S1000x512 .bf16) (ix2 a k) = (V c main_v68 : S50000x512.Idx → EReal) (ix2 p k) := by
  obtain ⟨h0, h1, h2, h3, h4, h5, h6, h7, h8, h9, h10, h11⟩ := idx0 t
  unfold iblk0
  rw [View.read_apply]
  show V c main_v68 _ = V c main_v68 _
  refine congrArg _ (funext fun ax => Fin.ext ?_)
  match ax with
  | ⟨0, _⟩ => show win0_3.index t 0 * 1000 + 1 * a.val = p.val; rw [h3.1, hp]; omega
  | ⟨1, _⟩ => show win0_3.index t 1 * 512 + 1 * k.val = k.val; rw [h3.2]; omega

theorem blk0_4 (c : Dev nD) (t : Fin cfg0.N) (a : Fin 1000) (k : Fin 512) (p : Fin 50000)
    (hp : p.val = 1000 * t.val + a.val) :
    (iblk0 V c 4 t : FVec Ideal S1000x512 .bf16) (ix2 a k) = (V c main_v90 : S50000x512.Idx → EReal) (ix2 p k) := by
  obtain ⟨h0, h1, h2, h3, h4, h5, h6, h7, h8, h9, h10, h11⟩ := idx0 t
  unfold iblk0
  rw [View.read_apply]
  show V c main_v90 _ = V c main_v90 _
  refine congrArg _ (funext fun ax => Fin.ext ?_)
  match ax with
  | ⟨0, _⟩ => show win0_4.index t 0 * 1000 + 1 * a.val = p.val; rw [h4.1, hp]; omega
  | ⟨1, _⟩ => show win0_4.index t 1 * 512 + 1 * k.val = k.val; rw [h4.2]; omega

theorem blk0_5 (c : Dev nD) (t : Fin cfg0.N) (k : Fin 512) (q : Fin 512) :
    (iblk0 V c 5 t : FVec Ideal S512x512 .f32) (ix2 k q) = (V c main_v91 : S512x512.Idx → EReal) (ix2 k q) := by
  obtain ⟨h0, h1, h2, h3, h4, h5, h6, h7, h8, h9, h10, h11⟩ := idx0 t
  unfold iblk0
  rw [View.read_apply]
  show V c main_v91 _ = V c main_v91 _
  refine congrArg _ (funext fun ax => Fin.ext ?_)
  match ax with
  | ⟨0, _⟩ => show win0_5.index t 0 * 512 + 1 * k.val = k.val; rw [h5.1]; omega
  | ⟨1, _⟩ => show win0_5.index t 1 * 512 + 1 * q.val = q.val; rw [h5.2]; omega

theorem blk0_6 (c : Dev nD) (t : Fin cfg0.N) (k : Fin 512) (q : Fin 512) :
    (iblk0 V c 6 t : FVec Ideal S512x512 .f32) (ix2 k q) = (V c main_v94 : S512x512.Idx → EReal) (ix2 k q) := by
  obtain ⟨h0, h1, h2, h3, h4, h5, h6, h7, h8, h9, h10, h11⟩ := idx0 t
  unfold iblk0
  rw [View.read_apply]
  show V c main_v94 _ = V c main_v94 _
  refine congrArg _ (funext fun ax => Fin.ext ?_)
  match ax with
  | ⟨0, _⟩ => show win0_6.index t 0 * 512 + 1 * k.val = k.val; rw [h6.1]; omega
  | ⟨1, _⟩ => show win0_6.index t 1 * 512 + 1 * q.val = q.val; rw [h6.2]; omega

theorem blk0_7 (c : Dev nD) (t : Fin cfg0.N) (k : Fin 512) (q : Fin 512) :
    (iblk0 V c 7 t : FVec Ideal S512x512 .f32) (ix2 k q) = (V c main_v96 : S512x512.Idx → EReal) (ix2 k q) := by
  obtain ⟨h0, h1, h2, h3, h4, h5, h6, h7, h8, h9, h10, h11⟩ := idx0 t
  unfold iblk0
  rw [View.read_apply]
  show V c main_v96 _ = V c main_v96 _
  refine congrArg _ (funext fun ax => Fin.ext ?_)
  match ax with
  | ⟨0, _⟩ => show win0_7.index t 0 * 512 + 1 * k.val = k.val; rw [h7.1]; omega
  | ⟨1, _⟩ => show win0_7.index t 1 * 512 + 1 * q.val = q.val; rw [h7.2]; omega

theorem blk0_8 (c : Dev nD) (t : Fin cfg0.N) (k : Fin 512) (q : Fin 512) :
    (iblk0 V c 8 t : FVec Ideal S512x512 .f32) (ix2 k q) = (V c main_v98 : S512x512.Idx → EReal) (ix2 k q) := by
  obtain ⟨h0, h1, h2, h3, h4, h5, h6, h7, h8, h9, h10, h11⟩ := idx0 t
  unfold iblk0
  rw [View.read_apply]
  show V c main_v98 _ = V c main_v98 _
  refine congrArg _ (funext fun ax => Fin.ext ?_)
  match ax with
  | ⟨0, _⟩ => show win0_8.index t 0 * 512 + 1 * k.val = k.val; rw [h8.1]; omega
  | ⟨1, _⟩ => show win0_8.index t 1 * 512 + 1 * q.val = q.val; rw [h8.2]; omega

theorem blk0_9 (c : Dev nD) (t : Fin cfg0.N) (k : Fin 512) (q : Fin 512) :
    (iblk0 V c 9 t : FVec Ideal S512x512 .f32) (ix2 k q) = (V c main_v100 : S512x512.Idx → EReal) (ix2 k q) := by
  obtain ⟨h0, h1, h2, h3, h4, h5, h6, h7, h8, h9, h10, h11⟩ := idx0 t
  unfold iblk0
  rw [View.read_apply]
  show V c main_v100 _ = V c main_v100 _
  refine congrArg _ (funext fun ax => Fin.ext ?_)
  match ax with
  | ⟨0, _⟩ => show win0_9.index t 0 * 512 + 1 * k.val = k.val; rw [h9.1]; omega
  | ⟨1, _⟩ => show win0_9.index t 1 * 512 + 1 * q.val = q.val; rw [h9.2]; omega

theorem blk0_10 (c : Dev nD) (t : Fin cfg0.N) (q : Fin 512) :
    (iblk0 V c 10 t : FVec Ideal S1x512 .f32) (ix2 (0 : Fin 1) q) = (V c main_v101 : S1x512.Idx → EReal) (ix2 (0 : Fin 1) q) := by
  obtain ⟨h0, h1, h2, h3, h4, h5, h6, h7, h8, h9, h10, h11⟩ := idx0 t
  unfold iblk0
  rw [View.read_apply]
  show V c main_v101 _ = V c main_v101 _
  refine congrArg _ (funext fun ax => Fin.ext ?_)
  match ax with
  | ⟨0, _⟩ => show win0_10.index t 0 * 1 + 1 * 0 = 0; rw [h10.1]
  | ⟨1, _⟩ => show win0_10.index t 1 * 512 + 1 * q.val = q.val; rw [h10.2]; omega

/-- Index (a, q) of the result block at point t is index (1000·t + a, q) of the result array. -/
theorem emb0_11 (t : Fin cfg0.N) (a : Fin 1000) (q : Fin 512) (p : Fin 50000) (hp : p.val = 1000 * t.val + a.val) :
    ((cfg0.win 11).blk t).view.emb (ix2 a q) = (ix2 p q : S50000x512.Idx) := by
  obtain ⟨h0, h1, h2, h3, h4, h5, h6, h7, h8, h9, h10, h11⟩ := idx0 t
  refine funext fun ax => Fin.ext ?_
  match ax with
  | ⟨0, _⟩ => show win0_11.index t 0 * 1000 + 1 * a.val = p.val; rw [h11.1, hp]; omega
  | ⟨1, _⟩ => show win0_11.index t 1 * 512 + 1 * q.val = q.val; rw [h11.2]; omega

/-- What the first launch leaves in its result array, as one function of its operand arrays as the launch finds them:
    the dense stage at (p, q), then the maximum with zero. -/
def G0 (c : Dev nD) : S50000x512.Idx → EReal := fun j =>
  max (kern 512 (V c main_arg0) (V c main_v24) (V c main_v46) (V c main_v68) (V c main_v90)
        (V c main_v91) (V c main_v94) (V c main_v96) (V c main_v98) (V c main_v100) (V c main_v101) (j 0) (j 1)) Z

theorem G0_apply (c : Dev nD) (p : Fin 50000) (q : Fin 512) :
    G0 V c (ix2 p q) = max (kern 512 (V c main_arg0) (V c main_v24) (V c main_v46) (V c main_v68) (V c main_v90)
        (V c main_v91) (V c main_v94) (V c main_v96) (V c main_v98) (V c main_v100) (V c main_v101) p q) Z := rfl

/-- What point t writes back is block t of G0: the body's one store covers the block, each load reads its window's
    whole block, and each block read is its array at the rows the result block names. -/
theorem flushed0_eq (c : Dev nD) (t : Fin cfg0.N) :
    (dat0 V c).flushed 11 t = ((cfg0.win 11).blk t).view.read (Elt Ideal) (G0 V c) := by
  show (cfg0.win 11).cut (grid0.coords t) ((dat0 V c).after 11 t) = _
  rw [after0_11]
  unfold out0_11
  rw [View.canon_unit_zero hz]
  simp only [View.ld_unit_zero (S := S1000x512) hz, View.ld_unit_zero (S := S512x512) hz, View.ld_unit_zero (S := S1x512) hz]
  funext j
  obtain ⟨a, q, rfl⟩ : ∃ (a : Fin 1000) (q : Fin 512), j = ix2 a q := ⟨j 0, j 1, eq_ix2 j⟩
  have hp : (⟨1000 * t.val + a.val, by have := t.isLt; have : cfg0.N = 50 := rfl; omega⟩ : Fin 50000).val
      = 1000 * t.val + a.val := rfl
  show k0_pay1 (F := Ideal) (k0_pay2 (iblk0 V c 0 t) (iblk0 V c 5 t) (iblk0 V c 1 t) (iblk0 V c 6 t) (iblk0 V c 2 t)
        (iblk0 V c 7 t) (iblk0 V c 3 t) (iblk0 V c 8 t) (iblk0 V c 4 t) (iblk0 V c 9 t)) (iblk0 V c 10 t) (ix2 a q)
      = G0 V c (((cfg0.win 11).blk t).view.emb (ix2 a q))
  rw [emb0_11 t a q _ hp, G0_apply,
    pay0_apply (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) a q]
  unfold kern
  refine congrArg (fun x => max x Z) ?_
  refine congrArg₂ (· + ·) (congrArg₂ (· + ·) (congrArg₂ (· + ·) (congrArg₂ (· + ·) (congrArg₂ (· + ·) ?_ ?_) ?_) ?_) ?_)
    (blk0_10 V c t q)
  · exact Finset.sum_congr rfl fun k _ => by rw [blk0_0 V c t a k _ hp, blk0_5 V c t k q]
  · exact Finset.sum_congr rfl fun k _ => by rw [blk0_1 V c t a k _ hp, blk0_6 V c t k q]
  · exact Finset.sum_congr rfl fun k _ => by rw [blk0_2 V c t a k _ hp, blk0_7 V c t k q]
  · exact Finset.sum_congr rfl fun k _ => by rw [blk0_3 V c t a k _ hp, blk0_8 V c t k q]
  · exact Finset.sum_congr rfl fun k _ => by rw [blk0_4 V c t a k _ hp, blk0_9 V c t k q]

/-- An index of the result array is in point t's block iff each coordinate is in the block's range on its axis. -/
theorem mem_blk0 (t : Fin cfg0.N) (i : S50000x512.Idx) :
    i ∈ ((cfg0.win 11).blk t).view.set ↔ ∀ a : Fin 2, win0_11.index t a * S1000x512.size a ≤ (i a).val
      ∧ (i a).val < win0_11.index t a * S1000x512.size a + S1000x512.size a := by
  show i ∈ ((View.whole main_v102).slice (win0_11.rect t)).set ↔ _
  rw [View.set_slice_whole, Rect.mem_set_unit]
  exact Iff.rfl

/-- Row r of the result array is in the block of point r / 1000. -/
theorem cover0 (i : S50000x512.Idx) :
    ∃ t : Fin cfg0.N, (cfg0.win 11).flush t = true ∧ i ∈ ((cfg0.win 11).blk t).view.set := by
  have hi0 : (i 0).val < 50000 := (i 0).isLt
  have hi1 : (i 1).val < 512 := (i 1).isLt
  have hN : cfg0.N = 50 := rfl
  have ht : (i 0).val / 1000 < cfg0.N := by rw [hN]; omega
  obtain ⟨h0, h1, h2, h3, h4, h5, h6, h7, h8, h9, h10, h11⟩ := idx0 ⟨(i 0).val / 1000, ht⟩
  refine ⟨⟨(i 0).val / 1000, ht⟩, flush0_11 _, ?_⟩
  rw [mem_blk0]
  intro a
  match a with
  | ⟨0, _⟩ =>
    show win0_11.index ⟨(i 0).val / 1000, ht⟩ 0 * 1000 ≤ (i 0).val
      ∧ (i 0).val < win0_11.index ⟨(i 0).val / 1000, ht⟩ 0 * 1000 + 1000
    rw [h11.1]; show (i 0).val / 1000 * 1000 ≤ (i 0).val ∧ (i 0).val < (i 0).val / 1000 * 1000 + 1000; omega
  | ⟨1, _⟩ =>
    show win0_11.index ⟨(i 0).val / 1000, ht⟩ 1 * 512 ≤ (i 1).val
      ∧ (i 1).val < win0_11.index ⟨(i 0).val / 1000, ht⟩ 1 * 512 + 512
    rw [h11.2]; omega

/-- The result array after the first launch is G0 of the operand arrays as the launch finds them. -/
theorem arr0 (c : Dev nD) : (dat0 V c).arrAt 11 cfg0.N = G0 V c :=
  (dat0 V c).arrAt_eq_of_cover 11 (G0 V c) (fun t _ => flushed0_eq V c t) cover0

end Region0

/-! ## The second launch -/

section Region1

variable (V : (c : Dev nD) → (b : Ref sig .tc) → Buf (Elt Ideal) ((c : Thread nD τ).loc b))

theorem blk1_0 (c : Dev nD) (t : Fin cfg1.N) (a : Fin 1000) (k : Fin 512) (p : Fin 50000)
    (hp : p.val = 1000 * t.val + a.val) :
    (iblk1 V c 0 t : FVec Ideal S1000x512 .bf16) (ix2 a k) = (V c main_v102 : S50000x512.Idx → EReal) (ix2 p k) := by
  obtain ⟨h0, h1, h2, h3, h4, h5, h6, h7, h8, h9, h10, h11⟩ := idx1 t
  unfold iblk1
  rw [View.read_apply]
  show V c main_v102 _ = V c main_v102 _
  refine congrArg _ (funext fun ax => Fin.ext ?_)
  match ax with
  | ⟨0, _⟩ => show win1_0.index t 0 * 1000 + 1 * a.val = p.val; rw [h0.1, hp]; omega
  | ⟨1, _⟩ => show win1_0.index t 1 * 512 + 1 * k.val = k.val; rw [h0.2]; omega

theorem blk1_1 (c : Dev nD) (t : Fin cfg1.N) (a : Fin 1000) (k : Fin 512) (p : Fin 50000)
    (hp : p.val = 1000 * t.val + a.val) :
    (iblk1 V c 1 t : FVec Ideal S1000x512 .bf16) (ix2 a k) = (V c main_v126 : S50000x512.Idx → EReal) (ix2 p k) := by
  obtain ⟨h0, h1, h2, h3, h4, h5, h6, h7, h8, h9, h10, h11⟩ := idx1 t
  unfold iblk1
  rw [View.read_apply]
  show V c main_v126 _ = V c main_v126 _
  refine congrArg _ (funext fun ax => Fin.ext ?_)
  match ax with
  | ⟨0, _⟩ => show win1_1.index t 0 * 1000 + 1 * a.val = p.val; rw [h1.1, hp]; omega
  | ⟨1, _⟩ => show win1_1.index t 1 * 512 + 1 * k.val = k.val; rw [h1.2]; omega

theorem blk1_2 (c : Dev nD) (t : Fin cfg1.N) (a : Fin 1000) (k : Fin 512) (p : Fin 50000)
    (hp : p.val = 1000 * t.val + a.val) :
    (iblk1 V c 2 t : FVec Ideal S1000x512 .bf16) (ix2 a k) = (V c main_v148 : S50000x512.Idx → EReal) (ix2 p k) := by
  obtain ⟨h0, h1, h2, h3, h4, h5, h6, h7, h8, h9, h10, h11⟩ := idx1 t
  unfold iblk1
  rw [View.read_apply]
  show V c main_v148 _ = V c main_v148 _
  refine congrArg _ (funext fun ax => Fin.ext ?_)
  match ax with
  | ⟨0, _⟩ => show win1_2.index t 0 * 1000 + 1 * a.val = p.val; rw [h2.1, hp]; omega
  | ⟨1, _⟩ => show win1_2.index t 1 * 512 + 1 * k.val = k.val; rw [h2.2]; omega

theorem blk1_3 (c : Dev nD) (t : Fin cfg1.N) (a : Fin 1000) (k : Fin 512) (p : Fin 50000)
    (hp : p.val = 1000 * t.val + a.val) :
    (iblk1 V c 3 t : FVec Ideal S1000x512 .bf16) (ix2 a k) = (V c main_v170 : S50000x512.Idx → EReal) (ix2 p k) := by
  obtain ⟨h0, h1, h2, h3, h4, h5, h6, h7, h8, h9, h10, h11⟩ := idx1 t
  unfold iblk1
  rw [View.read_apply]
  show V c main_v170 _ = V c main_v170 _
  refine congrArg _ (funext fun ax => Fin.ext ?_)
  match ax with
  | ⟨0, _⟩ => show win1_3.index t 0 * 1000 + 1 * a.val = p.val; rw [h3.1, hp]; omega
  | ⟨1, _⟩ => show win1_3.index t 1 * 512 + 1 * k.val = k.val; rw [h3.2]; omega

theorem blk1_4 (c : Dev nD) (t : Fin cfg1.N) (a : Fin 1000) (k : Fin 512) (p : Fin 50000)
    (hp : p.val = 1000 * t.val + a.val) :
    (iblk1 V c 4 t : FVec Ideal S1000x512 .bf16) (ix2 a k) = (V c main_v192 : S50000x512.Idx → EReal) (ix2 p k) := by
  obtain ⟨h0, h1, h2, h3, h4, h5, h6, h7, h8, h9, h10, h11⟩ := idx1 t
  unfold iblk1
  rw [View.read_apply]
  show V c main_v192 _ = V c main_v192 _
  refine congrArg _ (funext fun ax => Fin.ext ?_)
  match ax with
  | ⟨0, _⟩ => show win1_4.index t 0 * 1000 + 1 * a.val = p.val; rw [h4.1, hp]; omega
  | ⟨1, _⟩ => show win1_4.index t 1 * 512 + 1 * k.val = k.val; rw [h4.2]; omega

theorem blk1_5 (c : Dev nD) (t : Fin cfg1.N) (k : Fin 512) (q : Fin 256) :
    (iblk1 V c 5 t : FVec Ideal S512x256 .f32) (ix2 k q) = (V c main_v193 : S512x256.Idx → EReal) (ix2 k q) := by
  obtain ⟨h0, h1, h2, h3, h4, h5, h6, h7, h8, h9, h10, h11⟩ := idx1 t
  unfold iblk1
  rw [View.read_apply]
  show V c main_v193 _ = V c main_v193 _
  refine congrArg _ (funext fun ax => Fin.ext ?_)
  match ax with
  | ⟨0, _⟩ => show win1_5.index t 0 * 512 + 1 * k.val = k.val; rw [h5.1]; omega
  | ⟨1, _⟩ => show win1_5.index t 1 * 256 + 1 * q.val = q.val; rw [h5.2]; omega

theorem blk1_6 (c : Dev nD) (t : Fin cfg1.N) (k : Fin 512) (q : Fin 256) :
    (iblk1 V c 6 t : FVec Ideal S512x256 .f32) (ix2 k q) = (V c main_v196 : S512x256.Idx → EReal) (ix2 k q) := by
  obtain ⟨h0, h1, h2, h3, h4, h5, h6, h7, h8, h9, h10, h11⟩ := idx1 t
  unfold iblk1
  rw [View.read_apply]
  show V c main_v196 _ = V c main_v196 _
  refine congrArg _ (funext fun ax => Fin.ext ?_)
  match ax with
  | ⟨0, _⟩ => show win1_6.index t 0 * 512 + 1 * k.val = k.val; rw [h6.1]; omega
  | ⟨1, _⟩ => show win1_6.index t 1 * 256 + 1 * q.val = q.val; rw [h6.2]; omega

theorem blk1_7 (c : Dev nD) (t : Fin cfg1.N) (k : Fin 512) (q : Fin 256) :
    (iblk1 V c 7 t : FVec Ideal S512x256 .f32) (ix2 k q) = (V c main_v198 : S512x256.Idx → EReal) (ix2 k q) := by
  obtain ⟨h0, h1, h2, h3, h4, h5, h6, h7, h8, h9, h10, h11⟩ := idx1 t
  unfold iblk1
  rw [View.read_apply]
  show V c main_v198 _ = V c main_v198 _
  refine congrArg _ (funext fun ax => Fin.ext ?_)
  match ax with
  | ⟨0, _⟩ => show win1_7.index t 0 * 512 + 1 * k.val = k.val; rw [h7.1]; omega
  | ⟨1, _⟩ => show win1_7.index t 1 * 256 + 1 * q.val = q.val; rw [h7.2]; omega

theorem blk1_8 (c : Dev nD) (t : Fin cfg1.N) (k : Fin 512) (q : Fin 256) :
    (iblk1 V c 8 t : FVec Ideal S512x256 .f32) (ix2 k q) = (V c main_v200 : S512x256.Idx → EReal) (ix2 k q) := by
  obtain ⟨h0, h1, h2, h3, h4, h5, h6, h7, h8, h9, h10, h11⟩ := idx1 t
  unfold iblk1
  rw [View.read_apply]
  show V c main_v200 _ = V c main_v200 _
  refine congrArg _ (funext fun ax => Fin.ext ?_)
  match ax with
  | ⟨0, _⟩ => show win1_8.index t 0 * 512 + 1 * k.val = k.val; rw [h8.1]; omega
  | ⟨1, _⟩ => show win1_8.index t 1 * 256 + 1 * q.val = q.val; rw [h8.2]; omega

theorem blk1_9 (c : Dev nD) (t : Fin cfg1.N) (k : Fin 512) (q : Fin 256) :
    (iblk1 V c 9 t : FVec Ideal S512x256 .f32) (ix2 k q) = (V c main_v202 : S512x256.Idx → EReal) (ix2 k q) := by
  obtain ⟨h0, h1, h2, h3, h4, h5, h6, h7, h8, h9, h10, h11⟩ := idx1 t
  unfold iblk1
  rw [View.read_apply]
  show V c main_v202 _ = V c main_v202 _
  refine congrArg _ (funext fun ax => Fin.ext ?_)
  match ax with
  | ⟨0, _⟩ => show win1_9.index t 0 * 512 + 1 * k.val = k.val; rw [h9.1]; omega
  | ⟨1, _⟩ => show win1_9.index t 1 * 256 + 1 * q.val = q.val; rw [h9.2]; omega

theorem blk1_10 (c : Dev nD) (t : Fin cfg1.N) (q : Fin 256) :
    (iblk1 V c 10 t : FVec Ideal S1x256 .f32) (ix2 (0 : Fin 1) q) = (V c main_v203 : S1x256.Idx → EReal) (ix2 (0 : Fin 1) q) := by
  obtain ⟨h0, h1, h2, h3, h4, h5, h6, h7, h8, h9, h10, h11⟩ := idx1 t
  unfold iblk1
  rw [View.read_apply]
  show V c main_v203 _ = V c main_v203 _
  refine congrArg _ (funext fun ax => Fin.ext ?_)
  match ax with
  | ⟨0, _⟩ => show win1_10.index t 0 * 1 + 1 * 0 = 0; rw [h10.1]
  | ⟨1, _⟩ => show win1_10.index t 1 * 256 + 1 * q.val = q.val; rw [h10.2]; omega

/-- Index (a, q) of the result block at point t is index (1000·t + a, q) of the result array. -/
theorem emb1_11 (t : Fin cfg1.N) (a : Fin 1000) (q : Fin 256) (p : Fin 50000) (hp : p.val = 1000 * t.val + a.val) :
    ((cfg1.win 11).blk t).view.emb (ix2 a q) = (ix2 p q : S50000x256.Idx) := by
  obtain ⟨h0, h1, h2, h3, h4, h5, h6, h7, h8, h9, h10, h11⟩ := idx1 t
  refine funext fun ax => Fin.ext ?_
  match ax with
  | ⟨0, _⟩ => show win1_11.index t 0 * 1000 + 1 * a.val = p.val; rw [h11.1, hp]; omega
  | ⟨1, _⟩ => show win1_11.index t 1 * 256 + 1 * q.val = q.val; rw [h11.2]; omega

/-- What the second launch leaves in its result array, as one function of its operand arrays as the launch finds
    them: the dense stage at (p, q). -/
def G1 (c : Dev nD) : S50000x256.Idx → EReal := fun j =>
  kern 256 (V c main_v102) (V c main_v126) (V c main_v148) (V c main_v170) (V c main_v192)
    (V c main_v193) (V c main_v196) (V c main_v198) (V c main_v200) (V c main_v202) (V c main_v203) (j 0) (j 1)

theorem G1_apply (c : Dev nD) (p : Fin 50000) (q : Fin 256) :
    G1 V c (ix2 p q) = kern 256 (V c main_v102) (V c main_v126) (V c main_v148) (V c main_v170) (V c main_v192)
        (V c main_v193) (V c main_v196) (V c main_v198) (V c main_v200) (V c main_v202) (V c main_v203) p q := rfl

/-- What point t writes back is block t of G1. -/
theorem flushed1_eq (c : Dev nD) (t : Fin cfg1.N) :
    (dat1 V c).flushed 11 t = ((cfg1.win 11).blk t).view.read (Elt Ideal) (G1 V c) := by
  show (cfg1.win 11).cut (grid1.coords t) ((dat1 V c).after 11 t) = _
  rw [after1_11]
  unfold out1_11
  rw [View.canon_unit_zero hz]
  simp only [View.ld_unit_zero (S := S1000x512) hz, View.ld_unit_zero (S := S512x256) hz, View.ld_unit_zero (S := S1x256) hz]
  funext j
  obtain ⟨a, q, rfl⟩ : ∃ (a : Fin 1000) (q : Fin 256), j = ix2 a q := ⟨j 0, j 1, eq_ix2 j⟩
  have hp : (⟨1000 * t.val + a.val, by have := t.isLt; have : cfg1.N = 50 := rfl; omega⟩ : Fin 50000).val
      = 1000 * t.val + a.val := rfl
  show k1_pay1 (F := Ideal) (k1_pay2 (iblk1 V c 0 t) (iblk1 V c 5 t) (iblk1 V c 1 t) (iblk1 V c 6 t) (iblk1 V c 2 t)
        (iblk1 V c 7 t) (iblk1 V c 3 t) (iblk1 V c 8 t) (iblk1 V c 4 t) (iblk1 V c 9 t)) (iblk1 V c 10 t) (ix2 a q)
      = G1 V c (((cfg1.win 11).blk t).view.emb (ix2 a q))
  rw [emb1_11 t a q _ hp, G1_apply,
    pay1_apply (iblk1 V c 0 t) (iblk1 V c 1 t) (iblk1 V c 2 t) (iblk1 V c 3 t) (iblk1 V c 4 t) (iblk1 V c 5 t)
      (iblk1 V c 6 t) (iblk1 V c 7 t) (iblk1 V c 8 t) (iblk1 V c 9 t) (iblk1 V c 10 t) a q]
  unfold kern
  refine congrArg₂ (· + ·) (congrArg₂ (· + ·) (congrArg₂ (· + ·) (congrArg₂ (· + ·) (congrArg₂ (· + ·) ?_ ?_) ?_) ?_) ?_)
    (blk1_10 V c t q)
  · exact Finset.sum_congr rfl fun k _ => by rw [blk1_0 V c t a k _ hp, blk1_5 V c t k q]
  · exact Finset.sum_congr rfl fun k _ => by rw [blk1_1 V c t a k _ hp, blk1_6 V c t k q]
  · exact Finset.sum_congr rfl fun k _ => by rw [blk1_2 V c t a k _ hp, blk1_7 V c t k q]
  · exact Finset.sum_congr rfl fun k _ => by rw [blk1_3 V c t a k _ hp, blk1_8 V c t k q]
  · exact Finset.sum_congr rfl fun k _ => by rw [blk1_4 V c t a k _ hp, blk1_9 V c t k q]

theorem mem_blk1 (t : Fin cfg1.N) (i : S50000x256.Idx) :
    i ∈ ((cfg1.win 11).blk t).view.set ↔ ∀ a : Fin 2, win1_11.index t a * S1000x256.size a ≤ (i a).val
      ∧ (i a).val < win1_11.index t a * S1000x256.size a + S1000x256.size a := by
  show i ∈ ((View.whole main_v204).slice (win1_11.rect t)).set ↔ _
  rw [View.set_slice_whole, Rect.mem_set_unit]
  exact Iff.rfl

/-- Row r of the result array is in the block of point r / 1000. -/
theorem cover1 (i : S50000x256.Idx) :
    ∃ t : Fin cfg1.N, (cfg1.win 11).flush t = true ∧ i ∈ ((cfg1.win 11).blk t).view.set := by
  have hi0 : (i 0).val < 50000 := (i 0).isLt
  have hi1 : (i 1).val < 256 := (i 1).isLt
  have hN : cfg1.N = 50 := rfl
  have ht : (i 0).val / 1000 < cfg1.N := by rw [hN]; omega
  obtain ⟨h0, h1, h2, h3, h4, h5, h6, h7, h8, h9, h10, h11⟩ := idx1 ⟨(i 0).val / 1000, ht⟩
  refine ⟨⟨(i 0).val / 1000, ht⟩, flush1_11 _, ?_⟩
  rw [mem_blk1]
  intro a
  match a with
  | ⟨0, _⟩ =>
    show win1_11.index ⟨(i 0).val / 1000, ht⟩ 0 * 1000 ≤ (i 0).val
      ∧ (i 0).val < win1_11.index ⟨(i 0).val / 1000, ht⟩ 0 * 1000 + 1000
    rw [h11.1]; show (i 0).val / 1000 * 1000 ≤ (i 0).val ∧ (i 0).val < (i 0).val / 1000 * 1000 + 1000; omega
  | ⟨1, _⟩ =>
    show win1_11.index ⟨(i 0).val / 1000, ht⟩ 1 * 256 ≤ (i 1).val
      ∧ (i 1).val < win1_11.index ⟨(i 0).val / 1000, ht⟩ 1 * 256 + 256
    rw [h11.2]; omega

/-- The result array after the second launch is G1 of the operand arrays as the launch finds them. -/
theorem arr1 (c : Dev nD) : (dat1 V c).arrAt 11 cfg1.N = G1 V c :=
  (dat1 V c).arrAt_eq_of_cover 11 (G1 V c) (fun t _ => flushed1_eq V c t) cover1

end Region1

/-! ## The two results in the run's buffer contents -/

section Run

variable (m : (ℓ : Loc nD τ sig) → Buf (Elt Ideal) ℓ) (ρ : Dev nD → PrngReg) (c : Dev nD)

/-- After the first launch the hidden-feature buffer holds, at (p, q), the dense stage of the launch's operand
    buffers followed by the maximum with zero. -/
theorem region0_out (p : Fin 50000) (q : Fin 512) :
    (W2 (F := Ideal) m ρ c (Proc.devRef .tc main_v102) : S50000x512.Idx → EReal) (ix2 p q)
      = max (kern 512 (V1 m ρ c main_arg0) (V1 m ρ c main_v24) (V1 m ρ c main_v46) (V1 m ρ c main_v68) (V1 m ρ c main_v90)
               (V1 m ρ c main_v91) (V1 m ρ c main_v94) (V1 m ρ c main_v96) (V1 m ρ c main_v98) (V1 m ρ c main_v100)
               (V1 m ρ c main_v101) p q) Z := by
  have h : W2 (F := Ideal) m ρ c (Proc.devRef .tc main_v102) = G0 (V1 m ρ) c :=
    (W2_arr m ρ c 11).trans (arr0 (V1 m ρ) c)
  rw [h]
  exact G0_apply (V1 m ρ) c p q

/-- After the second launch the result buffer holds, at (p, q), the dense stage of the launch's operand buffers. -/
theorem region1_out (p : Fin 50000) (q : Fin 256) :
    (W4 (F := Ideal) m ρ c (Proc.devRef .tc main_v204) : S50000x256.Idx → EReal) (ix2 p q)
      = kern 256 (V3 m ρ c main_v102) (V3 m ρ c main_v126) (V3 m ρ c main_v148) (V3 m ρ c main_v170) (V3 m ρ c main_v192)
               (V3 m ρ c main_v193) (V3 m ρ c main_v196) (V3 m ρ c main_v198) (V3 m ρ c main_v200) (V3 m ρ c main_v202)
               (V3 m ρ c main_v203) p q := by
  have h : W4 (F := Ideal) m ρ c (Proc.devRef .tc main_v204) = G1 (V3 m ρ) c :=
    (W4_arr m ρ c 11).trans (arr1 (V3 m ρ) c)
  rw [h]
  exact G1_apply (V3 m ρ) c p q

end Run

end Cert.KernelIdeal.Regions

end
-- ==== Proof.KernelHostOps.lean ====
/-
  The host-side arithmetic around the two dense launches, read at an index on the extended reals.

  One relation's neighbour mean is computed on the host as follows. The feature array [50000, 512] gets a
  column of ones appended ([50000, 513]); the source words of the relation's edges are moved into range when
  negative (w + 50000) and select rows of that array (read signed and clamped); the selected rows are added
  into a zero array [50000, 513] at the rows the destination words name (read signed, not clamped, a word
  that names no row dropped). Column 512 of the result then holds the in-degree and columns 0..511 the sums
  of the neighbours' features; the quotient of the sums by max(in-degree, 1) is the mean. Changes of float
  format are the identity on the extended reals.

  Every function is stated over variables, and each is read at an index operation by operation.
-/
import proofs.«128207_j9895604650659_2_alg».proof.Proof.Gen.KernelIdeal
import proofs.«128207_j9895604650659_2_alg».proof.Proof.Spec
import proofs.«128207_j9895604650659_2_alg».proof.Proof.LibRowTakeAdd
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.HostValue

open Cert.KernelIdeal Cert.KernelIdeal.Gen Cert.Sage Idealize.ShloMosaic Idealize.ShloMosaic.ValueIdx Cert.RowTakeAdd

/-! ## The edge words -/

/-- Row `off 0` of the table of edge words [4, 250000], as a vector of 250000 words. -/
def wordRow (off : Fin 2 → Nat) (h : S4x250000.Slices off S1x250000) (x : IVec S4x250000 32) : IVec S250000 32 :=
  shapeCast S250000 (extractStridedSlice S1x250000 off x h) shapeCasts_S1x250000_S250000

/-- The vector's word e is the table's word (r, e). -/
theorem wordRow_apply (off : Fin 2 → Nat) (h : S4x250000.Slices off S1x250000) (x : IVec S4x250000 32)
    (r : Fin 4) (e : Fin 250000) (h0 : off 0 = r.val) (h1 : off 1 = 0) :
    wordRow off h x (ix1 e) = x (ix2 r e) := by
  unfold wordRow
  refine (shapeCast_apply _ shapeCasts_S1x250000_S250000 (ix1 e) (ix2 (0 : Fin 1) e) ?_).trans ?_
  · rewrite [Shape.rowMajor_val_two, Shape.rowMajor_val_one]
    show 0 * 250000 + e.val = e.val
    omega
  · exact extractStridedSlice_apply off x h (ix2 (0 : Fin 1) e) (ix2 r e) (fun a => match a with
      | ⟨0, _⟩ => by show r.val = off 0 + 0; omega
      | ⟨1, _⟩ => by show e.val = off 1 + e.val; omega)

/-- The wrap of a negative source word, word by word: w + 50000 when w < 0. -/
def wrapWords (s : IVec S250000 32) : IVec S250000 32 :=
  select (cmpi .slt s (broadcastInDim S250000 ![] bcast_S_S250000 (constantI S_ 32 0#32)))
    (addi s (broadcastInDim S250000 ![] bcast_S_S250000 (constantI S_ 32 50000#32))) s

theorem wrapWords_apply (s : IVec S250000 32) (i : S250000.Idx) :
    wrapWords s i = Scalar.select (IntOp.cmpi .slt (s i) 0#32) (IntOp.addi (s i) 50000#32) (s i) := rfl

/-- A vector of words as a column [250000, 1]. -/
def column (s : IVec S250000 32) : IVec S250000x1 32 :=
  broadcastInDim S250000x1 ![0] bcast_S250000_S250000x1_0 s

theorem column_apply (s : IVec S250000 32) (e : Fin 250000) : column s (ix2 e (0 : Fin 1)) = s (ix1 e) := by
  unfold column
  exact broadcastInDim_apply _ bcast_S250000_S250000x1_0 s (ix2 e (0 : Fin 1)) (ix1 e) (fun a => match a with
    | ⟨0, _⟩ => by show e.val = if (250000 : Nat) = 1 then 0 else e.val; rw [if_neg (by decide)])

/-! ## The features with a column of ones -/

/-- The bf16 pattern 0x3F80 is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 one and the f32 one are the same extended real. -/
theorem one_bf16_eq_O : Ideal.ofBits .bf16 0x3F80#16 = O := by
  unfold O
  rw [ofBits_one_bf16, Ideal.ofBits_one_f32]

/-- The feature array with a column of ones appended: [50000, 512] to [50000, 513]. -/
def withOnes (x : FVec Ideal S50000x512 .bf16) : FVec Ideal S50000x513 .bf16 :=
  concatenate S50000x513 1
    [⟨S50000x512, x⟩, ⟨S50000x1, broadcastInDim S50000x1 ![] bcast_S_S50000x1 (constant (F := Ideal) S_ .bf16 0x3F80#16)⟩]
    concatenates_S50000x512_S50000x1_S50000x513_d1

/-- A column below 512 is the feature array's. -/
theorem withOnes_left (x : FVec Ideal S50000x512 .bf16) (p : Fin 50000) (k : Fin 512) (k' : Fin 513) (hk : k'.val = k.val) :
    withOnes x (ix2 p k') = x (ix2 p k) := by
  unfold withOnes
  exact concatenate_pair_apply_left (1 : Fin 2) x _ concatenates_S50000x512_S50000x1_S50000x513_d1 (ix2 p k') rfl (ix2 p k)
    (fun b => match b with
      | ⟨0, _⟩ => rfl
      | ⟨1, _⟩ => hk.symm)

/-- Column 512 is one. -/
theorem withOnes_right (x : FVec Ideal S50000x512 .bf16) (p : Fin 50000) (k' : Fin 513) (hk : k'.val = 512) :
    withOnes x (ix2 p k') = O := by
  unfold withOnes
  refine (concatenate_pair_apply_right (t := S50000x513) (s₁ := S50000x512) (s₂ := S50000x1) (1 : Fin 2) x _
    concatenates_S50000x512_S50000x1_S50000x513_d1 (ix2 p k') rfl rfl
    (ix2 p (0 : Fin 1) : S50000x1.Idx) (fun b hb => ?_) ?_).trans one_bf16_eq_O
  · match b, hb with
    | ⟨0, _⟩, _ => rfl
    | ⟨1, _⟩, hb => exact absurd rfl hb
  · show 0 + 512 = k'.val
    omega

/-! ## Rows taken at the source words and added at the destination words -/

/-- The rows of y at the wrapped source words, added into the zero array at the destination words. -/
def sums (y : FVec Ideal S50000x513 .bf16) (s d : IVec S250000 32) : FVec Ideal S50000x513 .f32 :=
  Host.scatterAdd (F := Ideal) scatter_S50000x513_S250000x1_S250000x513_1_0_0_1
    (broadcastInDim S50000x513 ![] bcast_S_S50000x513 (constant (F := Ideal) S_ .f32 0x00000000#32))
    (column d)
    (extf .f32 (Host.gather gather_S50000x513_S250000x1_S250000x513_1_0_n_n_0_1_1513 y (column (wrapWords s)))
      (by decide))

/-- At (p, k): zero plus the sum, over the edges whose destination word read signed is p, of y at the source row and k. -/
theorem sums_apply (y : FVec Ideal S50000x513 .bf16) (s d : IVec S250000 32) (p : Fin 50000) (k : Fin 513) :
    sums y s d (ix2 p k)
      = Z + ∑ e ∈ Finset.univ.filter (fun e : Fin 250000 => (d (ix1 e)).toInt = (p.val : Int)),
          y (ix2 (takeRow 50000 (by decide) (wrapWords s (ix1 e))) k) := by
  unfold sums
  refine (scatterAdd_rows_apply scatter_S50000x513_S250000x1_S250000x513_1_0_0_1_wf _ (column d) _ p k).trans ?_
  refine congrArg₂ (· + ·) rfl ?_
  refine Finset.sum_congr (Finset.filter_congr fun e _ => by rw [column_apply]) fun e _ => ?_
  refine (gather_rows_apply (by decide) gather_S50000x513_S250000x1_S250000x513_1_0_n_n_0_1_1513_wf y
    (column (wrapWords s)) e k).trans ?_
  rw [column_apply]

/-! ## The quotient -/

/-- Columns 0..511 divided by the larger of column 512 and one. -/
def meanOf (t : FVec Ideal S50000x513 .f32) : FVec Ideal S50000x512 .bf16 :=
  truncf .bf16 (Host.divf (F := Ideal) (extractStridedSlice S50000x512 ![0, 0] t slices_S50000x513_S50000x512_0_0)
    (broadcastInDim S50000x512 ![0, 1] bcast_S50000x1_S50000x512_0_1
      (maximumf (extractStridedSlice S50000x1 ![0, 512] t slices_S50000x513_S50000x1_0_512)
        (broadcastInDim S50000x1 ![] bcast_S_S50000x1 (constant (F := Ideal) S_ .f32 0x3F800000#32))))) (by decide)

theorem meanOf_apply (t : FVec Ideal S50000x513 .f32) (p : Fin 50000) (k : Fin 512) (k' l : Fin 513)
    (hk : k'.val = k.val) (hl : l.val = 512) :
    meanOf t (ix2 p k) = Ideal.div (t (ix2 p k')) (max (t (ix2 p l)) O) := by
  show Ideal.div (extractStridedSlice S50000x512 ![0, 0] t slices_S50000x513_S50000x512_0_0 (ix2 p k))
    (broadcastInDim S50000x512 ![0, 1] bcast_S50000x1_S50000x512_0_1
      (maximumf (extractStridedSlice S50000x1 ![0, 512] t slices_S50000x513_S50000x1_0_512)
        (broadcastInDim S50000x1 ![] bcast_S_S50000x1 (constant (F := Ideal) S_ .f32 0x3F800000#32))) (ix2 p k)) = _
  refine congrArg₂ Ideal.div ?_ ?_
  · exact extractStridedSlice_apply ![0, 0] t slices_S50000x513_S50000x512_0_0 (ix2 p k) (ix2 p k') (fun a => match a with
      | ⟨0, _⟩ => by show p.val = 0 + p.val; omega
      | ⟨1, _⟩ => by show k'.val = 0 + k.val; omega)
  · refine (broadcastInDim_apply ![0, 1] bcast_S50000x1_S50000x512_0_1 _ (ix2 p k) (ix2 p (0 : Fin 1)) (fun a => match a with
      | ⟨0, _⟩ => by show p.val = if (50000 : Nat) = 1 then 0 else p.val; rw [if_neg (by decide)]
      | ⟨1, _⟩ => by show 0 = if (1 : Nat) = 1 then 0 else k.val; rw [if_pos rfl])).trans ?_
    show max (extractStridedSlice S50000x1 ![0, 512] t slices_S50000x513_S50000x1_0_512 (ix2 p (0 : Fin 1))) O = _
    refine congrArg (fun v => max v O) ?_
    exact extractStridedSlice_apply ![0, 512] t slices_S50000x513_S50000x1_0_512 (ix2 p (0 : Fin 1)) (ix2 p l) (fun a => match a with
      | ⟨0, _⟩ => by show p.val = 0 + p.val; omega
      | ⟨1, _⟩ => by show l.val = 512 + 0; omega)

/-! ## One relation's neighbour mean -/

/-- One relation's neighbour mean of the features x, from the relation's source and destination words. -/
def meanStage (x : FVec Ideal S50000x512 .bf16) (s d : IVec S250000 32) : FVec Ideal S50000x512 .bf16 :=
  meanOf (sums (withOnes x) s d)

/-- At (p, k): the sum of x (source row of e, k) over the edges e whose destination word read signed is p, divided
    by the larger of the number of those edges and one. -/
theorem meanStage_apply (x : FVec Ideal S50000x512 .bf16) (s d : IVec S250000 32) (p : Fin 50000) (k : Fin 512) :
    meanStage x s d (ix2 p k)
      = Ideal.div
          (Z + ∑ e ∈ Finset.univ.filter (fun e : Fin 250000 => (d (ix1 e)).toInt = (p.val : Int)),
            x (ix2 (takeRow 50000 (by decide) (wrapWords s (ix1 e))) k))
          (max (Z + ∑ _e ∈ Finset.univ.filter (fun e : Fin 250000 => (d (ix1 e)).toInt = (p.val : Int)), O) O) := by
  unfold meanStage
  rw [meanOf_apply _ p k ⟨k.val, by have := k.isLt; omega⟩ ⟨512, by decide⟩ rfl rfl, sums_apply, sums_apply]
  refine congrArg₂ Ideal.div (congrArg (Z + ·) ?_) (congrArg (fun v => max (Z + v) O) ?_)
  · exact Finset.sum_congr rfl fun e _ => withOnes_left x _ k _ rfl
  · exact Finset.sum_congr rfl fun e _ => withOnes_right x _ _ rfl

end Cert.KernelIdeal.HostValue

end
-- ==== Proof.KernelHost.lean ====
/-
  What the operand arrays of the two dense launches hold: the neighbour means.

  Before each launch the host computes, for each of the four relations, the neighbour mean of the launch's
  feature array: the first launch's features are the network's input, the second launch's are what the first
  launch left. Read at (p, k), each of these eight arrays is the sum of the features of the source rows of
  node p's in-edges divided by the larger of p's in-degree and one. The edge tables are never written, so the
  second stretch reads the same words as the first.
-/
import proofs.«128207_j9895604650659_2_alg».proof.Proof.Gen.KernelIdeal.Frame
import proofs.«128207_j9895604650659_2_alg».proof.Proof.KernelHostOps

set_option maxRecDepth 16384

noncomputable section

open scoped BigOperators

namespace Cert.KernelIdeal.HostValue

open Cert.KernelIdeal Cert.KernelIdeal.Gen Cert.Sage Idealize.ShloMosaic Idealize.ShloMosaic.TcCoe
  Idealize.ShloMosaic.ValueIdx Idealize.SL.Sem Idealize.ShloMosaic.StableHlo Cert.RowTakeAdd

/-- One relation's host-side mean, from the relation's rows of the two edge tables, is the neighbour mean. -/
theorem meanStage_eq_nbr (x7 x8 : Edges) (h : Arr2 50000 512) (r : Fin 4) (off : Fin 2 → Nat)
    (hs : S4x250000.Slices off S1x250000) (h0 : off 0 = r.val) (h1 : off 1 = 0)
    (x : FVec Ideal S50000x512 .bf16) (hx : ∀ i, x i = h i) (p : Fin 50000) (k : Fin 512) :
    meanStage x (wordRow off hs x7) (wordRow off hs x8) (ix2 p k) = nbr x7 x8 r h p k := by
  have h7 : ∀ e : Fin 250000, wordRow off hs x7 (ix1 e) = x7 (ix2 r e) := fun e => wordRow_apply off hs x7 r e h0 h1
  have h8 : ∀ e : Fin 250000, wordRow off hs x8 (ix1 e) = x8 (ix2 r e) := fun e => wordRow_apply off hs x8 r e h0 h1
  rw [meanStage_apply]
  unfold nbr inEdges srcRow srcW
  simp only [wrapWords_apply, h7, h8, hx]

variable (m : (ℓ : Loc nD τ sig) → Buf (Elt Ideal) ℓ) (ρ : Dev nD → PrngReg) (c : Dev nD)

/-! ## The first launch -/

set_option maxHeartbeats 4000000 in
/-- The network's input enters the first launch as launched. -/
theorem V1_arg0 : (V1 (F := Ideal) m ρ c main_arg0 : S50000x512.Idx → EReal) = m ((c.tc : Thread nD τ).loc main_arg0) := by
  show StableHlo.after hostOps0 (W0 (F := Ideal) m ρ c) (Proc.devRef .tc main_arg0) = _
  after_results_simp

set_option maxHeartbeats 4000000 in
/-- As an array: the host-side mean over relation 0's rows of the two edge tables, of the input narrowed to bf16
    (a change of format, the identity on the extended reals). -/
theorem V1_v24_stage : (V1 (F := Ideal) m ρ c main_v24 : S50000x512.Idx → EReal)
    = meanStage (truncf .bf16 (m ((c.tc : Thread nD τ).loc main_arg0) : FVec Ideal S50000x512 .f32)
          (show FTy.bits .bf16 < FTy.bits .f32 by decide))
        (wordRow ![0, 0] slices_S4x250000_S1x250000_0_0 (m ((c.tc : Thread nD τ).loc main_arg7)))
        (wordRow ![0, 0] slices_S4x250000_S1x250000_0_0 (m ((c.tc : Thread nD τ).loc main_arg8))) := by
  show StableHlo.after hostOps0 (W0 (F := Ideal) m ρ c) (Proc.devRef .tc main_v24) = _
  after_results_simp
  rfl

/-- Relation 0's mean of the input. -/
theorem V1_nbr0 (p : Fin 50000) (k : Fin 512) :
    V1 (F := Ideal) m ρ c main_v24 (ix2 p k)
      = nbr (m ((c.tc : Thread nD τ).loc main_arg7)) (m ((c.tc : Thread nD τ).loc main_arg8)) 0
          (m ((c.tc : Thread nD τ).loc main_arg0)) p k :=
  (congrFun (V1_v24_stage m ρ c) (ix2 p k)).trans
    (meanStage_eq_nbr _ _ _ 0 ![0, 0] slices_S4x250000_S1x250000_0_0 rfl rfl _ (fun _ => rfl) p k)

set_option maxHeartbeats 4000000 in
/-- As an array: the host-side mean over relation 1's rows of the two edge tables, of the input narrowed to bf16
    (a change of format, the identity on the extended reals). -/
theorem V1_v46_stage : (V1 (F := Ideal) m ρ c main_v46 : S50000x512.Idx → EReal)
    = meanStage (truncf .bf16 (m ((c.tc : Thread nD τ).loc main_arg0) : FVec Ideal S50000x512 .f32)
          (show FTy.bits .bf16 < FTy.bits .f32 by decide))
        (wordRow ![1, 0] slices_S4x250000_S1x250000_1_0 (m ((c.tc : Thread nD τ).loc main_arg7)))
        (wordRow ![1, 0] slices_S4x250000_S1x250000_1_0 (m ((c.tc : Thread nD τ).loc main_arg8))) := by
  show StableHlo.after hostOps0 (W0 (F := Ideal) m ρ c) (Proc.devRef .tc main_v46) = _
  after_results_simp
  rfl

/-- Relation 1's mean of the input. -/
theorem V1_nbr1 (p : Fin 50000) (k : Fin 512) :
    V1 (F := Ideal) m ρ c main_v46 (ix2 p k)
      = nbr (m ((c.tc : Thread nD τ).loc main_arg7)) (m ((c.tc : Thread nD τ).loc main_arg8)) 1
          (m ((c.tc : Thread nD τ).loc main_arg0)) p k :=
  (congrFun (V1_v46_stage m ρ c) (ix2 p k)).trans
    (meanStage_eq_nbr _ _ _ 1 ![1, 0] slices_S4x250000_S1x250000_1_0 rfl rfl _ (fun _ => rfl) p k)

set_option maxHeartbeats 4000000 in
/-- As an array: the host-side mean over relation 2's rows of the two edge tables, of the input narrowed to bf16
    (a change of format, the identity on the extended reals). -/
theorem V1_v68_stage : (V1 (F := Ideal) m ρ c main_v68 : S50000x512.Idx → EReal)
    = meanStage (truncf .bf16 (m ((c.tc : Thread nD τ).loc main_arg0) : FVec Ideal S50000x512 .f32)
          (show FTy.bits .bf16 < FTy.bits .f32 by decide))
        (wordRow ![2, 0] slices_S4x250000_S1x250000_2_0 (m ((c.tc : Thread nD τ).loc main_arg7)))
        (wordRow ![2, 0] slices_S4x250000_S1x250000_2_0 (m ((c.tc : Thread nD τ).loc main_arg8))) := by
  show StableHlo.after hostOps0 (W0 (F := Ideal) m ρ c) (Proc.devRef .tc main_v68) = _
  after_results_simp
  rfl

/-- Relation 2's mean of the input. -/
theorem V1_nbr2 (p : Fin 50000) (k : Fin 512) :
    V1 (F := Ideal) m ρ c main_v68 (ix2 p k)
      = nbr (m ((c.tc : Thread nD τ).loc main_arg7)) (m ((c.tc : Thread nD τ).loc main_arg8)) 2
          (m ((c.tc : Thread nD τ).loc main_arg0)) p k :=
  (congrFun (V1_v68_stage m ρ c) (ix2 p k)).trans
    (meanStage_eq_nbr _ _ _ 2 ![2, 0] slices_S4x250000_S1x250000_2_0 rfl rfl _ (fun _ => rfl) p k)

set_option maxHeartbeats 4000000 in
/-- As an array: the host-side mean over relation 3's rows of the two edge tables, of the input narrowed to bf16
    (a change of format, the identity on the extended reals). -/
theorem V1_v90_stage : (V1 (F := Ideal) m ρ c main_v90 : S50000x512.Idx → EReal)
    = meanStage (truncf .bf16 (m ((c.tc : Thread nD τ).loc main_arg0) : FVec Ideal S50000x512 .f32)
          (show FTy.bits .bf16 < FTy.bits .f32 by decide))
        (wordRow ![3, 0] slices_S4x250000_S1x250000_3_0 (m ((c.tc : Thread nD τ).loc main_arg7)))
        (wordRow ![3, 0] slices_S4x250000_S1x250000_3_0 (m ((c.tc : Thread nD τ).loc main_arg8))) := by
  show StableHlo.after hostOps0 (W0 (F := Ideal) m ρ c) (Proc.devRef .tc main_v90) = _
  after_results_simp
  rfl

/-- Relation 3's mean of the input. -/
theorem V1_nbr3 (p : Fin 50000) (k : Fin 512) :
    V1 (F := Ideal) m ρ c main_v90 (ix2 p k)
      = nbr (m ((c.tc : Thread nD τ).loc main_arg7)) (m ((c.tc : Thread nD τ).loc main_arg8)) 3
          (m ((c.tc : Thread nD τ).loc main_arg0)) p k :=
  (congrFun (V1_v90_stage m ρ c) (ix2 p k)).trans
    (meanStage_eq_nbr _ _ _ 3 ![3, 0] slices_S4x250000_S1x250000_3_0 rfl rfl _ (fun _ => rfl) p k)

/-! ## The second launch -/

set_option maxHeartbeats 4000000 in
/-- The first stretch writes no edge table, and the first launch has no window on one. -/
theorem W2_arg7 : (W2 (F := Ideal) m ρ c (Proc.devRef .tc main_arg7) : S4x250000.Idx → BitVec 32)
    = m ((c.tc : Thread nD τ).loc main_arg7) := by
  refine (W2_of_ne m ρ c main_arg7 (by decide)).trans ?_
  show StableHlo.after hostOps0 (W0 (F := Ideal) m ρ c) (Proc.devRef .tc main_arg7) = _
  after_results_simp

set_option maxHeartbeats 4000000 in
/-- The same for the table of destination words. -/
theorem W2_arg8 : (W2 (F := Ideal) m ρ c (Proc.devRef .tc main_arg8) : S4x250000.Idx → BitVec 32)
    = m ((c.tc : Thread nD τ).loc main_arg8) := by
  refine (W2_of_ne m ρ c main_arg8 (by decide)).trans ?_
  show StableHlo.after hostOps0 (W0 (F := Ideal) m ρ c) (Proc.devRef .tc main_arg8) = _
  after_results_simp

set_option maxHeartbeats 4000000 in
/-- The hidden features enter the second launch as the first launch left them. -/
theorem V3_hid : (V3 (F := Ideal) m ρ c main_v102 : S50000x512.Idx → EReal) = (W2 (F := Ideal) m ρ c (Proc.devRef .tc main_v102) : S50000x512.Idx → EReal) := by
  show StableHlo.after hostOps1 (W2 (F := Ideal) m ρ c) (Proc.devRef .tc main_v102) = _
  after_results_simp

set_option maxHeartbeats 4000000 in
/-- As an array: the host-side mean over relation 0's rows of the two edge tables, as the first launch left them,
    of the hidden features. -/
theorem V3_v126_stage : (V3 (F := Ideal) m ρ c main_v126 : S50000x512.Idx → EReal)
    = meanStage (W2 (F := Ideal) m ρ c (Proc.devRef .tc main_v102) : S50000x512.Idx → EReal)
        (wordRow ![0, 0] slices_S4x250000_S1x250000_0_0 (W2 (F := Ideal) m ρ c (Proc.devRef .tc main_arg7)))
        (wordRow ![0, 0] slices_S4x250000_S1x250000_0_0 (W2 (F := Ideal) m ρ c (Proc.devRef .tc main_arg8))) := by
  show StableHlo.after hostOps1 (W2 (F := Ideal) m ρ c) (Proc.devRef .tc main_v126) = _
  after_results_simp
  rfl

/-- Relation 0's mean of the hidden features. -/
theorem V3_nbr0 (p : Fin 50000) (k : Fin 512) :
    V3 (F := Ideal) m ρ c main_v126 (ix2 p k)
      = nbr (m ((c.tc : Thread nD τ).loc main_arg7)) (m ((c.tc : Thread nD τ).loc main_arg8)) 0
          (W2 (F := Ideal) m ρ c (Proc.devRef .tc main_v102) : S50000x512.Idx → EReal) p k := by
  refine (congrFun (V3_v126_stage m ρ c) (ix2 p k)).trans ?_
  rw [W2_arg7, W2_arg8]
  exact meanStage_eq_nbr _ _ _ 0 ![0, 0] slices_S4x250000_S1x250000_0_0 rfl rfl _ (fun _ => rfl) p k

set_option maxHeartbeats 4000000 in
/-- As an array: the host-side mean over relation 1's rows of the two edge tables, as the first launch left them,
    of the hidden features. -/
theorem V3_v148_stage : (V3 (F := Ideal) m ρ c main_v148 : S50000x512.Idx → EReal)
    = meanStage (W2 (F := Ideal) m ρ c (Proc.devRef .tc main_v102) : S50000x512.Idx → EReal)
        (wordRow ![1, 0] slices_S4x250000_S1x250000_1_0 (W2 (F := Ideal) m ρ c (Proc.devRef .tc main_arg7)))
        (wordRow ![1, 0] slices_S4x250000_S1x250000_1_0 (W2 (F := Ideal) m ρ c (Proc.devRef .tc main_arg8))) := by
  show StableHlo.after hostOps1 (W2 (F := Ideal) m ρ c) (Proc.devRef .tc main_v148) = _
  after_results_simp
  rfl

/-- Relation 1's mean of the hidden features. -/
theorem V3_nbr1 (p : Fin 50000) (k : Fin 512) :
    V3 (F := Ideal) m ρ c main_v148 (ix2 p k)
      = nbr (m ((c.tc : Thread nD τ).loc main_arg7)) (m ((c.tc : Thread nD τ).loc main_arg8)) 1
          (W2 (F := Ideal) m ρ c (Proc.devRef .tc main_v102) : S50000x512.Idx → EReal) p k := by
  refine (congrFun (V3_v148_stage m ρ c) (ix2 p k)).trans ?_
  rw [W2_arg7, W2_arg8]
  exact meanStage_eq_nbr _ _ _ 1 ![1, 0] slices_S4x250000_S1x250000_1_0 rfl rfl _ (fun _ => rfl) p k

set_option maxHeartbeats 4000000 in
/-- As an array: the host-side mean over relation 2's rows of the two edge tables, as the first launch left them,
    of the hidden features. -/
theorem V3_v170_stage : (V3 (F := Ideal) m ρ c main_v170 : S50000x512.Idx → EReal)
    = meanStage (W2 (F := Ideal) m ρ c (Proc.devRef .tc main_v102) : S50000x512.Idx → EReal)
        (wordRow ![2, 0] slices_S4x250000_S1x250000_2_0 (W2 (F := Ideal) m ρ c (Proc.devRef .tc main_arg7)))
        (wordRow ![2, 0] slices_S4x250000_S1x250000_2_0 (W2 (F := Ideal) m ρ c (Proc.devRef .tc main_arg8))) := by
  show StableHlo.after hostOps1 (W2 (F := Ideal) m ρ c) (Proc.devRef .tc main_v170) = _
  after_results_simp
  rfl

/-- Relation 2's mean of the hidden features. -/
theorem V3_nbr2 (p : Fin 50000) (k : Fin 512) :
    V3 (F := Ideal) m ρ c main_v170 (ix2 p k)
      = nbr (m ((c.tc : Thread nD τ).loc main_arg7)) (m ((c.tc : Thread nD τ).loc main_arg8)) 2
          (W2 (F := Ideal) m ρ c (Proc.devRef .tc main_v102) : S50000x512.Idx → EReal) p k := by
  refine (congrFun (V3_v170_stage m ρ c) (ix2 p k)).trans ?_
  rw [W2_arg7, W2_arg8]
  exact meanStage_eq_nbr _ _ _ 2 ![2, 0] slices_S4x250000_S1x250000_2_0 rfl rfl _ (fun _ => rfl) p k

set_option maxHeartbeats 4000000 in
/-- As an array: the host-side mean over relation 3's rows of the two edge tables, as the first launch left them,
    of the hidden features. -/
theorem V3_v192_stage : (V3 (F := Ideal) m ρ c main_v192 : S50000x512.Idx → EReal)
    = meanStage (W2 (F := Ideal) m ρ c (Proc.devRef .tc main_v102) : S50000x512.Idx → EReal)
        (wordRow ![3, 0] slices_S4x250000_S1x250000_3_0 (W2 (F := Ideal) m ρ c (Proc.devRef .tc main_arg7)))
        (wordRow ![3, 0] slices_S4x250000_S1x250000_3_0 (W2 (F := Ideal) m ρ c (Proc.devRef .tc main_arg8))) := by
  show StableHlo.after hostOps1 (W2 (F := Ideal) m ρ c) (Proc.devRef .tc main_v192) = _
  after_results_simp
  rfl

/-- Relation 3's mean of the hidden features. -/
theorem V3_nbr3 (p : Fin 50000) (k : Fin 512) :
    V3 (F := Ideal) m ρ c main_v192 (ix2 p k)
      = nbr (m ((c.tc : Thread nD τ).loc main_arg7)) (m ((c.tc : Thread nD τ).loc main_arg8)) 3
          (W2 (F := Ideal) m ρ c (Proc.devRef .tc main_v102) : S50000x512.Idx → EReal) p k := by
  refine (congrFun (V3_v192_stage m ρ c) (ix2 p k)).trans ?_
  rw [W2_arg7, W2_arg8]
  exact meanStage_eq_nbr _ _ _ 3 ![3, 0] slices_S4x250000_S1x250000_3_0 rfl rfl _ (fun _ => rfl) p k

end Cert.KernelIdeal.HostValue

end
-- ==== Proof.KernelHostW.lean ====
/-
  The weight and bias operands of the dense stage, index by index on the extended reals.

  Before each of the two launches of the dense stage the host prepares its weight operands from the launched
  arrays: the self weights [4, 512, C] summed over the relation axis from zero, a matrix [512, C]; each of the
  four slabs of the neighbour weights [4, 512, C], cut out and re-read as a matrix [512, C]; the biases [4, C]
  summed over the relation axis from zero, a vector [C], re-read as a row [1, C]. On the extended reals such a sum
  at an entry is zero plus the sum of the four relations' entries; cutting a slab out and re-reading an array under
  another shape move entries and change none. No host operation and no launch writes a weight or bias array, so
  the operands of the second launch too are read off the arrays as launched.
-/
import proofs.«128207_j9895604650659_2_alg».proof.Proof.Gen.KernelIdeal.Frame
import proofs.«128207_j9895604650659_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HostValue

open Cert.KernelIdeal Cert.KernelIdeal.Gen Cert.Sage Idealize.ShloMosaic Idealize.ShloMosaic.TcCoe
  Idealize.ShloMosaic.ValueIdx Idealize.SL.Sem Idealize.ShloMosaic.StableHlo

/-! ## Layout and sum operations read at an index, over variable arrays -/

/-- The sum over the leading axis of a [4, 512, C] array from the zero word, at (k, q): zero plus the sum of the
    four slabs' entries (k, q). -/
theorem sumSlabs_apply {C : Nat} (h' : (⟨3, ![4, 512, C]⟩ : Shape).ReducesTo [0] ⟨2, ![512, C]⟩)
    (h : (⟨3, ![4, 512, C]⟩ : Shape).Reduces [0] ⟨2, ![512, C]⟩) (hu : 0 < (⟨0, ![]⟩ : Shape).numel)
    (x : FVec Ideal ⟨3, ![4, 512, C]⟩ .f32) (k : Fin 512) (q : Fin C) :
    Host.reduceAdd (F := Ideal) x (constant (F := Ideal) ⟨0, ![]⟩ .f32 0x00000000#32) h' hu (ix2 k q)
      = Z + ∑ r : Fin 4, x (ix3 r k q) := by
  show Ideal.hostReduceAdd h' x (Ideal.ofBits .f32 0x00000000#32) (ix2 k q) = _
  rw [Ideal.hostReduceAdd_single h' h]
  refine congrArg₂ (· + ·) rfl ?_
  show ∑ r : Fin 4, x (h.lift (ix2 k q) r) = _
  refine Finset.sum_congr rfl fun r _ => congrArg x ?_
  funext a
  refine Fin.ext ?_
  match a with
  | ⟨0, _⟩ => rfl
  | ⟨1, _⟩ => rfl
  | ⟨2, _⟩ => rfl

/-- The sum over the leading axis of a [4, C] array from the zero word, at q: zero plus the sum of the four rows'
    entries q. -/
theorem sumRows_apply {C : Nat} (h' : (⟨2, ![4, C]⟩ : Shape).ReducesTo [0] ⟨1, ![C]⟩)
    (h : (⟨2, ![4, C]⟩ : Shape).Reduces [0] ⟨1, ![C]⟩) (hu : 0 < (⟨0, ![]⟩ : Shape).numel)
    (x : FVec Ideal ⟨2, ![4, C]⟩ .f32) (q : Fin C) :
    Host.reduceAdd (F := Ideal) x (constant (F := Ideal) ⟨0, ![]⟩ .f32 0x00000000#32) h' hu (ix1 q)
      = Z + ∑ r : Fin 4, x (ix2 r q) := by
  show Ideal.hostReduceAdd h' x (Ideal.ofBits .f32 0x00000000#32) (ix1 q) = _
  rw [Ideal.hostReduceAdd_single h' h]
  refine congrArg₂ (· + ·) rfl ?_
  show ∑ r : Fin 4, x (h.lift (ix1 q) r) = _
  refine Finset.sum_congr rfl fun r _ => congrArg x ?_
  funext a
  refine Fin.ext ?_
  match a with
  | ⟨0, _⟩ => rfl
  | ⟨1, _⟩ => rfl

/-- A vector [C] re-read as a row [1, C]: entry (0, q) of the row is entry q of the vector. -/
theorem rowOf_apply {C : Nat} {α : Type} (h : (⟨1, ![C]⟩ : Shape).ShapeCasts ⟨2, ![1, C]⟩)
    (v : (⟨1, ![C]⟩ : Shape).Idx → α) (q : Fin C) :
    shapeCast ⟨2, ![1, C]⟩ v h (ix2 (0 : Fin 1) q) = v (ix1 q) := by
  refine shapeCast_apply v h (ix2 (0 : Fin 1) q) (ix1 q) ?_
  rewrite [Shape.rowMajor_val_two, Shape.rowMajor_val_one]
  show q.val = 0 * C + q.val
  omega

/-- Slab r of a [4, 512, C] array re-read as a matrix [512, C]: entry (k, q) of the matrix is entry (r, k, q). -/
theorem slab_apply {C : Nat} {α : Type} (off : Fin 3 → Nat) (hs : (⟨3, ![4, 512, C]⟩ : Shape).Slices off ⟨3, ![1, 512, C]⟩)
    (hc : (⟨3, ![1, 512, C]⟩ : Shape).ShapeCasts ⟨2, ![512, C]⟩) (x : (⟨3, ![4, 512, C]⟩ : Shape).Idx → α)
    (r : Fin 4) (k : Fin 512) (q : Fin C) (h0 : off 0 = r.val) (h1 : off 1 = 0) (h2 : off 2 = 0) :
    shapeCast ⟨2, ![512, C]⟩ (extractStridedSlice ⟨3, ![1, 512, C]⟩ off x hs) hc (ix2 k q) = x (ix3 r k q) := by
  refine (shapeCast_apply _ hc (ix2 k q) (ix3 (0 : Fin 1) k q) ?_).trans ?_
  · rewrite [Shape.rowMajor_val_three, Shape.rowMajor_val_two]
    show (0 * 512 + k.val) * C + q.val = k.val * C + q.val
    rw [Nat.zero_mul, Nat.zero_add]
  · exact extractStridedSlice_apply off x hs (ix3 (0 : Fin 1) k q) (ix3 r k q) (fun a => match a with
      | ⟨0, _⟩ => by show r.val = off 0 + 0; omega
      | ⟨1, _⟩ => by show k.val = off 1 + k.val; omega
      | ⟨2, _⟩ => by show q.val = off 2 + q.val; omega)

variable (m : (ℓ : Loc nD τ sig) → Buf (Elt Ideal) ℓ) (ρ : Dev nD → PrngReg) (c : Dev nD)

/-! ## Before the first launch -/

set_option maxHeartbeats 4000000 in
/-- The summed self weight as a term: the sum over the relation axis of the launched [4, 512, 512] self weights from zero. -/
theorem V1_main_v91_eq :
    (V1 (F := Ideal) m ρ c main_v91 : Arr2 512 512)
      = Host.reduceAdd (F := Ideal) (m ((c.tc : Thread nD τ).loc main_arg1) : FVec Ideal ⟨3, ![4, 512, 512]⟩ .f32)
          (constant (F := Ideal) ⟨0, ![]⟩ .f32 0x00000000#32) reducesTo_S4x512x512_S512x512_d0 h_S_ := by
  show StableHlo.after hostOps0 (W0 (F := Ideal) m ρ c) (Proc.devRef .tc main_v91) = _
  after_results_simp

/-- The summed self weight at (k, q): zero plus the sum over the four relations of the launched self weight (r, k, q). -/
theorem V1_wself (k : Fin 512) (q : Fin 512) :
    (V1 (F := Ideal) m ρ c main_v91 : Arr2 512 512) (ix2 k q)
      = Z + (∑ r : Fin 4, (m ((c.tc : Thread nD τ).loc main_arg1) : Arr3 4 512 512) (ix3 r k q) : EReal) :=
  (congrFun (V1_main_v91_eq m ρ c) (ix2 k q)).trans
    (sumSlabs_apply reducesTo_S4x512x512_S512x512_d0 (by decide) h_S_ _ k q)

set_option maxHeartbeats 4000000 in
/-- Neighbour weight 0 as a term: slab 0 of the launched [4, 512, 512] neighbour weights, re-read as a matrix. -/
theorem V1_main_v94_eq :
    (V1 (F := Ideal) m ρ c main_v94 : Arr2 512 512)
      = shapeCast ⟨2, ![512, 512]⟩ (extractStridedSlice ⟨3, ![1, 512, 512]⟩ ![0, 0, 0]
          (m ((c.tc : Thread nD τ).loc main_arg2) : Arr3 4 512 512) slices_S4x512x512_S1x512x512_0_0_0) shapeCasts_S1x512x512_S512x512 := by
  show StableHlo.after hostOps0 (W0 (F := Ideal) m ρ c) (Proc.devRef .tc main_v94) = _
  after_results_simp
  rfl

/-- Neighbour weight 0 at (k, q): the launched neighbour weight (0, k, q). -/
theorem V1_wn0 (k : Fin 512) (q : Fin 512) :
    (V1 (F := Ideal) m ρ c main_v94 : Arr2 512 512) (ix2 k q) = (m ((c.tc : Thread nD τ).loc main_arg2) : Arr3 4 512 512) (ix3 0 k q) :=
  (congrFun (V1_main_v94_eq m ρ c) (ix2 k q)).trans
    (slab_apply ![0, 0, 0] slices_S4x512x512_S1x512x512_0_0_0 shapeCasts_S1x512x512_S512x512 _ 0 k q rfl rfl rfl)

set_option maxHeartbeats 4000000 in
/-- Neighbour weight 1 as a term: slab 1 of the launched [4, 512, 512] neighbour weights, re-read as a matrix. -/
theorem V1_main_v96_eq :
    (V1 (F := Ideal) m ρ c main_v96 : Arr2 512 512)
      = shapeCast ⟨2, ![512, 512]⟩ (extractStridedSlice ⟨3, ![1, 512, 512]⟩ ![1, 0, 0]
          (m ((c.tc : Thread nD τ).loc main_arg2) : Arr3 4 512 512) slices_S4x512x512_S1x512x512_1_0_0) shapeCasts_S1x512x512_S512x512 := by
  show StableHlo.after hostOps0 (W0 (F := Ideal) m ρ c) (Proc.devRef .tc main_v96) = _
  after_results_simp
  rfl

/-- Neighbour weight 1 at (k, q): the launched neighbour weight (1, k, q). -/
theorem V1_wn1 (k : Fin 512) (q : Fin 512) :
    (V1 (F := Ideal) m ρ c main_v96 : Arr2 512 512) (ix2 k q) = (m ((c.tc : Thread nD τ).loc main_arg2) : Arr3 4 512 512) (ix3 1 k q) :=
  (congrFun (V1_main_v96_eq m ρ c) (ix2 k q)).trans
    (slab_apply ![1, 0, 0] slices_S4x512x512_S1x512x512_1_0_0 shapeCasts_S1x512x512_S512x512 _ 1 k q rfl rfl rfl)

set_option maxHeartbeats 4000000 in
/-- Neighbour weight 2 as a term: slab 2 of the launched [4, 512, 512] neighbour weights, re-read as a matrix. -/
theorem V1_main_v98_eq :
    (V1 (F := Ideal) m ρ c main_v98 : Arr2 512 512)
      = shapeCast ⟨2, ![512, 512]⟩ (extractStridedSlice ⟨3, ![1, 512, 512]⟩ ![2, 0, 0]
          (m ((c.tc : Thread nD τ).loc main_arg2) : Arr3 4 512 512) slices_S4x512x512_S1x512x512_2_0_0) shapeCasts_S1x512x512_S512x512 := by
  show StableHlo.after hostOps0 (W0 (F := Ideal) m ρ c) (Proc.devRef .tc main_v98) = _
  after_results_simp
  rfl

/-- Neighbour weight 2 at (k, q): the launched neighbour weight (2, k, q). -/
theorem V1_wn2 (k : Fin 512) (q : Fin 512) :
    (V1 (F := Ideal) m ρ c main_v98 : Arr2 512 512) (ix2 k q) = (m ((c.tc : Thread nD τ).loc main_arg2) : Arr3 4 512 512) (ix3 2 k q) :=
  (congrFun (V1_main_v98_eq m ρ c) (ix2 k q)).trans
    (slab_apply ![2, 0, 0] slices_S4x512x512_S1x512x512_2_0_0 shapeCasts_S1x512x512_S512x512 _ 2 k q rfl rfl rfl)

set_option maxHeartbeats 4000000 in
/-- Neighbour weight 3 as a term: slab 3 of the launched [4, 512, 512] neighbour weights, re-read as a matrix. -/
theorem V1_main_v100_eq :
    (V1 (F := Ideal) m ρ c main_v100 : Arr2 512 512)
      = shapeCast ⟨2, ![512, 512]⟩ (extractStridedSlice ⟨3, ![1, 512, 512]⟩ ![3, 0, 0]
          (m ((c.tc : Thread nD τ).loc main_arg2) : Arr3 4 512 512) slices_S4x512x512_S1x512x512_3_0_0) shapeCasts_S1x512x512_S512x512 := by
  show StableHlo.after hostOps0 (W0 (F := Ideal) m ρ c) (Proc.devRef .tc main_v100) = _
  after_results_simp
  rfl

/-- Neighbour weight 3 at (k, q): the launched neighbour weight (3, k, q). -/
theorem V1_wn3 (k : Fin 512) (q : Fin 512) :
    (V1 (F := Ideal) m ρ c main_v100 : Arr2 512 512) (ix2 k q) = (m ((c.tc : Thread nD τ).loc main_arg2) : Arr3 4 512 512) (ix3 3 k q) :=
  (congrFun (V1_main_v100_eq m ρ c) (ix2 k q)).trans
    (slab_apply ![3, 0, 0] slices_S4x512x512_S1x512x512_3_0_0 shapeCasts_S1x512x512_S512x512 _ 3 k q rfl rfl rfl)

set_option maxHeartbeats 4000000 in
/-- The summed bias as a term: the sum over the relation axis of the launched [4, 512] biases from zero, re-read as a row. -/
theorem V1_main_v101_eq :
    (V1 (F := Ideal) m ρ c main_v101 : Arr2 1 512)
      = shapeCast ⟨2, ![1, 512]⟩ (Host.reduceAdd (F := Ideal) (m ((c.tc : Thread nD τ).loc main_arg3) : FVec Ideal ⟨2, ![4, 512]⟩ .f32)
          (constant (F := Ideal) ⟨0, ![]⟩ .f32 0x00000000#32) reducesTo_S4x512_S512_d0 h_S_) shapeCasts_S512_S1x512 := by
  show StableHlo.after hostOps0 (W0 (F := Ideal) m ρ c) (Proc.devRef .tc main_v101) = _
  after_results_simp
  rfl

/-- The summed bias at (0, q): zero plus the sum over the four relations of the launched bias (r, q). -/
theorem V1_bias (q : Fin 512) :
    (V1 (F := Ideal) m ρ c main_v101 : Arr2 1 512) (ix2 (0 : Fin 1) q)
      = Z + (∑ r : Fin 4, (m ((c.tc : Thread nD τ).loc main_arg3) : Arr2 4 512) (ix2 r q) : EReal) :=
  (congrFun (V1_main_v101_eq m ρ c) (ix2 (0 : Fin 1) q)).trans
    ((rowOf_apply shapeCasts_S512_S1x512 _ q).trans
      (sumRows_apply reducesTo_S4x512_S512_d0 (by decide) h_S_ _ q))

/-! ## Before the second launch -/

set_option maxHeartbeats 4000000 in
/-- No host operation before the first launch writes argument 4: it is as launched. -/
theorem W1_main_arg4 : W1 (F := Ideal) m ρ c (Proc.devRef .tc main_arg4) = m ((c.tc : Thread nD τ).loc main_arg4) := by
  show StableHlo.after hostOps0 (W0 (F := Ideal) m ρ c) (Proc.devRef .tc main_arg4) = _
  after_results_simp

/-- Argument 4 is no array of the first launch, which leaves it as entered: it is as launched. -/
theorem W2_main_arg4 : W2 (F := Ideal) m ρ c (Proc.devRef .tc main_arg4) = m ((c.tc : Thread nD τ).loc main_arg4) :=
  (W2_of_ne m ρ c main_arg4 (by decide)).trans (W1_main_arg4 m ρ c)

set_option maxHeartbeats 4000000 in
/-- No host operation before the first launch writes argument 5: it is as launched. -/
theorem W1_main_arg5 : W1 (F := Ideal) m ρ c (Proc.devRef .tc main_arg5) = m ((c.tc : Thread nD τ).loc main_arg5) := by
  show StableHlo.after hostOps0 (W0 (F := Ideal) m ρ c) (Proc.devRef .tc main_arg5) = _
  after_results_simp

/-- Argument 5 is no array of the first launch, which leaves it as entered: it is as launched. -/
theorem W2_main_arg5 : W2 (F := Ideal) m ρ c (Proc.devRef .tc main_arg5) = m ((c.tc : Thread nD τ).loc main_arg5) :=
  (W2_of_ne m ρ c main_arg5 (by decide)).trans (W1_main_arg5 m ρ c)

set_option maxHeartbeats 4000000 in
/-- No host operation before the first launch writes argument 6: it is as launched. -/
theorem W1_main_arg6 : W1 (F := Ideal) m ρ c (Proc.devRef .tc main_arg6) = m ((c.tc : Thread nD τ).loc main_arg6) := by
  show StableHlo.after hostOps0 (W0 (F := Ideal) m ρ c) (Proc.devRef .tc main_arg6) = _
  after_results_simp

/-- Argument 6 is no array of the first launch, which leaves it as entered: it is as launched. -/
theorem W2_main_arg6 : W2 (F := Ideal) m ρ c (Proc.devRef .tc main_arg6) = m ((c.tc : Thread nD τ).loc main_arg6) :=
  (W2_of_ne m ρ c main_arg6 (by decide)).trans (W1_main_arg6 m ρ c)

set_option maxHeartbeats 4000000 in
/-- The summed self weight as a term: the sum over the relation axis of the launched [4, 512, 256] self weights from zero. -/
theorem V3_main_v193_eq :
    (V3 (F := Ideal) m ρ c main_v193 : Arr2 512 256)
      = Host.reduceAdd (F := Ideal) (m ((c.tc : Thread nD τ).loc main_arg4) : FVec Ideal ⟨3, ![4, 512, 256]⟩ .f32)
          (constant (F := Ideal) ⟨0, ![]⟩ .f32 0x00000000#32) reducesTo_S4x512x256_S512x256_d0 h_S_ := by
  show StableHlo.after hostOps1 (W2 (F := Ideal) m ρ c) (Proc.devRef .tc main_v193) = _
  after_results_simp
  simp only [W2_main_arg4 m ρ c]

/-- The summed self weight at (k, q): zero plus the sum over the four relations of the launched self weight (r, k, q). -/
theorem V3_wself (k : Fin 512) (q : Fin 256) :
    (V3 (F := Ideal) m ρ c main_v193 : Arr2 512 256) (ix2 k q)
      = Z + (∑ r : Fin 4, (m ((c.tc : Thread nD τ).loc main_arg4) : Arr3 4 512 256) (ix3 r k q) : EReal) :=
  (congrFun (V3_main_v193_eq m ρ c) (ix2 k q)).trans
    (sumSlabs_apply reducesTo_S4x512x256_S512x256_d0 (by decide) h_S_ _ k q)

set_option maxHeartbeats 4000000 in
/-- Neighbour weight 0 as a term: slab 0 of the launched [4, 512, 256] neighbour weights, re-read as a matrix. -/
theorem V3_main_v196_eq :
    (V3 (F := Ideal) m ρ c main_v196 : Arr2 512 256)
      = shapeCast ⟨2, ![512, 256]⟩ (extractStridedSlice ⟨3, ![1, 512, 256]⟩ ![0, 0, 0]
          (m ((c.tc : Thread nD τ).loc main_arg5) : Arr3 4 512 256) slices_S4x512x256_S1x512x256_0_0_0) shapeCasts_S1x512x256_S512x256 := by
  show StableHlo.after hostOps1 (W2 (F := Ideal) m ρ c) (Proc.devRef .tc main_v196) = _
  after_results_simp
  simp only [W2_main_arg5 m ρ c]
  rfl

/-- Neighbour weight 0 at (k, q): the launched neighbour weight (0, k, q). -/
theorem V3_wn0 (k : Fin 512) (q : Fin 256) :
    (V3 (F := Ideal) m ρ c main_v196 : Arr2 512 256) (ix2 k q) = (m ((c.tc : Thread nD τ).loc main_arg5) : Arr3 4 512 256) (ix3 0 k q) :=
  (congrFun (V3_main_v196_eq m ρ c) (ix2 k q)).trans
    (slab_apply ![0, 0, 0] slices_S4x512x256_S1x512x256_0_0_0 shapeCasts_S1x512x256_S512x256 _ 0 k q rfl rfl rfl)

set_option maxHeartbeats 4000000 in
/-- Neighbour weight 1 as a term: slab 1 of the launched [4, 512, 256] neighbour weights, re-read as a matrix. -/
theorem V3_main_v198_eq :
    (V3 (F := Ideal) m ρ c main_v198 : Arr2 512 256)
      = shapeCast ⟨2, ![512, 256]⟩ (extractStridedSlice ⟨3, ![1, 512, 256]⟩ ![1, 0, 0]
          (m ((c.tc : Thread nD τ).loc main_arg5) : Arr3 4 512 256) slices_S4x512x256_S1x512x256_1_0_0) shapeCasts_S1x512x256_S512x256 := by
  show StableHlo.after hostOps1 (W2 (F := Ideal) m ρ c) (Proc.devRef .tc main_v198) = _
  after_results_simp
  simp only [W2_main_arg5 m ρ c]
  rfl

/-- Neighbour weight 1 at (k, q): the launched neighbour weight (1, k, q). -/
theorem V3_wn1 (k : Fin 512) (q : Fin 256) :
    (V3 (F := Ideal) m ρ c main_v198 : Arr2 512 256) (ix2 k q) = (m ((c.tc : Thread nD τ).loc main_arg5) : Arr3 4 512 256) (ix3 1 k q) :=
  (congrFun (V3_main_v198_eq m ρ c) (ix2 k q)).trans
    (slab_apply ![1, 0, 0] slices_S4x512x256_S1x512x256_1_0_0 shapeCasts_S1x512x256_S512x256 _ 1 k q rfl rfl rfl)

set_option maxHeartbeats 4000000 in
/-- Neighbour weight 2 as a term: slab 2 of the launched [4, 512, 256] neighbour weights, re-read as a matrix. -/
theorem V3_main_v200_eq :
    (V3 (F := Ideal) m ρ c main_v200 : Arr2 512 256)
      = shapeCast ⟨2, ![512, 256]⟩ (extractStridedSlice ⟨3, ![1, 512, 256]⟩ ![2, 0, 0]
          (m ((c.tc : Thread nD τ).loc main_arg5) : Arr3 4 512 256) slices_S4x512x256_S1x512x256_2_0_0) shapeCasts_S1x512x256_S512x256 := by
  show StableHlo.after hostOps1 (W2 (F := Ideal) m ρ c) (Proc.devRef .tc main_v200) = _
  after_results_simp
  simp only [W2_main_arg5 m ρ c]
  rfl

/-- Neighbour weight 2 at (k, q): the launched neighbour weight (2, k, q). -/
theorem V3_wn2 (k : Fin 512) (q : Fin 256) :
    (V3 (F := Ideal) m ρ c main_v200 : Arr2 512 256) (ix2 k q) = (m ((c.tc : Thread nD τ).loc main_arg5) : Arr3 4 512 256) (ix3 2 k q) :=
  (congrFun (V3_main_v200_eq m ρ c) (ix2 k q)).trans
    (slab_apply ![2, 0, 0] slices_S4x512x256_S1x512x256_2_0_0 shapeCasts_S1x512x256_S512x256 _ 2 k q rfl rfl rfl)

set_option maxHeartbeats 4000000 in
/-- Neighbour weight 3 as a term: slab 3 of the launched [4, 512, 256] neighbour weights, re-read as a matrix. -/
theorem V3_main_v202_eq :
    (V3 (F := Ideal) m ρ c main_v202 : Arr2 512 256)
      = shapeCast ⟨2, ![512, 256]⟩ (extractStridedSlice ⟨3, ![1, 512, 256]⟩ ![3, 0, 0]
          (m ((c.tc : Thread nD τ).loc main_arg5) : Arr3 4 512 256) slices_S4x512x256_S1x512x256_3_0_0) shapeCasts_S1x512x256_S512x256 := by
  show StableHlo.after hostOps1 (W2 (F := Ideal) m ρ c) (Proc.devRef .tc main_v202) = _
  after_results_simp
  simp only [W2_main_arg5 m ρ c]
  rfl

/-- Neighbour weight 3 at (k, q): the launched neighbour weight (3, k, q). -/
theorem V3_wn3 (k : Fin 512) (q : Fin 256) :
    (V3 (F := Ideal) m ρ c main_v202 : Arr2 512 256) (ix2 k q) = (m ((c.tc : Thread nD τ).loc main_arg5) : Arr3 4 512 256) (ix3 3 k q) :=
  (congrFun (V3_main_v202_eq m ρ c) (ix2 k q)).trans
    (slab_apply ![3, 0, 0] slices_S4x512x256_S1x512x256_3_0_0 shapeCasts_S1x512x256_S512x256 _ 3 k q rfl rfl rfl)

set_option maxHeartbeats 4000000 in
/-- The summed bias as a term: the sum over the relation axis of the launched [4, 256] biases from zero, re-read as a row. -/
theorem V3_main_v203_eq :
    (V3 (F := Ideal) m ρ c main_v203 : Arr2 1 256)
      = shapeCast ⟨2, ![1, 256]⟩ (Host.reduceAdd (F := Ideal) (m ((c.tc : Thread nD τ).loc main_arg6) : FVec Ideal ⟨2, ![4, 256]⟩ .f32)
          (constant (F := Ideal) ⟨0, ![]⟩ .f32 0x00000000#32) reducesTo_S4x256_S256_d0 h_S_) shapeCasts_S256_S1x256 := by
  show StableHlo.after hostOps1 (W2 (F := Ideal) m ρ c) (Proc.devRef .tc main_v203) = _
  after_results_simp
  simp only [W2_main_arg6 m ρ c]
  rfl

/-- The summed bias at (0, q): zero plus the sum over the four relations of the launched bias (r, q). -/
theorem V3_bias (q : Fin 256) :
    (V3 (F := Ideal) m ρ c main_v203 : Arr2 1 256) (ix2 (0 : Fin 1) q)
      = Z + (∑ r : Fin 4, (m ((c.tc : Thread nD τ).loc main_arg6) : Arr2 4 256) (ix2 r q) : EReal) :=
  (congrFun (V3_main_v203_eq m ρ c) (ix2 (0 : Fin 1) q)).trans
    ((rowOf_apply shapeCasts_S256_S1x256 _ q).trans
      (sumRows_apply reducesTo_S4x256_S256_d0 (by decide) h_S_ _ q))

end Cert.KernelIdeal.HostValue

end
-- ==== Proof.KernelValue.lean ====
/-
  The kernel program's result array is the fused arrangement of the network.

  The second launch computes, from its eleven operand arrays, the dense stage of layer 2; those arrays are
  the host's neighbour means of the first launch's result, the summed self weight, the four neighbour
  weights and the summed bias. The first launch's result is, in the same way, the maximum with zero of the
  dense stage of layer 1 on the host's neighbour means of x. Substituting one into the other gives the
  fused arrangement, entry by entry.
-/
import proofs.«128207_j9895604650659_2_alg».proof.Proof.KernelRegions
import proofs.«128207_j9895604650659_2_alg».proof.Proof.KernelHost
import proofs.«128207_j9895604650659_2_alg».proof.Proof.KernelHostW
import proofs.«128207_j9895604650659_2_alg».proof.Proof.Spec

noncomputable section

open scoped BigOperators

namespace Cert.KernelIdeal.Result

open Cert.KernelIdeal Cert.KernelIdeal.Gen Cert.KernelIdeal.Regions Cert.KernelIdeal.HostValue Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The first launch's result array is the hidden features in the fused arrangement. -/
theorem hidden_eq :
    (W2 (F := Ideal) m ρ c (Proc.devRef .tc main_v102) : Arr2 50000 512)
      = hidK (m ((c.tc : Thread nD τ).loc main_arg7)) (m ((c.tc : Thread nD τ).loc main_arg8))
          (m ((c.tc : Thread nD τ).loc main_arg0)) (m ((c.tc : Thread nD τ).loc main_arg1))
          (m ((c.tc : Thread nD τ).loc main_arg2)) (m ((c.tc : Thread nD τ).loc main_arg3)) := by
  funext j
  obtain ⟨p, q, rfl⟩ : ∃ (p : Fin 50000) (q : Fin 512), j = ix2 p q := ⟨j 0, j 1, eq_ix2 j⟩
  rw [region0_out m ρ c p q]
  show _ = max (fused 512 _ _ _ _ _ _ p q) Z
  unfold kern fused
  simp only [V1_arg0 m ρ c, V1_nbr0 m ρ c, V1_nbr1 m ρ c, V1_nbr2 m ρ c, V1_nbr3 m ρ c, V1_wself m ρ c,
    V1_wn0 m ρ c, V1_wn1 m ρ c, V1_wn2 m ρ c, V1_wn3 m ρ c, V1_bias m ρ c]

/-- The kernel program's result array is the network in the fused arrangement. -/
theorem result_eq :
    (W4 (F := Ideal) m ρ c (Proc.devRef .tc main_v204) : Arr2 50000 256)
      = outK (m ((c.tc : Thread nD τ).loc main_arg7)) (m ((c.tc : Thread nD τ).loc main_arg8))
          (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  funext j
  obtain ⟨p, q, rfl⟩ : ∃ (p : Fin 50000) (q : Fin 256), j = ix2 p q := ⟨j 0, j 1, eq_ix2 j⟩
  rw [region1_out m ρ c p q]
  show _ = fused 256 _ _ (hidK _ _ _ _ _ _) _ _ _ p q
  rw [← hidden_eq m ρ c]
  unfold kern fused
  simp only [V3_hid m ρ c, V3_nbr0 m ρ c, V3_nbr1 m ρ c, V3_nbr2 m ρ c, V3_nbr3 m ρ c, V3_wself m ρ c,
    V3_wn0 m ρ c, V3_wn1 m ρ c, V3_wn2 m ρ c, V3_wn3 m ρ c, V3_bias m ρ c]

end Cert.KernelIdeal.Result

end
-- ==== Proof.LibFlatAdd.lean ====
/-
  Adding numbers into a one-axis array at a column of index words.

  What a count, or a sum, by destination lowers to, for an operand [N], a column of index words [R, 1] and
  updates [R]: an accumulating scatter of single elements.

  The scatter sends update e to the operand position idx[e, 0], read as a signed integer and not clamped; an
  update whose word is not a position of the operand is dropped. So the accumulated result at p is the operand's
  element plus the sum, over the updates e whose word denotes p, of the update's element e.
-/
import Idealize.ShloMosaic.Lib.ValueIdx

noncomputable section

open scoped BigOperators

namespace Cert.FlatAdd

open Idealize.ShloMosaic Idealize.ShloMosaic.ValueIdx

/-- A one-axis index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The scatter's dimension numbers for an operand [N], scatter indices [R, 1] and updates [R]: one index
    component per update, naming operand axis 0, which is inserted; the updates have no window axis. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update e starts at the word idx[e, 0], read signed. -/
private theorem start_flat {N R w : Nat} (wf : ScatterDims.WF ⟨1, ![N]⟩ ⟨2, ![R, 1]⟩ ⟨1, ![R]⟩ [] [0] [0] 1)
    (idx : IVec ⟨2, ![R, 1]⟩ w) (e : Fin R) :
    (flatScatterDims N R wf).start (ix1 e) idx 0 = (idx (ix2 e (0 : Fin 1))).toInt := by
  unfold ScatterDims.start
  rw [dif_pos (show (0 : Fin 1) ∈ (flatScatterDims N R wf).scatterDimsToOperandDims from List.mem_singleton.mpr rfl)]
  have hsi : (flatScatterDims N R wf).siIdx (ix1 e) ⟨List.idxOf (0 : Fin 1) (flatScatterDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: its window coordinate is 0. -/
private theorem window_flat {N R : Nat} (wf : ScatterDims.WF ⟨1, ![N]⟩ ⟨2, ![R, 1]⟩ ⟨1, ![R]⟩ [] [0] [0] 1)
    (e : Fin R) :
    (flatScatterDims N R wf).window (ix1 e) 0 = 0 := by
  unfold ScatterDims.window
  rw [dif_neg]
  intro h
  have := (List.mem_filter.1 h).2
  simp at this

/-- Where update e lands: at p exactly when the word idx[e, 0], read signed, is the position p. -/
theorem resultIdx_flat_iff {N R w : Nat} (wf : ScatterDims.WF ⟨1, ![N]⟩ ⟨2, ![R, 1]⟩ ⟨1, ![R]⟩ [] [0] [0] 1)
    (idx : IVec ⟨2, ![R, 1]⟩ w) (e : Fin R) (p : Fin N) :
    (flatScatterDims N R wf).resultIdx? (ix1 e) idx = some (ix1 p)
      ↔ (idx (ix2 e (0 : Fin 1))).toInt = (p.val : Int) := by
  have h0 : (flatScatterDims N R wf).start (ix1 e) idx 0 + (((flatScatterDims N R wf).window (ix1 e) 0 : Nat) : Int)
      = (idx (ix2 e (0 : Fin 1))).toInt := by
    rw [start_flat, window_flat]; simp
  unfold ScatterDims.resultIdx?
  constructor
  · intro h
    split at h
    · rename_i hin
      have hf := Option.some.inj h
      have e0 : ((flatScatterDims N R wf).start (ix1 e) idx 0
          + (((flatScatterDims N R wf).window (ix1 e) 0 : Nat) : Int)).toNat = p.val :=
        congrArg (fun f : (⟨1, ![N]⟩ : Shape).Idx => (f 0).val) hf
      have hn := (hin 0).1
      rw [h0] at e0 hn
      omega
    · exact absurd h (by simp)
  · intro hv
    have hin : ∀ a, 0 ≤ (flatScatterDims N R wf).start (ix1 e) idx a + ((flatScatterDims N R wf).window (ix1 e) a : Int)
        ∧ (flatScatterDims N R wf).start (ix1 e) idx a + ((flatScatterDims N R wf).window (ix1 e) a : Int)
          < ((⟨1, ![N]⟩ : Shape).size a : Int) := by
      intro a
      match a with
      | ⟨0, _⟩ =>
        show 0 ≤ (flatScatterDims N R wf).start (ix1 e) idx 0 + (((flatScatterDims N R wf).window (ix1 e) 0 : Nat) : Int)
          ∧ (flatScatterDims N R wf).start (ix1 e) idx 0 + (((flatScatterDims N R wf).window (ix1 e) 0 : Nat) : Int)
            < ((N : Nat) : Int)
        rw [h0, hv]
        have := p.isLt
        omega
    rw [dif_pos hin]
    refine congrArg some ?_
    funext a
    refine Fin.ext ?_
    match a with
    | ⟨0, _⟩ =>
      show ((flatScatterDims N R wf).start (ix1 e) idx 0
        + (((flatScatterDims N R wf).window (ix1 e) 0 : Nat) : Int)).toNat = p.val
      rw [h0, hv]
      exact Int.toNat_natCast _

/-- The accumulating scatter read at p: the operand's element plus the sum, over the updates e whose word
    idx[e, 0] read signed is the position p, of the update's element e. -/
theorem scatterAdd_flat_apply {N R w : Nat} {φ : FTy} (wf : ScatterDims.WF ⟨1, ![N]⟩ ⟨2, ![R, 1]⟩ ⟨1, ![R]⟩ [] [0] [0] 1)
    (x : FVec Ideal ⟨1, ![N]⟩ φ) (idx : IVec ⟨2, ![R, 1]⟩ w) (upd : FVec Ideal ⟨1, ![R]⟩ φ) (p : Fin N) :
    Host.scatterAdd (F := Ideal) (flatScatterDims N R wf) x idx upd (ix1 p)
      = x (ix1 p) + ∑ e ∈ Finset.univ.filter
          (fun e : Fin R => (idx (ix2 e (0 : Fin 1))).toInt = (p.val : Int)), upd (ix1 e) := by
  show Ideal.hostScatterAdd (flatScatterDims N R wf) x idx upd (ix1 p) = _
  unfold Ideal.hostScatterAdd
  refine congrArg (fun t => x (ix1 p) + t) ?_
  rw [Finset.sum_filter, Finset.sum_filter, sum_idx1]
  refine Finset.sum_congr rfl fun e _ => ?_
  exact if_congr (resultIdx_flat_iff wf idx e p) rfl rfl

end Cert.FlatAdd

end
-- ==== Proof.RefNbr.lean ====
/-
  The neighbour mean of one relation, assembled from the host stages that compute it.

  For a feature array h [50000, 512], a column of source words and a column of destination words (each
  [250000, 1]), the rows of h are taken at the source column (a word read signed and clamped into the node
  range), accumulated into a zero array at the destination column (a word read signed, an update whose word is
  no node dropped), and divided by the larger of one and the in-degree, which is itself the accumulation of a
  vector of ones into a zero vector at the destination column. Read at (p, k) this is the sum of h (source row
  of e, k) over the edges e into p, over the larger of the number of those edges and one.
-/
import Idealize.ShloMosaic.Lib.ValueIdx
import Idealize.ShloMosaic.PureOps.Ideal
import proofs.«128207_j9895604650659_2_alg».proof.Proof.Spec
import proofs.«128207_j9895604650659_2_alg».proof.Proof.LibRowTakeAdd
import proofs.«128207_j9895604650659_2_alg».proof.Proof.LibFlatAdd

noncomputable section

open scoped BigOperators

namespace Cert.ReferenceIdeal.RefValue

open Idealize.ShloMosaic Idealize.ShloMosaic.ValueIdx Cert.Sage Cert.RowTakeAdd Cert.FlatAdd

/-- The neighbour mean assembled from its three host stages. The numerator is the accumulating scatter, onto a
    zero array and at the destination column, of the rows of h taken at the source column; the denominator is
    the larger of one and the accumulating scatter, onto a zero vector and at the destination column, of a
    vector of ones. When the source column holds the wrapped source words of relation r and the destination
    columns hold its destination words, their quotient at (p, k) is the specification's neighbour mean. -/
theorem nbr_of_parts
    (wfG : GatherDims.WF ⟨2, ![50000, 512]⟩ ⟨2, ![250000, 1]⟩ ⟨2, ![250000, 512]⟩ [1] [0] [] [0] [] 1 ![1, 512])
    (wfS : ScatterDims.WF ⟨2, ![50000, 512]⟩ ⟨2, ![250000, 1]⟩ ⟨2, ![250000, 512]⟩ [1] [0] [0] 1)
    (wfD : ScatterDims.WF ⟨1, ![50000]⟩ ⟨2, ![250000, 1]⟩ ⟨1, ![250000]⟩ [] [0] [0] 1)
    (x7 x8 : Edges) (r : Fin 4) (h : Arr2 50000 512)
    (z2 : FVec Ideal ⟨2, ![50000, 512]⟩ .f32) (z1 : FVec Ideal ⟨1, ![50000]⟩ .f32)
    (o1 : FVec Ideal ⟨1, ![250000]⟩ .f32) (src dst dst' : IVec ⟨2, ![250000, 1]⟩ 32)
    (hz2 : ∀ i, z2 i = Z) (hz1 : ∀ i, z1 i = Z) (ho1 : ∀ i, o1 i = O)
    (hsrc : ∀ e, src (ix2 e (0 : Fin 1)) = srcW x7 r e)
    (hdst : ∀ e, dst (ix2 e (0 : Fin 1)) = x8 (ix2 r e))
    (hdst' : ∀ e, dst' (ix2 e (0 : Fin 1)) = x8 (ix2 r e))
    (p : Fin 50000) (k : Fin 512) :
    Ideal.div
      (Host.scatterAdd (F := Ideal) (rowScatterDims 50000 250000 512 wfS) z2 dst
        (Host.gather (rowGatherDims 50000 250000 512 wfG) h src) (ix2 p k))
      (max (Host.scatterAdd (F := Ideal) (flatScatterDims 50000 250000 wfD) z1 dst' o1 (ix1 p)) O)
      = nbr x7 x8 r h p k := by
  rw [scatterAdd_rows_apply, scatterAdd_flat_apply, hz2, hz1]
  unfold nbr inEdges srcRow
  simp only [hdst, hdst', ho1, hsrc, gather_rows_apply (show 0 < 50000 by decide)]

end Cert.ReferenceIdeal.RefValue

end
-- ==== Proof.RefLayer1.lean ====
/-
  The reference program's first layer, read index by index, is the specification's serial arrangement.

  The program treats the four relations one after the other. For relation r it slices row r out of the two
  edge tables, wraps the negative source words, takes the rows of the input at the source column, accumulates
  them at the destination column and divides by the larger of the in-degree and one: the neighbour mean. It
  then adds to the running array the product of the input with slab r of the self weights, the product of the
  mean with slab r of the neighbour weights, and row r of the biases: one step of the accumulation. Four steps
  from the zero array, followed by the maximum with zero, give the hidden features.

  Each statement below reads one buffer of the program at coordinates; the slicing and flattening index maps
  compose to the plain coordinates (r, e), (r, k, q), (r, q).
-/
import proofs.«128207_j9895604650659_2_alg».proof.Proof.RefReadL
import proofs.«128207_j9895604650659_2_alg».proof.Proof.RefNbr

noncomputable section

open scoped BigOperators

namespace Cert.ReferenceIdeal.RefValue

open Cert.ReferenceIdeal Cert.ReferenceIdeal.Gen Cert.ReferenceIdeal.Read Cert.Sage Idealize.ShloMosaic Idealize.ShloMosaic.ValueIdx

variable (x0 : (⟨S50000x512, .f32⟩ : BufTy).Contents (Elt Ideal)) (x1 x2 : (⟨S4x512x512, .f32⟩ : BufTy).Contents (Elt Ideal))
  (x3 : (⟨S4x512, .f32⟩ : BufTy).Contents (Elt Ideal)) (x4 x5 : (⟨S4x512x256, .f32⟩ : BufTy).Contents (Elt Ideal))
  (x6 : (⟨S4x256, .f32⟩ : BufTy).Contents (Elt Ideal)) (x7 x8 : (⟨S4x250000, .i32⟩ : BufTy).Contents (Elt Ideal))

/-! ## Layer 1, relation 0 -/

/-- Row 0 of the source table, sliced out and flattened, at e. -/
theorem l1r0_srcWord (e : Fin 250000) : val_main_v2 (F := Ideal) x7 (ix1 e) = x7 (ix2 (0 : Fin 4) e) := by
  rw [val_main_v2_apply, val_main_v1_apply]
  refine congrArg x7 (funext fun a => Fin.ext ?_)
  match a with
  | ⟨0, _⟩ => rfl
  | ⟨1, _⟩ => exact Nat.mod_eq_of_lt e.isLt

/-- Row 0 of the destination table, sliced out and flattened, at e. -/
theorem l1r0_dstWord (e : Fin 250000) : val_main_v4 (F := Ideal) x8 (ix1 e) = x8 (ix2 (0 : Fin 4) e) := by
  rw [val_main_v4_apply, val_main_v3_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l1r0_srcCol (e : Fin 250000) : val_main_v14 (F := Ideal) x7 (ix2 e (0 : Fin 1)) = srcW x7 (0 : Fin 4) e := by
  have hi : idx_main_v14 (ix2 e (0 : Fin 1)) = ix1 e := funext fun a => match a with | ⟨0, _⟩ => rfl
  rw [val_main_v14_apply, hi, val_main_v13_apply, val_main_v10_apply, val_main_v12_apply, val_main_v9_apply, val_main_v11_apply, l1r0_srcWord]
  rfl

/-- The destination column of the degree count holds the destination words. -/
theorem l1r0_dstColDeg (e : Fin 250000) : val_main_v7 (F := Ideal) x8 (ix2 e (0 : Fin 1)) = x8 (ix2 (0 : Fin 4) e) := by
  have hi : idx_main_v7 (ix2 e (0 : Fin 1)) = ix1 e := funext fun a => match a with | ⟨0, _⟩ => rfl
  rw [val_main_v7_apply, hi, l1r0_dstWord]

/-- The destination column of the row accumulation holds the destination words. -/
theorem l1r0_dstColRow (e : Fin 250000) : val_main_v17 (F := Ideal) x8 (ix2 e (0 : Fin 1)) = x8 (ix2 (0 : Fin 4) e) := by
  have hi : idx_main_v17 (ix2 e (0 : Fin 1)) = ix1 e := funext fun a => match a with | ⟨0, _⟩ => rfl
  rw [val_main_v17_apply, hi, l1r0_dstWord]

/-- The relation's mean buffer at (p, k) is the neighbour mean of the layer's input. -/
theorem l1r0_nbr (p : Fin 50000) (k : Fin 512) :
    val_main_v23 (F := Ideal) x0 x7 x8 (ix2 p k) = nbr x7 x8 (0 : Fin 4) x0 p k := by
  have hi : idx_main_v21 (idx_main_v22 (ix2 p k)) = ix1 p := funext fun a => match a with | ⟨0, _⟩ => rfl
  rw [val_main_v23_apply, val_main_v22_apply, val_main_v21_apply, hi, val_main_v20_apply]
  unfold val_main_v18 val_main_v15 val_main_v8
  exact nbr_of_parts gather_S50000x512_S250000x1_S250000x512_1_0_n_n_0_1_1512_wf
    scatter_S50000x512_S250000x1_S250000x512_1_0_0_1_wf scatter_S50000_S250000x1_S250000_n_0_0_1_wf
    x7 x8 (0 : Fin 4) x0 (val_main_v16 (F := Ideal)) (val_main_v6 (F := Ideal)) (val_main_v5 (F := Ideal))
    (val_main_v14 (F := Ideal) x7) (val_main_v17 (F := Ideal) x8) (val_main_v7 (F := Ideal) x8)
    (fun i => (val_main_v16_apply i).trans rfl) (fun i => (val_main_v6_apply i).trans rfl) (fun i => (val_main_v5_apply i).trans rfl)
    (l1r0_srcCol x7) (l1r0_dstColRow x8) (l1r0_dstColDeg x8) p k

/-- Slab 0 of the self weights, sliced out and flattened, at (k, q). -/
theorem l1r0_wself (k : Fin 512) (q : Fin 512) : val_main_v25 (F := Ideal) x1 (ix2 k q) = x1 (ix3 (0 : Fin 4) k q) := by
  rw [val_main_v25_apply, val_main_v24_apply]
  refine congrArg x1 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Slab 0 of the neighbour weights, sliced out and flattened, at (k, q). -/
theorem l1r0_wneigh (k : Fin 512) (q : Fin 512) : val_main_v29 (F := Ideal) x2 (ix2 k q) = x2 (ix3 (0 : Fin 4) k q) := by
  rw [val_main_v29_apply, val_main_v28_apply]
  refine congrArg x2 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Row 0 of the biases, spread over the nodes, at (p, q). -/
theorem l1r0_bias (p : Fin 50000) (q : Fin 512) : val_main_v35 (F := Ideal) x3 (ix2 p q) = x3 (ix2 (0 : Fin 4) q) := by
  rw [val_main_v35_apply, val_main_v34_apply, val_main_v33_apply, val_main_v32_apply]
  refine congrArg x3 (funext fun a => Fin.ext ?_)
  match a with
  | ⟨0, _⟩ => rfl
  | ⟨1, _⟩ => exact Nat.mod_eq_of_lt q.isLt

/-- The relation's step: the accumulator plus the self product, the neighbour product and the bias row. -/
theorem l1r0_step (p : Fin 50000) (q : Fin 512) :
    val_main_v36 (F := Ideal) x0 x1 x2 x3 x7 x8 (ix2 p q)
      = step 512 x7 x8 x0 x1 x2 x3 p q (0 : Fin 4) (val_main_v0 (F := Ideal) (ix2 p q)) := by
  have hl : ∀ k : Fin 512, lidx_main_v26 (ix2 p q) k = ix2 p k :=
    fun k => funext fun a => match a with | ⟨0, _⟩ => rfl | ⟨1, _⟩ => rfl
  have hr : ∀ k : Fin 512, ridx_main_v26 (ix2 p q) k = ix2 k q :=
    fun k => funext fun a => match a with | ⟨0, _⟩ => rfl | ⟨1, _⟩ => rfl
  have hl' : ∀ k : Fin 512, lidx_main_v30 (ix2 p q) k = ix2 p k :=
    fun k => funext fun a => match a with | ⟨0, _⟩ => rfl | ⟨1, _⟩ => rfl
  have hr' : ∀ k : Fin 512, ridx_main_v30 (ix2 p q) k = ix2 k q :=
    fun k => funext fun a => match a with | ⟨0, _⟩ => rfl | ⟨1, _⟩ => rfl
  rw [val_main_v36_apply, val_main_v31_apply, val_main_v27_apply, val_main_v26_apply, val_main_v30_apply, l1r0_bias]
  simp only [hl, hr, hl', hr', l1r0_wself, l1r0_wneigh, l1r0_nbr]
  rfl

/-! ## Layer 1, relation 1 -/

/-- Row 1 of the source table, sliced out and flattened, at e. -/
theorem l1r1_srcWord (e : Fin 250000) : val_main_v38 (F := Ideal) x7 (ix1 e) = x7 (ix2 (1 : Fin 4) e) := by
  rw [val_main_v38_apply, val_main_v37_apply]
  refine congrArg x7 (funext fun a => Fin.ext ?_)
  match a with
  | ⟨0, _⟩ => rfl
  | ⟨1, _⟩ => exact Nat.mod_eq_of_lt e.isLt

/-- Row 1 of the destination table, sliced out and flattened, at e. -/
theorem l1r1_dstWord (e : Fin 250000) : val_main_v40 (F := Ideal) x8 (ix1 e) = x8 (ix2 (1 : Fin 4) e) := by
  rw [val_main_v40_apply, val_main_v39_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l1r1_srcCol (e : Fin 250000) : val_main_v50 (F := Ideal) x7 (ix2 e (0 : Fin 1)) = srcW x7 (1 : Fin 4) e := by
  have hi : idx_main_v50 (ix2 e (0 : Fin 1)) = ix1 e := funext fun a => match a with | ⟨0, _⟩ => rfl
  rw [val_main_v50_apply, hi, val_main_v49_apply, val_main_v46_apply, val_main_v48_apply, val_main_v45_apply, val_main_v47_apply, l1r1_srcWord]
  rfl

/-- The destination column of the degree count holds the destination words. -/
theorem l1r1_dstColDeg (e : Fin 250000) : val_main_v43 (F := Ideal) x8 (ix2 e (0 : Fin 1)) = x8 (ix2 (1 : Fin 4) e) := by
  have hi : idx_main_v43 (ix2 e (0 : Fin 1)) = ix1 e := funext fun a => match a with | ⟨0, _⟩ => rfl
  rw [val_main_v43_apply, hi, l1r1_dstWord]

/-- The destination column of the row accumulation holds the destination words. -/
theorem l1r1_dstColRow (e : Fin 250000) : val_main_v53 (F := Ideal) x8 (ix2 e (0 : Fin 1)) = x8 (ix2 (1 : Fin 4) e) := by
  have hi : idx_main_v53 (ix2 e (0 : Fin 1)) = ix1 e := funext fun a => match a with | ⟨0, _⟩ => rfl
  rw [val_main_v53_apply, hi, l1r1_dstWord]

/-- The relation's mean buffer at (p, k) is the neighbour mean of the layer's input. -/
theorem l1r1_nbr (p : Fin 50000) (k : Fin 512) :
    val_main_v59 (F := Ideal) x0 x7 x8 (ix2 p k) = nbr x7 x8 (1 : Fin 4) x0 p k := by
  have hi : idx_main_v57 (idx_main_v58 (ix2 p k)) = ix1 p := funext fun a => match a with | ⟨0, _⟩ => rfl
  rw [val_main_v59_apply, val_main_v58_apply, val_main_v57_apply, hi, val_main_v56_apply]
  unfold val_main_v54 val_main_v51 val_main_v44
  exact nbr_of_parts gather_S50000x512_S250000x1_S250000x512_1_0_n_n_0_1_1512_wf
    scatter_S50000x512_S250000x1_S250000x512_1_0_0_1_wf scatter_S50000_S250000x1_S250000_n_0_0_1_wf
    x7 x8 (1 : Fin 4) x0 (val_main_v52 (F := Ideal)) (val_main_v42 (F := Ideal)) (val_main_v41 (F := Ideal))
    (val_main_v50 (F := Ideal) x7) (val_main_v53 (F := Ideal) x8) (val_main_v43 (F := Ideal) x8)
    (fun i => (val_main_v52_apply i).trans rfl) (fun i => (val_main_v42_apply i).trans rfl) (fun i => (val_main_v41_apply i).trans rfl)
    (l1r1_srcCol x7) (l1r1_dstColRow x8) (l1r1_dstColDeg x8) p k

/-- Slab 1 of the self weights, sliced out and flattened, at (k, q). -/
theorem l1r1_wself (k : Fin 512) (q : Fin 512) : val_main_v61 (F := Ideal) x1 (ix2 k q) = x1 (ix3 (1 : Fin 4) k q) := by
  rw [val_main_v61_apply, val_main_v60_apply]
  refine congrArg x1 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Slab 1 of the neighbour weights, sliced out and flattened, at (k, q). -/
theorem l1r1_wneigh (k : Fin 512) (q : Fin 512) : val_main_v65 (F := Ideal) x2 (ix2 k q) = x2 (ix3 (1 : Fin 4) k q) := by
  rw [val_main_v65_apply, val_main_v64_apply]
  refine congrArg x2 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Row 1 of the biases, spread over the nodes, at (p, q). -/
theorem l1r1_bias (p : Fin 50000) (q : Fin 512) : val_main_v71 (F := Ideal) x3 (ix2 p q) = x3 (ix2 (1 : Fin 4) q) := by
  rw [val_main_v71_apply, val_main_v70_apply, val_main_v69_apply, val_main_v68_apply]
  refine congrArg x3 (funext fun a => Fin.ext ?_)
  match a with
  | ⟨0, _⟩ => rfl
  | ⟨1, _⟩ => exact Nat.mod_eq_of_lt q.isLt

/-- The relation's step: the accumulator plus the self product, the neighbour product and the bias row. -/
theorem l1r1_step (p : Fin 50000) (q : Fin 512) :
    val_main_v72 (F := Ideal) x0 x1 x2 x3 x7 x8 (ix2 p q)
      = step 512 x7 x8 x0 x1 x2 x3 p q (1 : Fin 4) (val_main_v36 (F := Ideal) x0 x1 x2 x3 x7 x8 (ix2 p q)) := by
  have hl : ∀ k : Fin 512, lidx_main_v62 (ix2 p q) k = ix2 p k :=
    fun k => funext fun a => match a with | ⟨0, _⟩ => rfl | ⟨1, _⟩ => rfl
  have hr : ∀ k : Fin 512, ridx_main_v62 (ix2 p q) k = ix2 k q :=
    fun k => funext fun a => match a with | ⟨0, _⟩ => rfl | ⟨1, _⟩ => rfl
  have hl' : ∀ k : Fin 512, lidx_main_v66 (ix2 p q) k = ix2 p k :=
    fun k => funext fun a => match a with | ⟨0, _⟩ => rfl | ⟨1, _⟩ => rfl
  have hr' : ∀ k : Fin 512, ridx_main_v66 (ix2 p q) k = ix2 k q :=
    fun k => funext fun a => match a with | ⟨0, _⟩ => rfl | ⟨1, _⟩ => rfl
  rw [val_main_v72_apply, val_main_v67_apply, val_main_v63_apply, val_main_v62_apply, val_main_v66_apply, l1r1_bias]
  simp only [hl, hr, hl', hr', l1r1_wself, l1r1_wneigh, l1r1_nbr]
  rfl

/-! ## Layer 1, relation 2 -/

/-- Row 2 of the source table, sliced out and flattened, at e. -/
theorem l1r2_srcWord (e : Fin 250000) : val_main_v74 (F := Ideal) x7 (ix1 e) = x7 (ix2 (2 : Fin 4) e) := by
  rw [val_main_v74_apply, val_main_v73_apply]
  refine congrArg x7 (funext fun a => Fin.ext ?_)
  match a with
  | ⟨0, _⟩ => rfl
  | ⟨1, _⟩ => exact Nat.mod_eq_of_lt e.isLt

/-- Row 2 of the destination table, sliced out and flattened, at e. -/
theorem l1r2_dstWord (e : Fin 250000) : val_main_v76 (F := Ideal) x8 (ix1 e) = x8 (ix2 (2 : Fin 4) e) := by
  rw [val_main_v76_apply, val_main_v75_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l1r2_srcCol (e : Fin 250000) : val_main_v86 (F := Ideal) x7 (ix2 e (0 : Fin 1)) = srcW x7 (2 : Fin 4) e := by
  have hi : idx_main_v86 (ix2 e (0 : Fin 1)) = ix1 e := funext fun a => match a with | ⟨0, _⟩ => rfl
  rw [val_main_v86_apply, hi, val_main_v85_apply, val_main_v82_apply, val_main_v84_apply, val_main_v81_apply, val_main_v83_apply, l1r2_srcWord]
  rfl

/-- The destination column of the degree count holds the destination words. -/
theorem l1r2_dstColDeg (e : Fin 250000) : val_main_v79 (F := Ideal) x8 (ix2 e (0 : Fin 1)) = x8 (ix2 (2 : Fin 4) e) := by
  have hi : idx_main_v79 (ix2 e (0 : Fin 1)) = ix1 e := funext fun a => match a with | ⟨0, _⟩ => rfl
  rw [val_main_v79_apply, hi, l1r2_dstWord]

/-- The destination column of the row accumulation holds the destination words. -/
theorem l1r2_dstColRow (e : Fin 250000) : val_main_v89 (F := Ideal) x8 (ix2 e (0 : Fin 1)) = x8 (ix2 (2 : Fin 4) e) := by
  have hi : idx_main_v89 (ix2 e (0 : Fin 1)) = ix1 e := funext fun a => match a with | ⟨0, _⟩ => rfl
  rw [val_main_v89_apply, hi, l1r2_dstWord]

/-- The relation's mean buffer at (p, k) is the neighbour mean of the layer's input. -/
theorem l1r2_nbr (p : Fin 50000) (k : Fin 512) :
    val_main_v95 (F := Ideal) x0 x7 x8 (ix2 p k) = nbr x7 x8 (2 : Fin 4) x0 p k := by
  have hi : idx_main_v93 (idx_main_v94 (ix2 p k)) = ix1 p := funext fun a => match a with | ⟨0, _⟩ => rfl
  rw [val_main_v95_apply, val_main_v94_apply, val_main_v93_apply, hi, val_main_v92_apply]
  unfold val_main_v90 val_main_v87 val_main_v80
  exact nbr_of_parts gather_S50000x512_S250000x1_S250000x512_1_0_n_n_0_1_1512_wf
    scatter_S50000x512_S250000x1_S250000x512_1_0_0_1_wf scatter_S50000_S250000x1_S250000_n_0_0_1_wf
    x7 x8 (2 : Fin 4) x0 (val_main_v88 (F := Ideal)) (val_main_v78 (F := Ideal)) (val_main_v77 (F := Ideal))
    (val_main_v86 (F := Ideal) x7) (val_main_v89 (F := Ideal) x8) (val_main_v79 (F := Ideal) x8)
    (fun i => (val_main_v88_apply i).trans rfl) (fun i => (val_main_v78_apply i).trans rfl) (fun i => (val_main_v77_apply i).trans rfl)
    (l1r2_srcCol x7) (l1r2_dstColRow x8) (l1r2_dstColDeg x8) p k

/-- Slab 2 of the self weights, sliced out and flattened, at (k, q). -/
theorem l1r2_wself (k : Fin 512) (q : Fin 512) : val_main_v97 (F := Ideal) x1 (ix2 k q) = x1 (ix3 (2 : Fin 4) k q) := by
  rw [val_main_v97_apply, val_main_v96_apply]
  refine congrArg x1 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Slab 2 of the neighbour weights, sliced out and flattened, at (k, q). -/
theorem l1r2_wneigh (k : Fin 512) (q : Fin 512) : val_main_v101 (F := Ideal) x2 (ix2 k q) = x2 (ix3 (2 : Fin 4) k q) := by
  rw [val_main_v101_apply, val_main_v100_apply]
  refine congrArg x2 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Row 2 of the biases, spread over the nodes, at (p, q). -/
theorem l1r2_bias (p : Fin 50000) (q : Fin 512) : val_main_v107 (F := Ideal) x3 (ix2 p q) = x3 (ix2 (2 : Fin 4) q) := by
  rw [val_main_v107_apply, val_main_v106_apply, val_main_v105_apply, val_main_v104_apply]
  refine congrArg x3 (funext fun a => Fin.ext ?_)
  match a with
  | ⟨0, _⟩ => rfl
  | ⟨1, _⟩ => exact Nat.mod_eq_of_lt q.isLt

/-- The relation's step: the accumulator plus the self product, the neighbour product and the bias row. -/
theorem l1r2_step (p : Fin 50000) (q : Fin 512) :
    val_main_v108 (F := Ideal) x0 x1 x2 x3 x7 x8 (ix2 p q)
      = step 512 x7 x8 x0 x1 x2 x3 p q (2 : Fin 4) (val_main_v72 (F := Ideal) x0 x1 x2 x3 x7 x8 (ix2 p q)) := by
  have hl : ∀ k : Fin 512, lidx_main_v98 (ix2 p q) k = ix2 p k :=
    fun k => funext fun a => match a with | ⟨0, _⟩ => rfl | ⟨1, _⟩ => rfl
  have hr : ∀ k : Fin 512, ridx_main_v98 (ix2 p q) k = ix2 k q :=
    fun k => funext fun a => match a with | ⟨0, _⟩ => rfl | ⟨1, _⟩ => rfl
  have hl' : ∀ k : Fin 512, lidx_main_v102 (ix2 p q) k = ix2 p k :=
    fun k => funext fun a => match a with | ⟨0, _⟩ => rfl | ⟨1, _⟩ => rfl
  have hr' : ∀ k : Fin 512, ridx_main_v102 (ix2 p q) k = ix2 k q :=
    fun k => funext fun a => match a with | ⟨0, _⟩ => rfl | ⟨1, _⟩ => rfl
  rw [val_main_v108_apply, val_main_v103_apply, val_main_v99_apply, val_main_v98_apply, val_main_v102_apply, l1r2_bias]
  simp only [hl, hr, hl', hr', l1r2_wself, l1r2_wneigh, l1r2_nbr]
  rfl

/-! ## Layer 1, relation 3 -/

/-- Row 3 of the source table, sliced out and flattened, at e. -/
theorem l1r3_srcWord (e : Fin 250000) : val_main_v110 (F := Ideal) x7 (ix1 e) = x7 (ix2 (3 : Fin 4) e) := by
  rw [val_main_v110_apply, val_main_v109_apply]
  refine congrArg x7 (funext fun a => Fin.ext ?_)
  match a with
  | ⟨0, _⟩ => rfl
  | ⟨1, _⟩ => exact Nat.mod_eq_of_lt e.isLt

/-- Row 3 of the destination table, sliced out and flattened, at e. -/
theorem l1r3_dstWord (e : Fin 250000) : val_main_v112 (F := Ideal) x8 (ix1 e) = x8 (ix2 (3 : Fin 4) e) := by
  rw [val_main_v112_apply, val_main_v111_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l1r3_srcCol (e : Fin 250000) : val_main_v122 (F := Ideal) x7 (ix2 e (0 : Fin 1)) = srcW x7 (3 : Fin 4) e := by
  have hi : idx_main_v122 (ix2 e (0 : Fin 1)) = ix1 e := funext fun a => match a with | ⟨0, _⟩ => rfl
  rw [val_main_v122_apply, hi, val_main_v121_apply, val_main_v118_apply, val_main_v120_apply, val_main_v117_apply, val_main_v119_apply, l1r3_srcWord]
  rfl

/-- The destination column of the degree count holds the destination words. -/
theorem l1r3_dstColDeg (e : Fin 250000) : val_main_v115 (F := Ideal) x8 (ix2 e (0 : Fin 1)) = x8 (ix2 (3 : Fin 4) e) := by
  have hi : idx_main_v115 (ix2 e (0 : Fin 1)) = ix1 e := funext fun a => match a with | ⟨0, _⟩ => rfl
  rw [val_main_v115_apply, hi, l1r3_dstWord]

/-- The destination column of the row accumulation holds the destination words. -/
theorem l1r3_dstColRow (e : Fin 250000) : val_main_v125 (F := Ideal) x8 (ix2 e (0 : Fin 1)) = x8 (ix2 (3 : Fin 4) e) := by
  have hi : idx_main_v125 (ix2 e (0 : Fin 1)) = ix1 e := funext fun a => match a with | ⟨0, _⟩ => rfl
  rw [val_main_v125_apply, hi, l1r3_dstWord]

/-- The relation's mean buffer at (p, k) is the neighbour mean of the layer's input. -/
theorem l1r3_nbr (p : Fin 50000) (k : Fin 512) :
    val_main_v131 (F := Ideal) x0 x7 x8 (ix2 p k) = nbr x7 x8 (3 : Fin 4) x0 p k := by
  have hi : idx_main_v129 (idx_main_v130 (ix2 p k)) = ix1 p := funext fun a => match a with | ⟨0, _⟩ => rfl
  rw [val_main_v131_apply, val_main_v130_apply, val_main_v129_apply, hi, val_main_v128_apply]
  unfold val_main_v126 val_main_v123 val_main_v116
  exact nbr_of_parts gather_S50000x512_S250000x1_S250000x512_1_0_n_n_0_1_1512_wf
    scatter_S50000x512_S250000x1_S250000x512_1_0_0_1_wf scatter_S50000_S250000x1_S250000_n_0_0_1_wf
    x7 x8 (3 : Fin 4) x0 (val_main_v124 (F := Ideal)) (val_main_v114 (F := Ideal)) (val_main_v113 (F := Ideal))
    (val_main_v122 (F := Ideal) x7) (val_main_v125 (F := Ideal) x8) (val_main_v115 (F := Ideal) x8)
    (fun i => (val_main_v124_apply i).trans rfl) (fun i => (val_main_v114_apply i).trans rfl) (fun i => (val_main_v113_apply i).trans rfl)
    (l1r3_srcCol x7) (l1r3_dstColRow x8) (l1r3_dstColDeg x8) p k

/-- Slab 3 of the self weights, sliced out and flattened, at (k, q). -/
theorem l1r3_wself (k : Fin 512) (q : Fin 512) : val_main_v133 (F := Ideal) x1 (ix2 k q) = x1 (ix3 (3 : Fin 4) k q) := by
  rw [val_main_v133_apply, val_main_v132_apply]
  refine congrArg x1 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Slab 3 of the neighbour weights, sliced out and flattened, at (k, q). -/
theorem l1r3_wneigh (k : Fin 512) (q : Fin 512) : val_main_v137 (F := Ideal) x2 (ix2 k q) = x2 (ix3 (3 : Fin 4) k q) := by
  rw [val_main_v137_apply, val_main_v136_apply]
  refine congrArg x2 (funext fun a => Fin.ext ?_)
  have hk := k.isLt
  have hq := q.isLt
  match a with
  | ⟨0, _⟩ => rfl
  | ⟨1, _⟩ => show (k.val * 512 + q.val) / 512 % 512 = k.val; omega
  | ⟨2, _⟩ => show (k.val * 512 + q.val) % 512 = q.val; omega

/-- Row 3 of the biases, spread over the nodes, at (p, q). -/
theorem l1r3_bias (p : Fin 50000) (q : Fin 512) : val_main_v143 (F := Ideal) x3 (ix2 p q) = x3 (ix2 (3 : Fin 4) q) := by
  rw [val_main_v143_apply, val_main_v142_apply, val_main_v141_apply, val_main_v140_apply]
  refine congrArg x3 (funext fun a => Fin.ext ?_)
  match a with
  | ⟨0, _⟩ => rfl
  | ⟨1, _⟩ => exact Nat.mod_eq_of_lt q.isLt

/-- The relation's step: the accumulator plus the self product, the neighbour product and the bias row. -/
theorem l1r3_step (p : Fin 50000) (q : Fin 512) :
    val_main_v144 (F := Ideal) x0 x1 x2 x3 x7 x8 (ix2 p q)
      = step 512 x7 x8 x0 x1 x2 x3 p q (3 : Fin 4) (val_main_v108 (F := Ideal) x0 x1 x2 x3 x7 x8 (ix2 p q)) := by
  have hl : ∀ k : Fin 512, lidx_main_v134 (ix2 p q) k = ix2 p k :=
    fun k => funext fun a => match a with | ⟨0, _⟩ => rfl | ⟨1, _⟩ => rfl
  have hr : ∀ k : Fin 512, ridx_main_v134 (ix2 p q) k = ix2 k q :=
    fun k => funext fun a => match a with | ⟨0, _⟩ => rfl | ⟨1, _⟩ => rfl
  have hl' : ∀ k : Fin 512, lidx_main_v138 (ix2 p q) k = ix2 p k :=
    fun k => funext fun a => match a with | ⟨0, _⟩ => rfl | ⟨1, _⟩ => rfl
  have hr' : ∀ k : Fin 512, ridx_main_v138 (ix2 p q) k = ix2 k q :=
    fun k => funext fun a => match a with | ⟨0, _⟩ => rfl | ⟨1, _⟩ => rfl
  rw [val_main_v144_apply, val_main_v139_apply, val_main_v135_apply, val_main_v134_apply, val_main_v138_apply, l1r3_bias]
  simp only [hl, hr, hl', hr', l1r3_wself, l1r3_wneigh, l1r3_nbr]
  rfl

/-! ## The hidden features -/

/-- The first layer's buffer after the maximum with zero is the serial arrangement of the hidden features. -/
theorem hid_eq :
    val_main_v145 (F := Ideal) x0 x1 x2 x3 x7 x8 = hidR x7 x8 x0 x1 x2 x3 := by
  funext i
  obtain ⟨p, q, rfl⟩ : ∃ (p : Fin 50000) (q : Fin 512), i = ix2 p q := ⟨i 0, i 1, eq_ix2 i⟩
  rw [val_main_v145_apply, l1r3_step, l1r2_step, l1r1_step, l1r0_step, val_main_v0_apply, val_main_call0_v0_apply]
  rfl

end Cert.ReferenceIdeal.RefValue

end
-- ==== Proof.RefLayer2.lean ====
/-
  The reference program's second layer, read index by index, is the specification's serial arrangement over the
  hidden features; with the first layer this gives the program's result.

  The second layer repeats the first on the hidden features, with weights of 256 output columns: for each of
  the four relations the neighbour mean of the hidden features, then the step adding the self product, the
  neighbour product and the bias row to the running array, which starts from zero. The hidden features enter
  every statement as one unexamined array, and are replaced by their specification only at the end.
-/
import proofs.«128207_j9895604650659_2_alg».proof.Proof.RefLayer1

noncomputable section

open scoped BigOperators

namespace Cert.ReferenceIdeal.RefValue

open Cert.ReferenceIdeal Cert.ReferenceIdeal.Gen Cert.ReferenceIdeal.Read Cert.Sage Idealize.ShloMosaic Idealize.ShloMosaic.ValueIdx

variable (x0 : (⟨S50000x512, .f32⟩ : BufTy).Contents (Elt Ideal)) (x1 x2 : (⟨S4x512x512, .f32⟩ : BufTy).Contents (Elt Ideal))
  (x3 : (⟨S4x512, .f32⟩ : BufTy).Contents (Elt Ideal)) (x4 x5 : (⟨S4x512x256, .f32⟩ : BufTy).Contents (Elt Ideal))
  (x6 : (⟨S4x256, .f32⟩ : BufTy).Contents (Elt Ideal)) (x7 x8 : (⟨S4x250000, .i32⟩ : BufTy).Contents (Elt Ideal))

/-! ## Layer 2, relation 0 -/

/-- Row 0 of the source table, sliced out and flattened, at e. -/
theorem l2r0_srcWord (e : Fin 250000) : val_main_v148 (F := Ideal) x7 (ix1 e) = x7 (ix2 (0 : Fin 4) e) := by
  rw [val_main_v148_apply, val_main_v147_apply]
  refine congrArg x7 (funext fun a => Fin.ext ?_)
  match a with
  | ⟨0, _⟩ => rfl
  | ⟨1, _⟩ => exact Nat.mod_eq_of_lt e.isLt

/-- Row 0 of the destination table, sliced out and flattened, at e. -/
theorem l2r0_dstWord (e : Fin 250000) : val_main_v150 (F := Ideal) x8 (ix1 e) = x8 (ix2 (0 : Fin 4) e) := by
  rw [val_main_v150_apply, val_main_v149_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l2r0_srcCol (e : Fin 250000) : val_main_v160 (F := Ideal) x7 (ix2 e (0 : Fin 1)) = srcW x7 (0 : Fin 4) e := by
  have hi : idx_main_v160 (ix2 e (0 : Fin 1)) = ix1 e := funext fun a => match a with | ⟨0, _⟩ => rfl
  rw [val_main_v160_apply, hi, val_main_v159_apply, val_main_v156_apply, val_main_v158_apply, val_main_v155_apply, val_main_v157_apply, l2r0_srcWord]
  rfl

/-- The destination column of the degree count holds the destination words. -/
theorem l2r0_dstColDeg (e : Fin 250000) : val_main_v153 (F := Ideal) x8 (ix2 e (0 : Fin 1)) = x8 (ix2 (0 : Fin 4) e) := by
  have hi : idx_main_v153 (ix2 e (0 : Fin 1)) = ix1 e := funext fun a => match a with | ⟨0, _⟩ => rfl
  rw [val_main_v153_apply, hi, l2r0_dstWord]

/-- The destination column of the row accumulation holds the destination words. -/
theorem l2r0_dstColRow (e : Fin 250000) : val_main_v163 (F := Ideal) x8 (ix2 e (0 : Fin 1)) = x8 (ix2 (0 : Fin 4) e) := by
  have hi : idx_main_v163 (ix2 e (0 : Fin 1)) = ix1 e := funext fun a => match a with | ⟨0, _⟩ => rfl
  rw [val_main_v163_apply, hi, l2r0_dstWord]

/-- The relation's mean buffer at (p, k) is the neighbour mean of the layer's input. -/
theorem l2r0_nbr (p : Fin 50000) (k : Fin 512) :
    val_main_v169 (F := Ideal) x0 x1 x2 x3 x7 x8 (ix2 p k) = nbr x7 x8 (0 : Fin 4) (val_main_v145 (F := Ideal) x0 x1 x2 x3 x7 x8) p k := by
  have hi : idx_main_v167 (idx_main_v168 (ix2 p k)) = ix1 p := funext fun a => match a with | ⟨0, _⟩ => rfl
  rw [val_main_v169_apply, val_main_v168_apply, val_main_v167_apply, hi, val_main_v166_apply]
  unfold val_main_v164 val_main_v161 val_main_v154
  generalize val_main_v145 (F := Ideal) x0 x1 x2 x3 x7 x8 = h
  exact nbr_of_parts gather_S50000x512_S250000x1_S250000x512_1_0_n_n_0_1_1512_wf
    scatter_S50000x512_S250000x1_S250000x512_1_0_0_1_wf scatter_S50000_S250000x1_S250000_n_0_0_1_wf
    x7 x8 (0 : Fin 4) h (val_main_v162 (F := Ideal)) (val_main_v152 (F := Ideal)) (val_main_v151 (F := Ideal))
    (val_main_v160 (F := Ideal) x7) (val_main_v163 (F := Ideal) x8) (val_main_v153 (F := Ideal) x8)
    (fun i => (val_main_v162_apply i).trans rfl) (fun i => (val_main_v152_apply i).trans rfl) (fun i => (val_main_v151_apply i).trans rfl)
    (l2r0_srcCol x7) (l2r0_dstColRow x8) (l2r0_dstColDeg x8) p k

/-- Slab 0 of the self weights, sliced out and flattened, at (k, q). -/
theorem l2r0_wself (k : Fin 512) (q : Fin 256) : val_main_v171 (F := Ideal) x4 (ix2 k q) = x4 (ix3 (0 : Fin 4) k q) := by
  rw [val_main_v171_apply, val_main_v170_apply]
  refine congrArg x4 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Slab 0 of the neighbour weights, sliced out and flattened, at (k, q). -/
theorem l2r0_wneigh (k : Fin 512) (q : Fin 256) : val_main_v175 (F := Ideal) x5 (ix2 k q) = x5 (ix3 (0 : Fin 4) k q) := by
  rw [val_main_v175_apply, val_main_v174_apply]
  refine congrArg x5 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Row 0 of the biases, spread over the nodes, at (p, q). -/
theorem l2r0_bias (p : Fin 50000) (q : Fin 256) : val_main_v181 (F := Ideal) x6 (ix2 p q) = x6 (ix2 (0 : Fin 4) q) := by
  rw [val_main_v181_apply, val_main_v180_apply, val_main_v179_apply, val_main_v178_apply]
  refine congrArg x6 (funext fun a => Fin.ext ?_)
  match a with
  | ⟨0, _⟩ => rfl
  | ⟨1, _⟩ => exact Nat.mod_eq_of_lt q.isLt

/-- The relation's step: the accumulator plus the self product, the neighbour product and the bias row. -/
theorem l2r0_step (p : Fin 50000) (q : Fin 256) :
    val_main_v182 (F := Ideal) x0 x1 x2 x3 x4 x5 x6 x7 x8 (ix2 p q)
      = step 256 x7 x8 (val_main_v145 (F := Ideal) x0 x1 x2 x3 x7 x8) x4 x5 x6 p q (0 : Fin 4) (val_main_v146 (F := Ideal) (ix2 p q)) := by
  have hl : ∀ k : Fin 512, lidx_main_v172 (ix2 p q) k = ix2 p k :=
    fun k => funext fun a => match a with | ⟨0, _⟩ => rfl | ⟨1, _⟩ => rfl
  have hr : ∀ k : Fin 512, ridx_main_v172 (ix2 p q) k = ix2 k q :=
    fun k => funext fun a => match a with | ⟨0, _⟩ => rfl | ⟨1, _⟩ => rfl
  have hl' : ∀ k : Fin 512, lidx_main_v176 (ix2 p q) k = ix2 p k :=
    fun k => funext fun a => match a with | ⟨0, _⟩ => rfl | ⟨1, _⟩ => rfl
  have hr' : ∀ k : Fin 512, ridx_main_v176 (ix2 p q) k = ix2 k q :=
    fun k => funext fun a => match a with | ⟨0, _⟩ => rfl | ⟨1, _⟩ => rfl
  rw [val_main_v182_apply, val_main_v177_apply, val_main_v173_apply, val_main_v172_apply, val_main_v176_apply, l2r0_bias]
  simp only [hl, hr, hl', hr', l2r0_wself, l2r0_wneigh, l2r0_nbr]
  rfl

/-! ## Layer 2, relation 1 -/

/-- Row 1 of the source table, sliced out and flattened, at e. -/
theorem l2r1_srcWord (e : Fin 250000) : val_main_v184 (F := Ideal) x7 (ix1 e) = x7 (ix2 (1 : Fin 4) e) := by
  rw [val_main_v184_apply, val_main_v183_apply]
  refine congrArg x7 (funext fun a => Fin.ext ?_)
  match a with
  | ⟨0, _⟩ => rfl
  | ⟨1, _⟩ => exact Nat.mod_eq_of_lt e.isLt

/-- Row 1 of the destination table, sliced out and flattened, at e. -/
theorem l2r1_dstWord (e : Fin 250000) : val_main_v186 (F := Ideal) x8 (ix1 e) = x8 (ix2 (1 : Fin 4) e) := by
  rw [val_main_v186_apply, val_main_v185_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l2r1_srcCol (e : Fin 250000) : val_main_v196 (F := Ideal) x7 (ix2 e (0 : Fin 1)) = srcW x7 (1 : Fin 4) e := by
  have hi : idx_main_v196 (ix2 e (0 : Fin 1)) = ix1 e := funext fun a => match a with | ⟨0, _⟩ => rfl
  rw [val_main_v196_apply, hi, val_main_v195_apply, val_main_v192_apply, val_main_v194_apply, val_main_v191_apply, val_main_v193_apply, l2r1_srcWord]
  rfl

/-- The destination column of the degree count holds the destination words. -/
theorem l2r1_dstColDeg (e : Fin 250000) : val_main_v189 (F := Ideal) x8 (ix2 e (0 : Fin 1)) = x8 (ix2 (1 : Fin 4) e) := by
  have hi : idx_main_v189 (ix2 e (0 : Fin 1)) = ix1 e := funext fun a => match a with | ⟨0, _⟩ => rfl
  rw [val_main_v189_apply, hi, l2r1_dstWord]

/-- The destination column of the row accumulation holds the destination words. -/
theorem l2r1_dstColRow (e : Fin 250000) : val_main_v199 (F := Ideal) x8 (ix2 e (0 : Fin 1)) = x8 (ix2 (1 : Fin 4) e) := by
  have hi : idx_main_v199 (ix2 e (0 : Fin 1)) = ix1 e := funext fun a => match a with | ⟨0, _⟩ => rfl
  rw [val_main_v199_apply, hi, l2r1_dstWord]

/-- The relation's mean buffer at (p, k) is the neighbour mean of the layer's input. -/
theorem l2r1_nbr (p : Fin 50000) (k : Fin 512) :
    val_main_v205 (F := Ideal) x0 x1 x2 x3 x7 x8 (ix2 p k) = nbr x7 x8 (1 : Fin 4) (val_main_v145 (F := Ideal) x0 x1 x2 x3 x7 x8) p k := by
  have hi : idx_main_v203 (idx_main_v204 (ix2 p k)) = ix1 p := funext fun a => match a with | ⟨0, _⟩ => rfl
  rw [val_main_v205_apply, val_main_v204_apply, val_main_v203_apply, hi, val_main_v202_apply]
  unfold val_main_v200 val_main_v197 val_main_v190
  generalize val_main_v145 (F := Ideal) x0 x1 x2 x3 x7 x8 = h
  exact nbr_of_parts gather_S50000x512_S250000x1_S250000x512_1_0_n_n_0_1_1512_wf
    scatter_S50000x512_S250000x1_S250000x512_1_0_0_1_wf scatter_S50000_S250000x1_S250000_n_0_0_1_wf
    x7 x8 (1 : Fin 4) h (val_main_v198 (F := Ideal)) (val_main_v188 (F := Ideal)) (val_main_v187 (F := Ideal))
    (val_main_v196 (F := Ideal) x7) (val_main_v199 (F := Ideal) x8) (val_main_v189 (F := Ideal) x8)
    (fun i => (val_main_v198_apply i).trans rfl) (fun i => (val_main_v188_apply i).trans rfl) (fun i => (val_main_v187_apply i).trans rfl)
    (l2r1_srcCol x7) (l2r1_dstColRow x8) (l2r1_dstColDeg x8) p k

/-- Slab 1 of the self weights, sliced out and flattened, at (k, q). -/
theorem l2r1_wself (k : Fin 512) (q : Fin 256) : val_main_v207 (F := Ideal) x4 (ix2 k q) = x4 (ix3 (1 : Fin 4) k q) := by
  rw [val_main_v207_apply, val_main_v206_apply]
  refine congrArg x4 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Slab 1 of the neighbour weights, sliced out and flattened, at (k, q). -/
theorem l2r1_wneigh (k : Fin 512) (q : Fin 256) : val_main_v211 (F := Ideal) x5 (ix2 k q) = x5 (ix3 (1 : Fin 4) k q) := by
  rw [val_main_v211_apply, val_main_v210_apply]
  refine congrArg x5 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Row 1 of the biases, spread over the nodes, at (p, q). -/
theorem l2r1_bias (p : Fin 50000) (q : Fin 256) : val_main_v217 (F := Ideal) x6 (ix2 p q) = x6 (ix2 (1 : Fin 4) q) := by
  rw [val_main_v217_apply, val_main_v216_apply, val_main_v215_apply, val_main_v214_apply]
  refine congrArg x6 (funext fun a => Fin.ext ?_)
  match a with
  | ⟨0, _⟩ => rfl
  | ⟨1, _⟩ => exact Nat.mod_eq_of_lt q.isLt

/-- The relation's step: the accumulator plus the self product, the neighbour product and the bias row. -/
theorem l2r1_step (p : Fin 50000) (q : Fin 256) :
    val_main_v218 (F := Ideal) x0 x1 x2 x3 x4 x5 x6 x7 x8 (ix2 p q)
      = step 256 x7 x8 (val_main_v145 (F := Ideal) x0 x1 x2 x3 x7 x8) x4 x5 x6 p q (1 : Fin 4) (val_main_v182 (F := Ideal) x0 x1 x2 x3 x4 x5 x6 x7 x8 (ix2 p q)) := by
  have hl : ∀ k : Fin 512, lidx_main_v208 (ix2 p q) k = ix2 p k :=
    fun k => funext fun a => match a with | ⟨0, _⟩ => rfl | ⟨1, _⟩ => rfl
  have hr : ∀ k : Fin 512, ridx_main_v208 (ix2 p q) k = ix2 k q :=
    fun k => funext fun a => match a with | ⟨0, _⟩ => rfl | ⟨1, _⟩ => rfl
  have hl' : ∀ k : Fin 512, lidx_main_v212 (ix2 p q) k = ix2 p k :=
    fun k => funext fun a => match a with | ⟨0, _⟩ => rfl | ⟨1, _⟩ => rfl
  have hr' : ∀ k : Fin 512, ridx_main_v212 (ix2 p q) k = ix2 k q :=
    fun k => funext fun a => match a with | ⟨0, _⟩ => rfl | ⟨1, _⟩ => rfl
  rw [val_main_v218_apply, val_main_v213_apply, val_main_v209_apply, val_main_v208_apply, val_main_v212_apply, l2r1_bias]
  simp only [hl, hr, hl', hr', l2r1_wself, l2r1_wneigh, l2r1_nbr]
  rfl

/-! ## Layer 2, relation 2 -/

/-- Row 2 of the source table, sliced out and flattened, at e. -/
theorem l2r2_srcWord (e : Fin 250000) : val_main_v220 (F := Ideal) x7 (ix1 e) = x7 (ix2 (2 : Fin 4) e) := by
  rw [val_main_v220_apply, val_main_v219_apply]
  refine congrArg x7 (funext fun a => Fin.ext ?_)
  match a with
  | ⟨0, _⟩ => rfl
  | ⟨1, _⟩ => exact Nat.mod_eq_of_lt e.isLt

/-- Row 2 of the destination table, sliced out and flattened, at e. -/
theorem l2r2_dstWord (e : Fin 250000) : val_main_v222 (F := Ideal) x8 (ix1 e) = x8 (ix2 (2 : Fin 4) e) := by
  rw [val_main_v222_apply, val_main_v221_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l2r2_srcCol (e : Fin 250000) : val_main_v232 (F := Ideal) x7 (ix2 e (0 : Fin 1)) = srcW x7 (2 : Fin 4) e := by
  have hi : idx_main_v232 (ix2 e (0 : Fin 1)) = ix1 e := funext fun a => match a with | ⟨0, _⟩ => rfl
  rw [val_main_v232_apply, hi, val_main_v231_apply, val_main_v228_apply, val_main_v230_apply, val_main_v227_apply, val_main_v229_apply, l2r2_srcWord]
  rfl

/-- The destination column of the degree count holds the destination words. -/
theorem l2r2_dstColDeg (e : Fin 250000) : val_main_v225 (F := Ideal) x8 (ix2 e (0 : Fin 1)) = x8 (ix2 (2 : Fin 4) e) := by
  have hi : idx_main_v225 (ix2 e (0 : Fin 1)) = ix1 e := funext fun a => match a with | ⟨0, _⟩ => rfl
  rw [val_main_v225_apply, hi, l2r2_dstWord]

/-- The destination column of the row accumulation holds the destination words. -/
theorem l2r2_dstColRow (e : Fin 250000) : val_main_v235 (F := Ideal) x8 (ix2 e (0 : Fin 1)) = x8 (ix2 (2 : Fin 4) e) := by
  have hi : idx_main_v235 (ix2 e (0 : Fin 1)) = ix1 e := funext fun a => match a with | ⟨0, _⟩ => rfl
  rw [val_main_v235_apply, hi, l2r2_dstWord]

/-- The relation's mean buffer at (p, k) is the neighbour mean of the layer's input. -/
theorem l2r2_nbr (p : Fin 50000) (k : Fin 512) :
    val_main_v241 (F := Ideal) x0 x1 x2 x3 x7 x8 (ix2 p k) = nbr x7 x8 (2 : Fin 4) (val_main_v145 (F := Ideal) x0 x1 x2 x3 x7 x8) p k := by
  have hi : idx_main_v239 (idx_main_v240 (ix2 p k)) = ix1 p := funext fun a => match a with | ⟨0, _⟩ => rfl
  rw [val_main_v241_apply, val_main_v240_apply, val_main_v239_apply, hi, val_main_v238_apply]
  unfold val_main_v236 val_main_v233 val_main_v226
  generalize val_main_v145 (F := Ideal) x0 x1 x2 x3 x7 x8 = h
  exact nbr_of_parts gather_S50000x512_S250000x1_S250000x512_1_0_n_n_0_1_1512_wf
    scatter_S50000x512_S250000x1_S250000x512_1_0_0_1_wf scatter_S50000_S250000x1_S250000_n_0_0_1_wf
    x7 x8 (2 : Fin 4) h (val_main_v234 (F := Ideal)) (val_main_v224 (F := Ideal)) (val_main_v223 (F := Ideal))
    (val_main_v232 (F := Ideal) x7) (val_main_v235 (F := Ideal) x8) (val_main_v225 (F := Ideal) x8)
    (fun i => (val_main_v234_apply i).trans rfl) (fun i => (val_main_v224_apply i).trans rfl) (fun i => (val_main_v223_apply i).trans rfl)
    (l2r2_srcCol x7) (l2r2_dstColRow x8) (l2r2_dstColDeg x8) p k

/-- Slab 2 of the self weights, sliced out and flattened, at (k, q). -/
theorem l2r2_wself (k : Fin 512) (q : Fin 256) : val_main_v243 (F := Ideal) x4 (ix2 k q) = x4 (ix3 (2 : Fin 4) k q) := by
  rw [val_main_v243_apply, val_main_v242_apply]
  refine congrArg x4 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Slab 2 of the neighbour weights, sliced out and flattened, at (k, q). -/
theorem l2r2_wneigh (k : Fin 512) (q : Fin 256) : val_main_v247 (F := Ideal) x5 (ix2 k q) = x5 (ix3 (2 : Fin 4) k q) := by
  rw [val_main_v247_apply, val_main_v246_apply]
  refine congrArg x5 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Row 2 of the biases, spread over the nodes, at (p, q). -/
theorem l2r2_bias (p : Fin 50000) (q : Fin 256) : val_main_v253 (F := Ideal) x6 (ix2 p q) = x6 (ix2 (2 : Fin 4) q) := by
  rw [val_main_v253_apply, val_main_v252_apply, val_main_v251_apply, val_main_v250_apply]
  refine congrArg x6 (funext fun a => Fin.ext ?_)
  match a with
  | ⟨0, _⟩ => rfl
  | ⟨1, _⟩ => exact Nat.mod_eq_of_lt q.isLt

/-- The relation's step: the accumulator plus the self product, the neighbour product and the bias row. -/
theorem l2r2_step (p : Fin 50000) (q : Fin 256) :
    val_main_v254 (F := Ideal) x0 x1 x2 x3 x4 x5 x6 x7 x8 (ix2 p q)
      = step 256 x7 x8 (val_main_v145 (F := Ideal) x0 x1 x2 x3 x7 x8) x4 x5 x6 p q (2 : Fin 4) (val_main_v218 (F := Ideal) x0 x1 x2 x3 x4 x5 x6 x7 x8 (ix2 p q)) := by
  have hl : ∀ k : Fin 512, lidx_main_v244 (ix2 p q) k = ix2 p k :=
    fun k => funext fun a => match a with | ⟨0, _⟩ => rfl | ⟨1, _⟩ => rfl
  have hr : ∀ k : Fin 512, ridx_main_v244 (ix2 p q) k = ix2 k q :=
    fun k => funext fun a => match a with | ⟨0, _⟩ => rfl | ⟨1, _⟩ => rfl
  have hl' : ∀ k : Fin 512, lidx_main_v248 (ix2 p q) k = ix2 p k :=
    fun k => funext fun a => match a with | ⟨0, _⟩ => rfl | ⟨1, _⟩ => rfl
  have hr' : ∀ k : Fin 512, ridx_main_v248 (ix2 p q) k = ix2 k q :=
    fun k => funext fun a => match a with | ⟨0, _⟩ => rfl | ⟨1, _⟩ => rfl
  rw [val_main_v254_apply, val_main_v249_apply, val_main_v245_apply, val_main_v244_apply, val_main_v248_apply, l2r2_bias]
  simp only [hl, hr, hl', hr', l2r2_wself, l2r2_wneigh, l2r2_nbr]
  rfl

/-! ## Layer 2, relation 3 -/

/-- Row 3 of the source table, sliced out and flattened, at e. -/
theorem l2r3_srcWord (e : Fin 250000) : val_main_v256 (F := Ideal) x7 (ix1 e) = x7 (ix2 (3 : Fin 4) e) := by
  rw [val_main_v256_apply, val_main_v255_apply]
  refine congrArg x7 (funext fun a => Fin.ext ?_)
  match a with
  | ⟨0, _⟩ => rfl
  | ⟨1, _⟩ => exact Nat.mod_eq_of_lt e.isLt

/-- Row 3 of the destination table, sliced out and flattened, at e. -/
theorem l2r3_dstWord (e : Fin 250000) : val_main_v258 (F := Ideal) x8 (ix1 e) = x8 (ix2 (3 : Fin 4) e) := by
  rw [val_main_v258_apply, val_main_v257_apply]
  refine congrArg x8 (funext fun a => Fin.ext ?_)
  match a with
  | ⟨0, _⟩ => rfl
  | ⟨1, _⟩ => exact Nat.mod_eq_of_lt e.isLt

/-- The source column holds the wrapped source words: w + 50000 when w < 0. -/
theorem l2r3_srcCol (e : Fin 250000) : val_main_v268 (F := Ideal) x7 (ix2 e (0 : Fin 1)) = srcW x7 (3 : Fin 4) e := by
  have hi : idx_main_v268 (ix2 e (0 : Fin 1)) = ix1 e := funext fun a => match a with | ⟨0, _⟩ => rfl
  rw [val_main_v268_apply, hi, val_main_v267_apply, val_main_v264_apply, val_main_v266_apply, val_main_v263_apply, val_main_v265_apply, l2r3_srcWord]
  rfl

/-- The destination column of the degree count holds the destination words. -/
theorem l2r3_dstColDeg (e : Fin 250000) : val_main_v261 (F := Ideal) x8 (ix2 e (0 : Fin 1)) = x8 (ix2 (3 : Fin 4) e) := by
  have hi : idx_main_v261 (ix2 e (0 : Fin 1)) = ix1 e := funext fun a => match a with | ⟨0, _⟩ => rfl
  rw [val_main_v261_apply, hi, l2r3_dstWord]

/-- The destination column of the row accumulation holds the destination words. -/
theorem l2r3_dstColRow (e : Fin 250000) : val_main_v271 (F := Ideal) x8 (ix2 e (0 : Fin 1)) = x8 (ix2 (3 : Fin 4) e) := by
  have hi : idx_main_v271 (ix2 e (0 : Fin 1)) = ix1 e := funext fun a => match a with | ⟨0, _⟩ => rfl
  rw [val_main_v271_apply, hi, l2r3_dstWord]

/-- The relation's mean buffer at (p, k) is the neighbour mean of the layer's input. -/
theorem l2r3_nbr (p : Fin 50000) (k : Fin 512) :
    val_main_v277 (F := Ideal) x0 x1 x2 x3 x7 x8 (ix2 p k) = nbr x7 x8 (3 : Fin 4) (val_main_v145 (F := Ideal) x0 x1 x2 x3 x7 x8) p k := by
  have hi : idx_main_v275 (idx_main_v276 (ix2 p k)) = ix1 p := funext fun a => match a with | ⟨0, _⟩ => rfl
  rw [val_main_v277_apply, val_main_v276_apply, val_main_v275_apply, hi, val_main_v274_apply]
  unfold val_main_v272 val_main_v269 val_main_v262
  generalize val_main_v145 (F := Ideal) x0 x1 x2 x3 x7 x8 = h
  exact nbr_of_parts gather_S50000x512_S250000x1_S250000x512_1_0_n_n_0_1_1512_wf
    scatter_S50000x512_S250000x1_S250000x512_1_0_0_1_wf scatter_S50000_S250000x1_S250000_n_0_0_1_wf
    x7 x8 (3 : Fin 4) h (val_main_v270 (F := Ideal)) (val_main_v260 (F := Ideal)) (val_main_v259 (F := Ideal))
    (val_main_v268 (F := Ideal) x7) (val_main_v271 (F := Ideal) x8) (val_main_v261 (F := Ideal) x8)
    (fun i => (val_main_v270_apply i).trans rfl) (fun i => (val_main_v260_apply i).trans rfl) (fun i => (val_main_v259_apply i).trans rfl)
    (l2r3_srcCol x7) (l2r3_dstColRow x8) (l2r3_dstColDeg x8) p k

/-- Slab 3 of the self weights, sliced out and flattened, at (k, q). -/
theorem l2r3_wself (k : Fin 512) (q : Fin 256) : val_main_v279 (F := Ideal) x4 (ix2 k q) = x4 (ix3 (3 : Fin 4) k q) := by
  rw [val_main_v279_apply, val_main_v278_apply]
  refine congrArg x4 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Slab 3 of the neighbour weights, sliced out and flattened, at (k, q). -/
theorem l2r3_wneigh (k : Fin 512) (q : Fin 256) : val_main_v283 (F := Ideal) x5 (ix2 k q) = x5 (ix3 (3 : Fin 4) k q) := by
  rw [val_main_v283_apply, val_main_v282_apply]
  refine congrArg x5 (funext fun a => Fin.ext ?_)
  have hk := k.isLt
  have hq := q.isLt
  match a with
  | ⟨0, _⟩ => rfl
  | ⟨1, _⟩ => show (k.val * 256 + q.val) / 256 % 512 = k.val; omega
  | ⟨2, _⟩ => show (k.val * 256 + q.val) % 256 = q.val; omega

/-- Row 3 of the biases, spread over the nodes, at (p, q). -/
theorem l2r3_bias (p : Fin 50000) (q : Fin 256) : val_main_v289 (F := Ideal) x6 (ix2 p q) = x6 (ix2 (3 : Fin 4) q) := by
  rw [val_main_v289_apply, val_main_v288_apply, val_main_v287_apply, val_main_v286_apply]
  refine congrArg x6 (funext fun a => Fin.ext ?_)
  match a with
  | ⟨0, _⟩ => rfl
  | ⟨1, _⟩ => exact Nat.mod_eq_of_lt q.isLt

/-- The relation's step: the accumulator plus the self product, the neighbour product and the bias row. -/
theorem l2r3_step (p : Fin 50000) (q : Fin 256) :
    val_main_v290 (F := Ideal) x0 x1 x2 x3 x4 x5 x6 x7 x8 (ix2 p q)
      = step 256 x7 x8 (val_main_v145 (F := Ideal) x0 x1 x2 x3 x7 x8) x4 x5 x6 p q (3 : Fin 4) (val_main_v254 (F := Ideal) x0 x1 x2 x3 x4 x5 x6 x7 x8 (ix2 p q)) := by
  have hl : ∀ k : Fin 512, lidx_main_v280 (ix2 p q) k = ix2 p k :=
    fun k => funext fun a => match a with | ⟨0, _⟩ => rfl | ⟨1, _⟩ => rfl
  have hr : ∀ k : Fin 512, ridx_main_v280 (ix2 p q) k = ix2 k q :=
    fun k => funext fun a => match a with | ⟨0, _⟩ => rfl | ⟨1, _⟩ => rfl
  have hl' : ∀ k : Fin 512, lidx_main_v284 (ix2 p q) k = ix2 p k :=
    fun k => funext fun a => match a with | ⟨0, _⟩ => rfl | ⟨1, _⟩ => rfl
  have hr' : ∀ k : Fin 512, ridx_main_v284 (ix2 p q) k = ix2 k q :=
    fun k => funext fun a => match a with | ⟨0, _⟩ => rfl | ⟨1, _⟩ => rfl
  rw [val_main_v290_apply, val_main_v285_apply, val_main_v281_apply, val_main_v280_apply, val_main_v284_apply, l2r3_bias]
  simp only [hl, hr, hl', hr', l2r3_wself, l2r3_wneigh, l2r3_nbr]
  rfl

end Cert.ReferenceIdeal.RefValue

end
-- ==== Proof.RefValue.lean ====
/-
  The reference program's result is the specification's serial arrangement.

  The last buffer of the program is the fourth step of the second layer's accumulation; unrolling the four
  steps down to the zero array, and reading the hidden features as their serial arrangement, gives the
  network's result index by index.
-/
import proofs.«128207_j9895604650659_2_alg».proof.Proof.RefLayer2

noncomputable section

open scoped BigOperators

namespace Cert.ReferenceIdeal.RefValue

open Cert.ReferenceIdeal Cert.ReferenceIdeal.Gen Cert.ReferenceIdeal.Read Cert.Sage Idealize.ShloMosaic Idealize.ShloMosaic.ValueIdx

variable (x0 : (⟨S50000x512, .f32⟩ : BufTy).Contents (Elt Ideal)) (x1 x2 : (⟨S4x512x512, .f32⟩ : BufTy).Contents (Elt Ideal))
  (x3 : (⟨S4x512, .f32⟩ : BufTy).Contents (Elt Ideal)) (x4 x5 : (⟨S4x512x256, .f32⟩ : BufTy).Contents (Elt Ideal))
  (x6 : (⟨S4x256, .f32⟩ : BufTy).Contents (Elt Ideal)) (x7 x8 : (⟨S4x250000, .i32⟩ : BufTy).Contents (Elt Ideal))

/-! ## The result -/

/-- The program's result is the serial arrangement of the second layer over the serial hidden features. -/
theorem result_eq :
    val_main_v290 (F := Ideal) x0 x1 x2 x3 x4 x5 x6 x7 x8 = outR x7 x8 x0 x1 x2 x3 x4 x5 x6 := by
  funext i
  obtain ⟨p, q, rfl⟩ : ∃ (p : Fin 50000) (q : Fin 256), i = ix2 p q := ⟨i 0, i 1, eq_ix2 i⟩
  rw [l2r3_step, l2r2_step, l2r1_step, l2r0_step, val_main_v146_apply, hid_eq]
  rfl

end Cert.ReferenceIdeal.RefValue

end
-- ==== Proof.RefRun.lean ====
/-
  The reference program's run, in two halves.

  The reference is a straight line of 343 array operations: the first 173 compute the hidden features (the first
  layer, through the maximum with zero), the last 170 compute the result from the hidden features and the second
  layer's weights, biases and the edge table. The buffer contents after the whole line are the contents after the
  second half started from the contents after the first half. Read at the hidden-feature buffer, the first half
  leaves the composed value of the first layer as a function of the argument arrays; read at the result buffer, the
  second half leaves the composed value of the second layer as a function of whatever the hidden-feature buffer and
  the argument buffers held when it started. No operation writes an argument buffer. Together: from any memory with
  zero counters the run terminates with the result buffer at the composed value of both layers as a function of the
  nine argument arrays, and the argument arrays unchanged.
-/
import proofs.«128207_j9895604650659_2_alg».proof.Proof.RefOps
import proofs.«128207_j9895604650659_2_alg».proof.Proof.RefReadL
import Idealize.ShloMosaic.Lib.StableHlo.Run

set_option Elab.async false

noncomputable section

namespace Cert.ReferenceIdeal.RefRun

open Cert.ReferenceIdeal Cert.ReferenceIdeal.Gen Cert.ReferenceIdeal.Value Idealize.ShloMosaic Idealize.ShloMosaic.TcCoe
open Idealize.SL.Sem Idealize.ShloMosaic.StableHlo

variable {F : FTy → Type} [FloatOps F]

/-- The contents after two lines in a row are the contents after the second from the contents after the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-! ## The first half -/

set_option maxRecDepth 8192 in
set_option maxHeartbeats 40000000 in
/-- The first half leaves the hidden-feature buffer at the first layer's composed value of the argument buffers. -/
theorem layer1 (W : Valuation τ sig (Elt F)) :
    after ops1 W (Proc.devRef .tc main_v145)
      = Read.val_main_v145 (F := F) (W (Proc.devRef .tc main_arg0)) (W (Proc.devRef .tc main_arg1))
          (W (Proc.devRef .tc main_arg2)) (W (Proc.devRef .tc main_arg3)) (W (Proc.devRef .tc main_arg7))
          (W (Proc.devRef .tc main_arg8)) := by
  unfold ops1
  rw [after_append, after_append]
  unfold o0 o1 o2a
  after_results_simp <;> rfl

/-! The first half writes no argument buffer. -/

set_option maxRecDepth 8192 in
set_option maxHeartbeats 40000000 in
theorem kept1_0 (W : Valuation τ sig (Elt F)) :
    after ops1 W (Proc.devRef .tc main_arg0) = W (Proc.devRef .tc main_arg0) := by
  unfold ops1
  rw [after_append, after_append]
  unfold o0 o1 o2a
  after_results_simp

set_option maxRecDepth 8192 in
set_option maxHeartbeats 40000000 in
theorem kept1_1 (W : Valuation τ sig (Elt F)) :
    after ops1 W (Proc.devRef .tc main_arg1) = W (Proc.devRef .tc main_arg1) := by
  unfold ops1
  rw [after_append, after_append]
  unfold o0 o1 o2a
  after_results_simp

set_option maxRecDepth 8192 in
set_option maxHeartbeats 40000000 in
theorem kept1_2 (W : Valuation τ sig (Elt F)) :
    after ops1 W (Proc.devRef .tc main_arg2) = W (Proc.devRef .tc main_arg2) := by
  unfold ops1
  rw [after_append, after_append]
  unfold o0 o1 o2a
  after_results_simp

set_option maxRecDepth 8192 in
set_option maxHeartbeats 40000000 in
theorem kept1_3 (W : Valuation τ sig (Elt F)) :
    after ops1 W (Proc.devRef .tc main_arg3) = W (Proc.devRef .tc main_arg3) := by
  unfold ops1
  rw [after_append, after_append]
  unfold o0 o1 o2a
  after_results_simp

set_option maxRecDepth 8192 in
set_option maxHeartbeats 40000000 in
theorem kept1_4 (W : Valuation τ sig (Elt F)) :
    after ops1 W (Proc.devRef .tc main_arg4) = W (Proc.devRef .tc main_arg4) := by
  unfold ops1
  rw [after_append, after_append]
  unfold o0 o1 o2a
  after_results_simp

set_option maxRecDepth 8192 in
set_option maxHeartbeats 40000000 in
theorem kept1_5 (W : Valuation τ sig (Elt F)) :
    after ops1 W (Proc.devRef .tc main_arg5) = W (Proc.devRef .tc main_arg5) := by
  unfold ops1
  rw [after_append, after_append]
  unfold o0 o1 o2a
  after_results_simp

set_option maxRecDepth 8192 in
set_option maxHeartbeats 40000000 in
theorem kept1_6 (W : Valuation τ sig (Elt F)) :
    after ops1 W (Proc.devRef .tc main_arg6) = W (Proc.devRef .tc main_arg6) := by
  unfold ops1
  rw [after_append, after_append]
  unfold o0 o1 o2a
  after_results_simp

set_option maxRecDepth 8192 in
set_option maxHeartbeats 40000000 in
theorem kept1_7 (W : Valuation τ sig (Elt F)) :
    after ops1 W (Proc.devRef .tc main_arg7) = W (Proc.devRef .tc main_arg7) := by
  unfold ops1
  rw [after_append, after_append]
  unfold o0 o1 o2a
  after_results_simp

set_option maxRecDepth 8192 in
set_option maxHeartbeats 40000000 in
theorem kept1_8 (W : Valuation τ sig (Elt F)) :
    after ops1 W (Proc.devRef .tc main_arg8) = W (Proc.devRef .tc main_arg8) := by
  unfold ops1
  rw [after_append, after_append]
  unfold o0 o1 o2a
  after_results_simp

/-! ## The second half -/

set_option maxRecDepth 8192 in
set_option maxHeartbeats 40000000 in
/-- From contents whose hidden-feature buffer holds the first layer's value of x0 … x3, x7, x8 and whose second-layer
    argument buffers hold x4 … x8, the second half leaves the result buffer at the composed value of both layers. -/
theorem layer2 (W : Valuation τ sig (Elt F))
    (x0 : (⟨S50000x512, .f32⟩ : BufTy).Contents (Elt F)) (x1 x2 : (⟨S4x512x512, .f32⟩ : BufTy).Contents (Elt F))
    (x3 : (⟨S4x512, .f32⟩ : BufTy).Contents (Elt F)) (x4 x5 : (⟨S4x512x256, .f32⟩ : BufTy).Contents (Elt F))
    (x6 : (⟨S4x256, .f32⟩ : BufTy).Contents (Elt F)) (x7 x8 : (⟨S4x250000, .i32⟩ : BufTy).Contents (Elt F))
    (h145 : W (Proc.devRef .tc main_v145) = Read.val_main_v145 (F := F) x0 x1 x2 x3 x7 x8)
    (h4 : W (Proc.devRef .tc main_arg4) = x4) (h5 : W (Proc.devRef .tc main_arg5) = x5)
    (h6 : W (Proc.devRef .tc main_arg6) = x6) (h7 : W (Proc.devRef .tc main_arg7) = x7)
    (h8 : W (Proc.devRef .tc main_arg8) = x8) :
    after ops2 W (Proc.devRef .tc main_v290) = Read.val_main_v290 (F := F) x0 x1 x2 x3 x4 x5 x6 x7 x8 := by
  unfold ops2
  rw [after_append, after_append, after_append]
  unfold o2b o3 o4 o5
  after_results_simp
  rw [h145, h4, h5, h6, h7, h8]
  rfl

/-! The second half writes no argument buffer. -/

set_option maxRecDepth 8192 in
set_option maxHeartbeats 40000000 in
theorem kept2_0 (W : Valuation τ sig (Elt F)) :
    after ops2 W (Proc.devRef .tc main_arg0) = W (Proc.devRef .tc main_arg0) := by
  unfold ops2
  rw [after_append, after_append, after_append]
  unfold o2b o3 o4 o5
  after_results_simp

set_option maxRecDepth 8192 in
set_option maxHeartbeats 40000000 in
theorem kept2_1 (W : Valuation τ sig (Elt F)) :
    after ops2 W (Proc.devRef .tc main_arg1) = W (Proc.devRef .tc main_arg1) := by
  unfold ops2
  rw [after_append, after_append, after_append]
  unfold o2b o3 o4 o5
  after_results_simp

set_option maxRecDepth 8192 in
set_option maxHeartbeats 40000000 in
theorem kept2_2 (W : Valuation τ sig (Elt F)) :
    after ops2 W (Proc.devRef .tc main_arg2) = W (Proc.devRef .tc main_arg2) := by
  unfold ops2
  rw [after_append, after_append, after_append]
  unfold o2b o3 o4 o5
  after_results_simp

set_option maxRecDepth 8192 in
set_option maxHeartbeats 40000000 in
theorem kept2_3 (W : Valuation τ sig (Elt F)) :
    after ops2 W (Proc.devRef .tc main_arg3) = W (Proc.devRef .tc main_arg3) := by
  unfold ops2
  rw [after_append, after_append, after_append]
  unfold o2b o3 o4 o5
  after_results_simp

set_option maxRecDepth 8192 in
set_option maxHeartbeats 40000000 in
theorem kept2_4 (W : Valuation τ sig (Elt F)) :
    after ops2 W (Proc.devRef .tc main_arg4) = W (Proc.devRef .tc main_arg4) := by
  unfold ops2
  rw [after_append, after_append, after_append]
  unfold o2b o3 o4 o5
  after_results_simp

set_option maxRecDepth 8192 in
set_option maxHeartbeats 40000000 in
theorem kept2_5 (W : Valuation τ sig (Elt F)) :
    after ops2 W (Proc.devRef .tc main_arg5) = W (Proc.devRef .tc main_arg5) := by
  unfold ops2
  rw [after_append, after_append, after_append]
  unfold o2b o3 o4 o5
  after_results_simp

set_option maxRecDepth 8192 in
set_option maxHeartbeats 40000000 in
theorem kept2_6 (W : Valuation τ sig (Elt F)) :
    after ops2 W (Proc.devRef .tc main_arg6) = W (Proc.devRef .tc main_arg6) := by
  unfold ops2
  rw [after_append, after_append, after_append]
  unfold o2b o3 o4 o5
  after_results_simp

set_option maxRecDepth 8192 in
set_option maxHeartbeats 40000000 in
theorem kept2_7 (W : Valuation τ sig (Elt F)) :
    after ops2 W (Proc.devRef .tc main_arg7) = W (Proc.devRef .tc main_arg7) := by
  unfold ops2
  rw [after_append, after_append, after_append]
  unfold o2b o3 o4 o5
  after_results_simp

set_option maxRecDepth 8192 in
set_option maxHeartbeats 40000000 in
theorem kept2_8 (W : Valuation τ sig (Elt F)) :
    after ops2 W (Proc.devRef .tc main_arg8) = W (Proc.devRef .tc main_arg8) := by
  unfold ops2
  rw [after_append, after_append, after_append]
  unfold o2b o3 o4 o5
  after_results_simp

/-! ## The whole line -/

/-- After the whole line the result buffer holds the composed value of both layers of the launch contents of the
    argument buffers. -/
theorem post (W : Valuation τ sig (Elt F)) :
    after ops W (Proc.devRef .tc main_v290)
      = Read.val_main_v290 (F := F) (W (Proc.devRef .tc main_arg0)) (W (Proc.devRef .tc main_arg1))
          (W (Proc.devRef .tc main_arg2)) (W (Proc.devRef .tc main_arg3)) (W (Proc.devRef .tc main_arg4))
          (W (Proc.devRef .tc main_arg5)) (W (Proc.devRef .tc main_arg6)) (W (Proc.devRef .tc main_arg7))
          (W (Proc.devRef .tc main_arg8)) := by
  rw [ops_eq, after_append]
  exact layer2 (after ops1 W) _ _ _ _ _ _ _ _ _ (layer1 W) (kept1_4 W) (kept1_5 W) (kept1_6 W) (kept1_7 W) (kept1_8 W)

/-- No operation of the line writes an argument buffer. -/
theorem kept_0 (W : Valuation τ sig (Elt F)) : after ops W (Proc.devRef .tc main_arg0) = W (Proc.devRef .tc main_arg0) := by
  rw [ops_eq, after_append, kept2_0, kept1_0]
theorem kept_1 (W : Valuation τ sig (Elt F)) : after ops W (Proc.devRef .tc main_arg1) = W (Proc.devRef .tc main_arg1) := by
  rw [ops_eq, after_append, kept2_1, kept1_1]
theorem kept_2 (W : Valuation τ sig (Elt F)) : after ops W (Proc.devRef .tc main_arg2) = W (Proc.devRef .tc main_arg2) := by
  rw [ops_eq, after_append, kept2_2, kept1_2]
theorem kept_3 (W : Valuation τ sig (Elt F)) : after ops W (Proc.devRef .tc main_arg3) = W (Proc.devRef .tc main_arg3) := by
  rw [ops_eq, after_append, kept2_3, kept1_3]
theorem kept_4 (W : Valuation τ sig (Elt F)) : after ops W (Proc.devRef .tc main_arg4) = W (Proc.devRef .tc main_arg4) := by
  rw [ops_eq, after_append, kept2_4, kept1_4]
theorem kept_5 (W : Valuation τ sig (Elt F)) : after ops W (Proc.devRef .tc main_arg5) = W (Proc.devRef .tc main_arg5) := by
  rw [ops_eq, after_append, kept2_5, kept1_5]
theorem kept_6 (W : Valuation τ sig (Elt F)) : after ops W (Proc.devRef .tc main_arg6) = W (Proc.devRef .tc main_arg6) := by
  rw [ops_eq, after_append, kept2_6, kept1_6]
theorem kept_7 (W : Valuation τ sig (Elt F)) : after ops W (Proc.devRef .tc main_arg7) = W (Proc.devRef .tc main_arg7) := by
  rw [ops_eq, after_append, kept2_7, kept1_7]
theorem kept_8 (W : Valuation τ sig (Elt F)) : after ops W (Proc.devRef .tc main_arg8) = W (Proc.devRef .tc main_arg8) := by
  rw [ops_eq, after_append, kept2_8, kept1_8]

/-! ## The run -/

/-- On every device, for any float values, from any memory with zero counters: every weakly fair execution of the
    reference terminates with the result buffer at the composed value of both layers of the argument arrays, and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v290)
        = Read.val_main_v290 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      ⟨(h c main_v290).trans (post (launchContents m c)),
       (h c main_arg0).trans (kept_0 (launchContents m c)),
       (h c main_arg1).trans (kept_1 (launchContents m c)),
       (h c main_arg2).trans (kept_2 (launchContents m c)),
       (h c main_arg3).trans (kept_3 (launchContents m c)),
       (h c main_arg4).trans (kept_4 (launchContents m c)),
       (h c main_arg5).trans (kept_5 (launchContents m c)),
       (h c main_arg6).trans (kept_6 (launchContents m c)),
       (h c main_arg7).trans (kept_7 (launchContents m c)),
       (h c main_arg8).trans (kept_8 (launchContents m c))⟩)
    (run_seq scopedRefs_eq scopedSems_eq defs main (fun _ => ops) main_eq (fun _ => ops_sub) m ρ (fun _ => ops_fresh))

end Cert.ReferenceIdeal.RefRun

end
-- ==== Proof.lean ====
/-
  The certificate of the two-layer relational neighbour-mean network: the kernel program (two launches of a
  dense stage among host operations that gather, segment-sum and normalise) against the plain reference.

  The two kernel frames are the generated ones; the reference's frame is its run with the result dropped.
  The ideal pass rewrote nothing, so there is nothing to preserve. For the value claim, the kernel program's
  result array is the network in the fused arrangement (self weights and biases summed over the relations
  first), the reference's is the relation-by-relation accumulation; they agree entry by entry because the
  precondition makes every float input a real number, on which both arrangements are one real expression.
-/
import proofs.«128207_j9895604650659_2_alg».proof.Defs
import proofs.«128207_j9895604650659_2_alg».proof.Proof.Gen.Kernel
import proofs.«128207_j9895604650659_2_alg».proof.Proof.Gen.Kernel.Skeleton
import proofs.«128207_j9895604650659_2_alg».proof.Proof.Gen.Kernel.Launch
import proofs.«128207_j9895604650659_2_alg».proof.Proof.Gen.Kernel.Points
import proofs.«128207_j9895604650659_2_alg».proof.Proof.Gen.Kernel.Frame
import proofs.«128207_j9895604650659_2_alg».proof.Proof.Gen.KernelIdeal
import proofs.«128207_j9895604650659_2_alg».proof.Proof.Gen.KernelIdeal.Skeleton
import proofs.«128207_j9895604650659_2_alg».proof.Proof.Gen.KernelIdeal.Launch
import proofs.«128207_j9895604650659_2_alg».proof.Proof.Gen.KernelIdeal.Points
import proofs.«128207_j9895604650659_2_alg».proof.Proof.Gen.KernelIdeal.Frame
import proofs.«128207_j9895604650659_2_alg».proof.Proof.Gen.ReferenceIdeal
import proofs.«128207_j9895604650659_2_alg».proof.Proof.Gen.Pre_finite_inputs
import proofs.«128207_j9895604650659_2_alg».proof.Proof.Algebra
import proofs.«128207_j9895604650659_2_alg».proof.Proof.FiniteInputs
import proofs.«128207_j9895604650659_2_alg».proof.Proof.KernelRun
import proofs.«128207_j9895604650659_2_alg».proof.Proof.KernelValue
import proofs.«128207_j9895604650659_2_alg».proof.Proof.RefValue
import proofs.«128207_j9895604650659_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both programs end with the network's result: the kernel program in the fused arrangement, the reference in
    the serial one, equal on the real inputs the precondition allows. -/
theorem algebraic : Cert.algebraic_KernelIdeal_ReferenceIdeal := by
  intro m ρ m' ρ' hpre hagree
  refine ⟨_, (θ_run Cert.KernelIdeal.defs _ _).mono (fun _ h c => ⟨(h c).1.trans (Cert.KernelIdeal.Result.result_eq m ρ c), (h c).2⟩)
    (Cert.KernelIdeal.Regions.run_out (F := Ideal) m ρ), ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6⟩ := Cert.Pre_finite_inputs.Finite.reals_of_pre _ _ _ _ _ _ _ _ _ (hpre c)
  rw [Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.Sage.outK_eq_outR _ _ _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
